-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1000000 : Shape := ⟨1, ![1000000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg28 : FVec F S1 .f32) (main_v133 : IVec S_ 1) (main_v136 : IVec S128x1 1) : IVec S_ 1 :=
  let main_c_53 : IVec S_ 1 := constantI S_ 1 1#1
  let main_v137 : IVec S_ 1 := (fun x v => Host.reduce IntOp.andi x v reducesTo_S128x1_S_d0_1 h_S_) main_v136 main_c_53
  let main_v138 : IVec S_ 1 := andi main_v133 main_v137
  let main_v139 : FVec F S1 .f32 := Host.absf main_arg28
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  main_v143

def fn_part7 {F : FTy → Type} [FloatOps F] (main_arg25 : FVec F S128 .f32) (main_arg26 : FVec F S128 .f32) (main_arg27 : FVec F S128x1 .f32) (main_arg28 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x1 .f32 := Host.absf main_arg27
  let main_cst_52 : FVec F S_ .f32 := constant S_ .f32 0x7F800000#32
  let main_v135 : FVec F S128x1 .f32 := broadcastInDim S128x1 ![] bcast_S_S128x1 main_cst_52
  let main_v136 : IVec S128x1 1 := cmpf .olt main_v134 main_v135
  fn_part8 (F := F) main_arg28 main_v133 main_v136

def fn_part6 {F : FTy → Type} [FloatOps F] (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S256x128 .f32 := Host.absf main_arg21
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg25 main_arg26 main_arg27 main_arg28 main_v118 main_v119

def fn_part5 {F : FTy → Type} [FloatOps F] (main_arg18 : FVec F S128x128 .f32) (main_arg19 : FVec F S128 .f32) (main_arg20 : FVec F S128x128 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg20
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x64 .f32) (main_arg1 : FVec F S20000x128 .f32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S256x128 .f32) (main_arg22 : FVec F S128 .f32) (main_arg23 : FVec F S128 .f32) (main_arg24 : FVec F S128 .f32) (main_arg25 : FVec F S128 .f32) (main_arg26 : FVec F S128 .f32) (main_arg27 : FVec F S128x1 .f32) (main_arg28 : FVec F S1 .f32) (main_arg29 : IVec S1000000 32) (main_arg30 : IVec S1000000 32) (main_arg31 : IVec S500000 32) (main_arg32 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1000000 : Shape := ⟨1, ![1000000]⟩
abbrev S500000 : Shape := ⟨1, ![500000]⟩
abbrev S100000x128 : Shape := ⟨2, ![100000, 128]⟩
abbrev S_ : Shape := ⟨0, ![]⟩
abbrev S20000 : Shape := ⟨1, ![20000]⟩
abbrev S1000000x1 : Shape := ⟨2, ![1000000, 1]⟩
abbrev S20000x1 : Shape := ⟨2, ![20000, 1]⟩
abbrev S100000 : Shape := ⟨1, ![100000]⟩
abbrev S100000x1 : Shape := ⟨2, ![100000, 1]⟩
abbrev S500000x1 : Shape := ⟨2, ![500000, 1]⟩
abbrev S1000000x128 : Shape := ⟨2, ![1000000, 128]⟩
abbrev S500000x128 : Shape := ⟨2, ![500000, 128]⟩
abbrev S5000x64 : Shape := ⟨2, ![5000, 64]⟩
abbrev S5000x128 : Shape := ⟨2, ![5000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 146
  | .vmem => 82
  | .smem => 0
  | _ => 0

abbrev hbmTy0_0 (i : Nat) : BufTy := match i % 128 with
  | 0 => ⟨S100000x64, .f32⟩
  | 1 => ⟨S20000x128, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S256x128, .f32⟩
  | 22 => ⟨S128, .f32⟩
  | 23 => ⟨S128, .f32⟩
  | 24 => ⟨S128, .f32⟩
  | 25 => ⟨S128, .f32⟩
  | 26 => ⟨S128, .f32⟩
  | 27 => ⟨S128x1, .f32⟩
  | 28 => ⟨S1, .f32⟩
  | 29 => ⟨S1000000, .i32⟩
  | 30 => ⟨S1000000, .i32⟩
  | 31 => ⟨S500000, .i32⟩
  | 32 => ⟨S500000, .i32⟩
  | 33 => ⟨S100000x128, .f32⟩
  | 34 => ⟨S20000x128, .f32⟩
  | 35 => ⟨S_, .f32⟩
  | 36 => ⟨S1000000, .f32⟩
  | 37 => ⟨S_, .f32⟩
  | 38 => ⟨S500000, .f32⟩
  | 39 => ⟨S_, .f32⟩
  | 40 => ⟨S20000, .f32⟩
  | 41 => ⟨S1000000x1, .i32⟩
  | 42 => ⟨S20000, .f32⟩
  | 43 => ⟨S20000x1, .f32⟩
  | 44 => ⟨S_, .f32⟩
  | 45 => ⟨S100000, .f32⟩
  | 46 => ⟨S1000000x1, .i32⟩
  | 47 => ⟨S100000, .f32⟩
  | 48 => ⟨S100000x1, .f32⟩
  | 49 => ⟨S_, .f32⟩
  | 50 => ⟨S100000, .f32⟩
  | 51 => ⟨S500000x1, .i32⟩
  | 52 => ⟨S100000, .f32⟩
  | 53 => ⟨S100000x1, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x128, .f32⟩
  | 63 => ⟨S_, .f32⟩
  | 64 => ⟨S20000x128, .f32⟩
  | 65 => ⟨S1000000x1, .i32⟩
  | 66 => ⟨S20000x128, .f32⟩
  | 67 => ⟨S20000x128, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x128, .f32⟩
  | 77 => ⟨S_, .f32⟩
  | 78 => ⟨S100000x128, .f32⟩
  | 79 => ⟨S1000000x1, .i32⟩
  | 80 => ⟨S100000x128, .f32⟩
  | 81 => ⟨S100000x128, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000x128, .f32⟩
  | 91 => ⟨S_, .f32⟩
  | 92 => ⟨S20000x128, .f32⟩
  | 93 => ⟨S1000000x1, .i32⟩
  | 94 => ⟨S20000x128, .f32⟩
  | 95 => ⟨S20000x128, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .f32⟩
  | 106 => ⟨S100000x128, .f32⟩
  | 107 => ⟨S1000000x1, .i32⟩
  | 108 => ⟨S100000x128, .f32⟩
  | 109 => ⟨S100000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S_, .f32⟩
  | 120 => ⟨S100000x128, .f32⟩
  | 121 => ⟨S500000x1, .i32⟩
  | 122 => ⟨S100000x128, .f32⟩
  | 123 => ⟨S100000x128, .f32⟩
  | 124 => ⟨S_, .i32⟩
  | 125 => ⟨S1000000, .i32⟩
  | 126 => ⟨S1000000, .i1⟩
  | 127 => ⟨S_, .i32⟩
  | _ => ⟨S100000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x128, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x128, .f32⟩
  | 14 => ⟨S128x128, .f32⟩
  | 15 => ⟨S128x128, .f32⟩
  | 16 => ⟨S1000000x1, .f32⟩
  | 17 => ⟨S1000000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S5000x128, .f32⟩
  | .local _ .vmem, ⟨50, _⟩ => ⟨S5000x128, .f32⟩
  | .local _ .vmem, ⟨51, _⟩ => ⟨S128x128, .f32⟩
  | .local _ .vmem, ⟨52, _⟩ => ⟨S128, .f32⟩
  | .local _ .vmem, ⟨53, _⟩ => ⟨S128x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x1, .f32⟩
  | .local _ .vmem, ⟨59, _⟩ => ⟨S5000x1, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S128, .f32⟩
  | .local _ .vmem, ⟨64, _⟩ => ⟨S128x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S128x128, .f32⟩
  | .local _ .vmem, ⟨72, _⟩ => ⟨S128x128, .f32⟩
  | .local _ .vmem, ⟨73, _⟩ => ⟨S128, .f32⟩
  | .local _ .vmem, ⟨74, _⟩ => ⟨S128, .f32⟩
  | .local _ .vmem, ⟨75, _⟩ => ⟨S128, .f32⟩
  | .local _ .vmem, ⟨76, _⟩ => ⟨S128, .f32⟩
  | .local _ .vmem, ⟨77, _⟩ => ⟨S128, .f32⟩
  | .local _ .vmem, ⟨78, _⟩ => ⟨S128x1, .f32⟩
  | .local _ .vmem, ⟨79, _⟩ => ⟨S1, .f32⟩
  | .local _ .vmem, ⟨80, _⟩ => ⟨S5000x1, .f32⟩
  | .local _ .vmem, ⟨81, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_cst_0 : Ref sig .tc := ⟨.hbm, 37, rfl⟩
abbrev main_call0_v3 : Ref sig .tc := ⟨.hbm, 38, rfl⟩
abbrev main_call0_cst_1 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_2 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_v15 : Ref sig .tc := ⟨.hbm, 53, rfl⟩
abbrev main_call0_c : Ref sig .tc := ⟨.hbm, 54, rfl⟩
abbrev main_call0_v16 : Ref sig .tc := ⟨.hbm, 55, rfl⟩
abbrev main_call0_v17 : Ref sig .tc := ⟨.hbm, 56, rfl⟩
abbrev main_call0_c_4 : Ref sig .tc := ⟨.hbm, 57, rfl⟩
abbrev main_call0_v18 : Ref sig .tc := ⟨.hbm, 58, rfl⟩
abbrev main_call0_v19 : Ref sig .tc := ⟨.hbm, 59, rfl⟩
abbrev main_call0_v20 : Ref sig .tc := ⟨.hbm, 60, rfl⟩
abbrev main_call0_v21 : Ref sig .tc := ⟨.hbm, 61, rfl⟩
abbrev main_call0_v22 : Ref sig .tc := ⟨.hbm, 62, rfl⟩
abbrev main_call0_cst_5 : Ref sig .tc := ⟨.hbm, 63, rfl⟩
abbrev main_call0_v23 : Ref sig .tc := ⟨.hbm, 64, rfl⟩
abbrev main_call0_v24 : Ref sig .tc := ⟨.hbm, 65, rfl⟩
abbrev main_call0_v25 : Ref sig .tc := ⟨.hbm, 66, rfl⟩
abbrev main_call0_v26 : Ref sig .tc := ⟨.hbm, 67, rfl⟩
abbrev main_call0_c_6 : Ref sig .tc := ⟨.hbm, 68, rfl⟩
abbrev main_call0_v27 : Ref sig .tc := ⟨.hbm, 69, rfl⟩
abbrev main_call0_v28 : Ref sig .tc := ⟨.hbm, 70, rfl⟩
abbrev main_call0_c_7 : Ref sig .tc := ⟨.hbm, 71, rfl⟩
abbrev main_call0_v29 : Ref sig .tc := ⟨.hbm, 72, rfl⟩
abbrev main_call0_v30 : Ref sig .tc := ⟨.hbm, 73, rfl⟩
abbrev main_call0_v31 : Ref sig .tc := ⟨.hbm, 74, rfl⟩
abbrev main_call0_v32 : Ref sig .tc := ⟨.hbm, 75, rfl⟩
abbrev main_call0_v33 : Ref sig .tc := ⟨.hbm, 76, rfl⟩
abbrev main_call0_cst_8 : Ref sig .tc := ⟨.hbm, 77, rfl⟩
abbrev main_call0_v34 : Ref sig .tc := ⟨.hbm, 78, rfl⟩
abbrev main_call0_v35 : Ref sig .tc := ⟨.hbm, 79, rfl⟩
abbrev main_call0_v36 : Ref sig .tc := ⟨.hbm, 80, rfl⟩
abbrev main_call0_v37 : Ref sig .tc := ⟨.hbm, 81, rfl⟩
abbrev main_call0_c_9 : Ref sig .tc := ⟨.hbm, 82, rfl⟩
abbrev main_call0_v38 : Ref sig .tc := ⟨.hbm, 83, rfl⟩
abbrev main_call0_v39 : Ref sig .tc := ⟨.hbm, 84, rfl⟩
abbrev main_call0_c_10 : Ref sig .tc := ⟨.hbm, 85, rfl⟩
abbrev main_call0_v40 : Ref sig .tc := ⟨.hbm, 86, rfl⟩
abbrev main_call0_v41 : Ref sig .tc := ⟨.hbm, 87, rfl⟩
abbrev main_call0_v42 : Ref sig .tc := ⟨.hbm, 88, rfl⟩
abbrev main_call0_v43 : Ref sig .tc := ⟨.hbm, 89, rfl⟩
abbrev main_call0_v44 : Ref sig .tc := ⟨.hbm, 90, rfl⟩
abbrev main_call0_cst_11 : Ref sig .tc := ⟨.hbm, 91, rfl⟩
abbrev main_call0_v45 : Ref sig .tc := ⟨.hbm, 92, rfl⟩
abbrev main_call0_v46 : Ref sig .tc := ⟨.hbm, 93, rfl⟩
abbrev main_call0_v47 : Ref sig .tc := ⟨.hbm, 94, rfl⟩
abbrev main_call0_v48 : Ref sig .tc := ⟨.hbm, 95, rfl⟩
abbrev main_call0_c_12 : Ref sig .tc := ⟨.hbm, 96, rfl⟩
abbrev main_call0_v49 : Ref sig .tc := ⟨.hbm, 97, rfl⟩
abbrev main_call0_v50 : Ref sig .tc := ⟨.hbm, 98, rfl⟩
abbrev main_call0_c_13 : Ref sig .tc := ⟨.hbm, 99, rfl⟩
abbrev main_call0_v51 : Ref sig .tc := ⟨.hbm, 100, rfl⟩
abbrev main_call0_v52 : Ref sig .tc := ⟨.hbm, 101, rfl⟩
abbrev main_call0_v53 : Ref sig .tc := ⟨.hbm, 102, rfl⟩
abbrev main_call0_v54 : Ref sig .tc := ⟨.hbm, 103, rfl⟩
abbrev main_call0_v55 : Ref sig .tc := ⟨.hbm, 104, rfl⟩
abbrev main_call0_cst_14 : Ref sig .tc := ⟨.hbm, 105, rfl⟩
abbrev main_call0_v56 : Ref sig .tc := ⟨.hbm, 106, rfl⟩
abbrev main_call0_v57 : Ref sig .tc := ⟨.hbm, 107, rfl⟩
abbrev main_call0_v58 : Ref sig .tc := ⟨.hbm, 108, rfl⟩
abbrev main_call0_v59 : Ref sig .tc := ⟨.hbm, 109, rfl⟩
abbrev main_call0_c_15 : Ref sig .tc := ⟨.hbm, 110, rfl⟩
abbrev main_call0_v60 : Ref sig .tc := ⟨.hbm, 111, rfl⟩
abbrev main_call0_v61 : Ref sig .tc := ⟨.hbm, 112, rfl⟩
abbrev main_call0_c_16 : Ref sig .tc := ⟨.hbm, 113, rfl⟩
abbrev main_call0_v62 : Ref sig .tc := ⟨.hbm, 114, rfl⟩
abbrev main_call0_v63 : Ref sig .tc := ⟨.hbm, 115, rfl⟩
abbrev main_call0_v64 : Ref sig .tc := ⟨.hbm, 116, rfl⟩
abbrev main_call0_v65 : Ref sig .tc := ⟨.hbm, 117, rfl⟩
abbrev main_call0_v66 : Ref sig .tc := ⟨.hbm, 118, rfl⟩
abbrev main_call0_cst_17 : Ref sig .tc := ⟨.hbm, 119, rfl⟩
abbrev main_call0_v67 : Ref sig .tc := ⟨.hbm, 120, rfl⟩
abbrev main_call0_v68 : Ref sig .tc := ⟨.hbm, 121, rfl⟩
abbrev main_call0_v69 : Ref sig .tc := ⟨.hbm, 122, rfl⟩
abbrev main_call0_v70 : Ref sig .tc := ⟨.hbm, 123, rfl⟩
abbrev main_call0_c_18 : Ref sig .tc := ⟨.hbm, 124, rfl⟩
abbrev main_call0_v71 : Ref sig .tc := ⟨.hbm, 125, rfl⟩
abbrev main_call0_v72 : Ref sig .tc := ⟨.hbm, 126, rfl⟩
abbrev main_call0_c_19 : Ref sig .tc := ⟨.hbm, 127, rfl⟩
abbrev main_call0_v73 : Ref sig .tc := ⟨.hbm, 128, rfl⟩
abbrev main_call0_v74 : Ref sig .tc := ⟨.hbm, 129, rfl⟩
abbrev main_call0_v75 : Ref sig .tc := ⟨.hbm, 130, rfl⟩
abbrev main_call0_v76 : Ref sig .tc := ⟨.hbm, 131, rfl⟩
abbrev main_call0_v77 : Ref sig .tc := ⟨.hbm, 132, rfl⟩
abbrev main_call0_c_20 : Ref sig .tc := ⟨.hbm, 133, rfl⟩
abbrev main_call0_v78 : Ref sig .tc := ⟨.hbm, 134, rfl⟩
abbrev main_call0_v79 : Ref sig .tc := ⟨.hbm, 135, rfl⟩
abbrev main_call0_c_21 : Ref sig .tc := ⟨.hbm, 136, rfl⟩
abbrev main_call0_v80 : Ref sig .tc := ⟨.hbm, 137, rfl⟩
abbrev main_call0_v81 : Ref sig .tc := ⟨.hbm, 138, rfl⟩
abbrev main_call0_v82 : Ref sig .tc := ⟨.hbm, 139, rfl⟩
abbrev main_call0_v83 : Ref sig .tc := ⟨.hbm, 140, rfl⟩
abbrev main_call0_v84 : Ref sig .tc := ⟨.hbm, 141, rfl⟩
abbrev main_call0_v85 : Ref sig .tc := ⟨.hbm, 142, rfl⟩
abbrev main_call0_v86 : Ref sig .tc := ⟨.hbm, 143, rfl⟩
abbrev main_call0_v87 : Ref sig .tc := ⟨.hbm, 144, rfl⟩
abbrev main_v0 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg2_1 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg6_0 : Ref sig .tc := ⟨.vmem, 65, rfl⟩
abbrev cc6_stg6_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg1_1 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg6_0 : Ref sig .tc := ⟨.vmem, 75, rfl⟩
abbrev cc7_stg7_0 : Ref sig .tc := ⟨.vmem, 76, rfl⟩
abbrev cc7_stg8_0 : Ref sig .tc := ⟨.vmem, 77, rfl⟩
abbrev cc7_stg9_0 : Ref sig .tc := ⟨.vmem, 78, rfl⟩
abbrev cc7_stg10_0 : Ref sig .tc := ⟨.vmem, 79, rfl⟩
abbrev cc7_stg11_0 : Ref sig .tc := ⟨.vmem, 80, rfl⟩
abbrev cc7_stg11_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc6_sem3_0 : DmaSem sig := 62
abbrev cc6_sem4_0 : DmaSem sig := 63
abbrev cc6_sem5_0 : DmaSem sig := 64
abbrev cc6_sem6_0 : DmaSem sig := 65
abbrev cc6_sem6_1 : DmaSem sig := 66
abbrev cc7_sem0_0 : DmaSem sig := 67
abbrev cc7_sem0_1 : DmaSem sig := 68
abbrev cc7_sem1_0 : DmaSem sig := 69
abbrev cc7_sem1_1 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem6_0 : DmaSem sig := 75
abbrev cc7_sem7_0 : DmaSem sig := 76
abbrev cc7_sem8_0 : DmaSem sig := 77
abbrev cc7_sem9_0 : DmaSem sig := 78
abbrev cc7_sem10_0 : DmaSem sig := 79
abbrev cc7_sem11_0 : DmaSem sig := 80
abbrev cc7_sem11_1 : DmaSem sig := 81

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_8 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S128x1 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S5000x1 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

class Facts₀ : Prop where
  bcast_S_S1000000 : S_.BroadcastsInDim S1000000 (![] : Fin 0 → Fin S1000000.rank)
  bcast_S_S500000 : S_.BroadcastsInDim S500000 (![] : Fin 0 → Fin S500000.rank)
  bcast_S_S20000 : S_.BroadcastsInDim S20000 (![] : Fin 0 → Fin S20000.rank)
  bcast_S1000000_S1000000x1_0 : S1000000.BroadcastsInDim S1000000x1 (![0] : Fin 1 → Fin S1000000x1.rank)
  bcast_S20000_S20000x1_0 : S20000.BroadcastsInDim S20000x1 (![0] : Fin 1 → Fin S20000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  shapeCasts_S1000000x1_S1000000 : S1000000x1.ShapeCasts S1000000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S20000_S1000000x1_S1000000_n_0_0_1_wf : ScatterDims.WF S20000 S1000000x1 S1000000 [] [0] [0] 1
  scatter_S100000_S1000000x1_S1000000_n_0_0_1_wf : ScatterDims.WF S100000 S1000000x1 S1000000 [] [0] [0] 1
  scatter_S100000_S500000x1_S500000_n_0_0_1_wf : ScatterDims.WF S100000 S500000x1 S500000 [] [0] [0] 1
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S20000x128.size a
  hwx1_3 : ∀ i : grid1.Coords, EltTy.bits .f32 = 32 ∨ (Rect.block (s := S20000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S20000x128.size a
  hwx2_0 : ∀ i : grid2.Coords, EltTy.bits .f32 = 32 ∨ (Rect.block (s := S20000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S20000x1.size a
  hwx2_1 : ∀ i : grid2.Coords, EltTy.bits .f32 = 32 ∨ (Rect.block (s := S20000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S20000x128.size a
  hwx2_2 : ∀ i : grid2.Coords, EltTy.bits .f32 = 32 ∨ (Rect.block (s := S20000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S20000x128.size a
  hwx2_6 : ∀ i : grid2.Coords, EltTy.bits .f32 = 32 ∨ (Rect.block (s := S20000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S20000x128.size a
  hwx4_0 : ∀ i : grid4.Coords, EltTy.bits .f32 = 32 ∨ (Rect.block (s := S20000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S20000x1.size a
  hwx4_1 : ∀ i : grid4.Coords, EltTy.bits .f32 = 32 ∨ (Rect.block (s := S20000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S20000x128.size a
  hwx4_2 : ∀ i : grid4.Coords, EltTy.bits .f32 = 32 ∨ (Rect.block (s := S20000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S20000x128.size a
  hwx4_6 : ∀ i : grid4.Coords, EltTy.bits .f32 = 32 ∨ (Rect.block (s := S20000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S1000000x128.size a
  hwx7_0 : ∀ i : grid7.Coords, EltTy.bits .f32 = 32 ∨ (Rect.block (s := S1000000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S1000000x128.size a
  hwx7_1 : ∀ i : grid7.Coords, EltTy.bits .f32 = 32 ∨ (Rect.block (s := S1000000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128.size a ≤ S128.size a
  hwx7_4 : ∀ i : grid7.Coords, EltTy.bits .f32 = 32 ∨ (Rect.block (s := S128) S128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128.size a ≤ S128.size a
  hwx7_6 : ∀ i : grid7.Coords, EltTy.bits .f32 = 32 ∨ (Rect.block (s := S128) S128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128.size a ≤ S128.size a
  hwx7_7 : ∀ i : grid7.Coords, EltTy.bits .f32 = 32 ∨ (Rect.block (s := S128) S128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128.size a ≤ S128.size a
  hwx7_8 : ∀ i : grid7.Coords, EltTy.bits .f32 = 32 ∨ (Rect.block (s := S128) S128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S128x1.size a ≤ S128x1.size a
  hwx7_9 : ∀ i : grid7.Coords, EltTy.bits .f32 = 32 ∨ (Rect.block (s := S128x1) S128x1.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1.size a ≤ S1.size a
  hwx7_10 : ∀ i : grid7.Coords, EltTy.bits .f32 = 32 ∨ (Rect.block (s := S1) S1.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S5000x1.size a ≤ S1000000x1.size a
  hwx7_11 : ∀ i : grid7.Coords, EltTy.bits .f32 = 32 ∨ (Rect.block (s := S1000000x1) S5000x1.size (cc7_transform_11 i) (hinb7_11 i)).WholeWords (EltTy.packing .f32)

variable [Facts₀]

def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v7) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v26) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_call0_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v37) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_call0_v47) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v7) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v26) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v48) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_call0_v58) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v11) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v37) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg16) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg17) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_call0_v59) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_call0_v69) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v15) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v59) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg18) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg19) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg20) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call0_v70) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_call0_v77) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v84) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v85) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v86) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg22) S128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg23) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg24) S128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg25) S128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg26) S128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg27) S128x1.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_arg28) S1.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_call0_v87) S5000x1.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

class Facts : Prop extends Facts₀ where

variable [Facts]
-- ==== ReferenceIdeal.lean ====
abbrev S100000x64 : Shape := ⟨2, ![100000, 64]⟩
abbrev S20000x128 : Shape := ⟨2, ![20000, 128]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1000000 : Shape := ⟨1, ![1000000]⟩
abbrev S500000 : Shape := ⟨1, ![500000]⟩
abbrev S100000x128 : Shape := ⟨2, ![100000, 128]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S20000 : Shape := ⟨1, ![20000]⟩
abbrev S20000x1 : Shape := ⟨2, ![20000, 1]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩
abbrev S1000000x256 : Shape := ⟨2, ![1000000, 256]⟩
abbrev S1x1 : Shape := ⟨2, ![1, 1]⟩

abbrev nBuf : Space → Nat
  | .hbm => 278
  | .vmem => 0
  | .smem => 0
  | _ => 0

abbrev hbmTy0_0 (i : Nat) : BufTy := match i % 128 with
  | 0 => ⟨S100000x64, .f32⟩
  | 1 => ⟨S20000x128, .f32⟩
  | 2 => ⟨S64x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S256x128, .f32⟩
  | 22 => ⟨S128, .f32⟩
  | 23 => ⟨S128, .f32⟩
  | 24 => ⟨S128, .f32⟩
  | 25 => ⟨S128, .f32⟩
  | 26 => ⟨S128, .f32⟩
  | 27 => ⟨S128x1, .f32⟩
  | 28 => ⟨S1, .f32⟩
  | 29 => ⟨S1000000, .i32⟩
  | 30 => ⟨S1000000, .i32⟩
  | 31 => ⟨S500000, .i32⟩
  | 32 => ⟨S500000, .i32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S20000x128, .f32⟩
  | 41 => ⟨S1x128, .f32⟩
  | 42 => ⟨S20000x128, .f32⟩
  | 43 => ⟨S20000x128, .f32⟩
  | 44 => ⟨S_, .f32⟩
  | 45 => ⟨S20000x128, .f32⟩
  | 46 => ⟨S20000x128, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000x128, .f32⟩
  | 56 => ⟨S_, .f32⟩
  | 57 => ⟨S20000x128, .f32⟩
  | 58 => ⟨S1000000x1, .i32⟩
  | 59 => ⟨S20000x128, .f32⟩
  | 60 => ⟨S_, .f32⟩
  | 61 => ⟨S1000000, .f32⟩
  | 62 => ⟨S_, .f32⟩
  | 63 => ⟨S20000, .f32⟩
  | 64 => ⟨S1000000x1, .i32⟩
  | 65 => ⟨S20000, .f32⟩
  | 66 => ⟨S_, .f32⟩
  | 67 => ⟨S20000, .f32⟩
  | 68 => ⟨S20000, .f32⟩
  | 69 => ⟨S20000x1, .f32⟩
  | 70 => ⟨S20000x128, .f32⟩
  | 71 => ⟨S20000x128, .f32⟩
  | 72 => ⟨S20000x128, .f32⟩
  | 73 => ⟨S1x128, .f32⟩
  | 74 => ⟨S20000x128, .f32⟩
  | 75 => ⟨S20000x128, .f32⟩
  | 76 => ⟨S20000x128, .f32⟩
  | 77 => ⟨S20000x128, .f32⟩
  | 78 => ⟨S_, .f32⟩
  | 79 => ⟨S20000x128, .f32⟩
  | 80 => ⟨S20000x128, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S_, .f32⟩
  | 91 => ⟨S100000x128, .f32⟩
  | 92 => ⟨S1000000x1, .i32⟩
  | 93 => ⟨S100000x128, .f32⟩
  | 94 => ⟨S_, .f32⟩
  | 95 => ⟨S1000000, .f32⟩
  | 96 => ⟨S_, .f32⟩
  | 97 => ⟨S100000, .f32⟩
  | 98 => ⟨S1000000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .i32⟩
  | 116 => ⟨S1000000, .i32⟩
  | 117 => ⟨S1000000, .i1⟩
  | 118 => ⟨S_, .i32⟩
  | 119 => ⟨S1000000, .i32⟩
  | 120 => ⟨S1000000, .i32⟩
  | 121 => ⟨S1000000, .i32⟩
  | 122 => ⟨S1000000x1, .i32⟩
  | 123 => ⟨S1000000x128, .f32⟩
  | 124 => ⟨S_, .f32⟩
  | 125 => ⟨S20000x128, .f32⟩
  | 126 => ⟨S1000000x1, .i32⟩
  | 127 => ⟨S20000x128, .f32⟩
  | _ => ⟨S100000x64, .f32⟩

abbrev hbmTy0_1 (i : Nat) : BufTy := match i % 128 with
  | 0 => ⟨S_, .f32⟩
  | 1 => ⟨S1000000, .f32⟩
  | 2 => ⟨S_, .f32⟩
  | 3 => ⟨S20000, .f32⟩
  | 4 => ⟨S1000000x1, .i32⟩
  | 5 => ⟨S20000, .f32⟩
  | 6 => ⟨S_, .f32⟩
  | 7 => ⟨S20000, .f32⟩
  | 8 => ⟨S20000, .f32⟩
  | 9 => ⟨S20000x1, .f32⟩
  | 10 => ⟨S20000x128, .f32⟩
  | 11 => ⟨S20000x128, .f32⟩
  | 12 => ⟨S20000x128, .f32⟩
  | 13 => ⟨S1x128, .f32⟩
  | 14 => ⟨S20000x128, .f32⟩
  | 15 => ⟨S20000x128, .f32⟩
  | 16 => ⟨S20000x128, .f32⟩
  | 17 => ⟨S20000x128, .f32⟩
  | 18 => ⟨S_, .f32⟩
  | 19 => ⟨S20000x128, .f32⟩
  | 20 => ⟨S20000x128, .f32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x128, .f32⟩
  | 30 => ⟨S_, .f32⟩
  | 31 => ⟨S100000x128, .f32⟩
  | 32 => ⟨S1000000x1, .i32⟩
  | 33 => ⟨S100000x128, .f32⟩
  | 34 => ⟨S_, .f32⟩
  | 35 => ⟨S1000000, .f32⟩
  | 36 => ⟨S_, .f32⟩
  | 37 => ⟨S100000, .f32⟩
  | 38 => ⟨S1000000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .f32⟩
  | 65 => ⟨S100000x128, .f32⟩
  | 66 => ⟨S500000x1, .i32⟩
  | 67 => ⟨S100000x128, .f32⟩
  | 68 => ⟨S_, .f32⟩
  | 69 => ⟨S500000, .f32⟩
  | 70 => ⟨S_, .f32⟩
  | 71 => ⟨S100000, .f32⟩
  | 72 => ⟨S500000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x128, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x128, .f32⟩
  | 107 => ⟨S1000000x256, .f32⟩
  | 108 => ⟨S1000000x128, .f32⟩
  | 109 => ⟨S1x128, .f32⟩
  | 110 => ⟨S1000000x128, .f32⟩
  | 111 => ⟨S1000000x128, .f32⟩
  | 112 => ⟨S1x128, .f32⟩
  | 113 => ⟨S1000000x128, .f32⟩
  | 114 => ⟨S1000000x128, .f32⟩
  | 115 => ⟨S_, .f32⟩
  | 116 => ⟨S128, .f32⟩
  | 117 => ⟨S128, .f32⟩
  | 118 => ⟨S128, .f32⟩
  | 119 => ⟨S1x128, .f32⟩
  | 120 => ⟨S1000000x128, .f32⟩
  | 121 => ⟨S1000000x128, .f32⟩
  | 122 => ⟨S1x128, .f32⟩
  | 123 => ⟨S1000000x128, .f32⟩
  | 124 => ⟨S1000000x128, .f32⟩
  | 125 => ⟨S1x128, .f32⟩
  | 126 => ⟨S1000000x128, .f32⟩
  | 127 => ⟨S1000000x128, .f32⟩
  | _ => ⟨S100000x64, .f32⟩

abbrev hbmTy0_2 (i : Nat) : BufTy := match i % 128 with
  | 0 => ⟨S_, .f32⟩
  | 1 => ⟨S1000000x128, .f32⟩
  | 2 => ⟨S1000000x128, .f32⟩
  | 3 => ⟨S1000000x1, .f32⟩
  | 4 => ⟨S1x1, .f32⟩
  | 5 => ⟨S1000000x1, .f32⟩
  | 6 => ⟨S1000000x1, .f32⟩
  | 7 => ⟨S1000000x1, .f32⟩
  | 8 => ⟨S1000000x1, .f32⟩
  | 9 => ⟨S_, .f32⟩
  | 10 => ⟨S1000000x1, .f32⟩
  | 11 => ⟨S1000000x1, .f32⟩
  | 12 => ⟨S_, .f32⟩
  | 13 => ⟨S1000000x1, .f32⟩
  | 14 => ⟨S1000000x1, .f32⟩
  | 15 => ⟨S1000000, .f32⟩
  | 16 => ⟨S_, .f32⟩
  | 17 => ⟨S1000000, .f32⟩
  | 18 => ⟨S1000000, .f32⟩
  | 19 => ⟨S_, .f32⟩
  | 20 => ⟨S1000000, .f32⟩
  | 21 => ⟨S1000000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_call0_cst : Ref sig .tc := ⟨.hbm, 37, rfl⟩
abbrev main_call0_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_call1_cst : Ref sig .tc := ⟨.hbm, 44, rfl⟩
abbrev main_call1_v0 : Ref sig .tc := ⟨.hbm, 45, rfl⟩
abbrev main_v9 : Ref sig .tc := ⟨.hbm, 46, rfl⟩
abbrev main_c : Ref sig .tc := ⟨.hbm, 47, rfl⟩
abbrev main_v10 : Ref sig .tc := ⟨.hbm, 48, rfl⟩
abbrev main_v11 : Ref sig .tc := ⟨.hbm, 49, rfl⟩
abbrev main_c_0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_v20 : Ref sig .tc := ⟨.hbm, 61, rfl⟩
abbrev main_cst_2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_3 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_call2_cst : Ref sig .tc := ⟨.hbm, 78, rfl⟩
abbrev main_call2_v0 : Ref sig .tc := ⟨.hbm, 79, rfl⟩
abbrev main_v35 : Ref sig .tc := ⟨.hbm, 80, rfl⟩
abbrev main_c_4 : Ref sig .tc := ⟨.hbm, 81, rfl⟩
abbrev main_v36 : Ref sig .tc := ⟨.hbm, 82, rfl⟩
abbrev main_v37 : Ref sig .tc := ⟨.hbm, 83, rfl⟩
abbrev main_c_5 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_6 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_cst_7 : Ref sig .tc := ⟨.hbm, 94, rfl⟩
abbrev main_v46 : Ref sig .tc := ⟨.hbm, 95, rfl⟩
abbrev main_cst_8 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_9 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_call3_cst : Ref sig .tc := ⟨.hbm, 112, rfl⟩
abbrev main_call3_v0 : Ref sig .tc := ⟨.hbm, 113, rfl⟩
abbrev main_v61 : Ref sig .tc := ⟨.hbm, 114, rfl⟩
abbrev main_c_10 : Ref sig .tc := ⟨.hbm, 115, rfl⟩
abbrev main_v62 : Ref sig .tc := ⟨.hbm, 116, rfl⟩
abbrev main_v63 : Ref sig .tc := ⟨.hbm, 117, rfl⟩
abbrev main_c_11 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_12 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_13 : Ref sig .tc := ⟨.hbm, 128, rfl⟩
abbrev main_v72 : Ref sig .tc := ⟨.hbm, 129, rfl⟩
abbrev main_cst_14 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_15 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_call4_cst : Ref sig .tc := ⟨.hbm, 146, rfl⟩
abbrev main_call4_v0 : Ref sig .tc := ⟨.hbm, 147, rfl⟩
abbrev main_v87 : Ref sig .tc := ⟨.hbm, 148, rfl⟩
abbrev main_c_16 : Ref sig .tc := ⟨.hbm, 149, rfl⟩
abbrev main_v88 : Ref sig .tc := ⟨.hbm, 150, rfl⟩
abbrev main_v89 : Ref sig .tc := ⟨.hbm, 151, rfl⟩
abbrev main_c_17 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_18 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_19 : Ref sig .tc := ⟨.hbm, 162, rfl⟩
abbrev main_v98 : Ref sig .tc := ⟨.hbm, 163, rfl⟩
abbrev main_cst_20 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_21 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_call5_cst : Ref sig .tc := ⟨.hbm, 180, rfl⟩
abbrev main_call5_v0 : Ref sig .tc := ⟨.hbm, 181, rfl⟩
abbrev main_v113 : Ref sig .tc := ⟨.hbm, 182, rfl⟩
abbrev main_c_22 : Ref sig .tc := ⟨.hbm, 183, rfl⟩
abbrev main_v114 : Ref sig .tc := ⟨.hbm, 184, rfl⟩
abbrev main_v115 : Ref sig .tc := ⟨.hbm, 185, rfl⟩
abbrev main_c_23 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_cst_24 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_25 : Ref sig .tc := ⟨.hbm, 196, rfl⟩
abbrev main_v124 : Ref sig .tc := ⟨.hbm, 197, rfl⟩
abbrev main_cst_26 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_cst_27 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_call6_cst : Ref sig .tc := ⟨.hbm, 214, rfl⟩
abbrev main_call6_v0 : Ref sig .tc := ⟨.hbm, 215, rfl⟩
abbrev main_v139 : Ref sig .tc := ⟨.hbm, 216, rfl⟩
abbrev main_c_28 : Ref sig .tc := ⟨.hbm, 217, rfl⟩
abbrev main_v140 : Ref sig .tc := ⟨.hbm, 218, rfl⟩
abbrev main_v141 : Ref sig .tc := ⟨.hbm, 219, rfl⟩
abbrev main_c_29 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_c_30 : Ref sig .tc := ⟨.hbm, 226, rfl⟩
abbrev main_v147 : Ref sig .tc := ⟨.hbm, 227, rfl⟩
abbrev main_v148 : Ref sig .tc := ⟨.hbm, 228, rfl⟩
abbrev main_c_31 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_cst_32 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_call7_cst : Ref sig .tc := ⟨.hbm, 256, rfl⟩
abbrev main_call7_v0 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_cst_33 : Ref sig .tc := ⟨.hbm, 265, rfl⟩
abbrev main_v181 : Ref sig .tc := ⟨.hbm, 266, rfl⟩
abbrev main_v182 : Ref sig .tc := ⟨.hbm, 267, rfl⟩
abbrev main_cst_34 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_cst_35 : Ref sig .tc := ⟨.hbm, 272, rfl⟩
abbrev main_v186 : Ref sig .tc := ⟨.hbm, 273, rfl⟩
abbrev main_v187 : Ref sig .tc := ⟨.hbm, 274, rfl⟩
abbrev main_cst_36 : Ref sig .tc := ⟨.hbm, 275, rfl⟩
abbrev main_v188 : Ref sig .tc := ⟨.hbm, 276, rfl⟩
abbrev main_v189 : Ref sig .tc := ⟨.hbm, 277, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S1000000x128_S1000000x128_S1000000x256_d1 : Shape.Concatenates [S1000000x128, S1000000x128] S1000000x256 1
  bcast_S1x128_S1000000x128_0_1 : S1x128.BroadcastsInDim S1000000x128 (![0, 1] : Fin 2 → Fin S1000000x128.rank)
  bcast_S_S128 : S_.BroadcastsInDim S128 (![] : Fin 0 → Fin S128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  shapeCasts_S1000000x1_S1000000 : S1000000x1.ShapeCasts S1000000
  dot_S100000x64_S64x128_S100000x128_1_0_0_1_n_n_wf : DotDims.WF S100000x64 S64x128 S100000x128 [1] [0] [0] [1] [] []
  dot_S20000x128_S128x128_S20000x128_1_0_0_1_n_n_wf : DotDims.WF S20000x128 S128x128 S20000x128 [1] [0] [0] [1] [] []
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S1000000x256_S256x128_S1000000x128_1_0_0_1_n_n_wf : DotDims.WF S1000000x256 S256x128 S1000000x128 [1] [0] [0] [1] [] []
  dot_S1000000x128_S128x1_S1000000x1_1_0_0_1_n_n_wf : DotDims.WF S1000000x128 S128x1 S1000000x1 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S1000000x256_S256x128_S1000000x128_1_0_0_1_n_n : DotDims S1000000x256 S256x128 S1000000x128 where
  lhsContracting := [1]
  rhsContracting := [0]
  lhsNonContracting := [0]
  rhsNonContracting := [1]
  lhsBatch := []
  rhsBatch := []
  wf := dot_S1000000x256_S256x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.KFold.lean ====
/-
  Walking a buffer down the program's fold of boundary contents.

  The idealized kernel program is eight kernel launches among seven stretches of host operations; `Gen.W0 … Gen.W15`
  are its buffer contents at the sixteen boundaries, each obtained from the previous one. Two facts make a buffer's
  contents at a late boundary readable at an early one:

  * a stretch of host operations changes only the buffers its operations write (each operation writes its one result
    buffer), so a buffer outside that finite list keeps its contents across the stretch;
  * a kernel launch changes only its output arrays: an input array ends as it was entered (its window is fetched and
    never written back), and a buffer that is no array of the launch is untouched.

  The program's thirty-three argument arrays are written by nothing, so at every boundary each holds its launch
  contents (`args0 … args13`, by induction along the boundaries, for a generic argument reference).
-/
import proofs.«129102_j79517024519044_2_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The argument arrays of the program. -/
def argList : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18,
   main_arg19, main_arg20, main_arg21, main_arg22, main_arg23, main_arg24, main_arg25, main_arg26, main_arg27,
   main_arg28, main_arg29, main_arg30, main_arg31, main_arg32]

/-! ## What each stretch of host operations writes -/

/-- The result buffers of the first stretch: the three neighbour counts and the first layer's neighbour sums. -/
def written2 : List (Ref sig .tc) :=
  [main_call0_cst, main_call0_v2, main_call0_cst_0, main_call0_v3, main_call0_cst_1, main_call0_v4, main_call0_v5,
   main_call0_v6, main_call0_v7, main_call0_cst_2, main_call0_v8, main_call0_v9, main_call0_v10, main_call0_v11,
   main_call0_cst_3, main_call0_v12, main_call0_v13, main_call0_v14, main_call0_v15, main_call0_c, main_call0_v16,
   main_call0_v17, main_call0_c_4, main_call0_v18, main_call0_v19, main_call0_v20, main_call0_v21, main_call0_v22,
   main_call0_cst_5, main_call0_v23, main_call0_v24, main_call0_v25]
def written3 : List (Ref sig .tc) :=
  [main_call0_c_6, main_call0_v27, main_call0_v28, main_call0_c_7, main_call0_v29, main_call0_v30, main_call0_v31,
   main_call0_v32, main_call0_v33, main_call0_cst_8, main_call0_v34, main_call0_v35, main_call0_v36]
def written4 : List (Ref sig .tc) :=
  [main_call0_c_9, main_call0_v38, main_call0_v39, main_call0_c_10, main_call0_v40, main_call0_v41, main_call0_v42,
   main_call0_v43, main_call0_v44, main_call0_cst_11, main_call0_v45, main_call0_v46, main_call0_v47]
def written5 : List (Ref sig .tc) :=
  [main_call0_c_12, main_call0_v49, main_call0_v50, main_call0_c_13, main_call0_v51, main_call0_v52, main_call0_v53,
   main_call0_v54, main_call0_v55, main_call0_cst_14, main_call0_v56, main_call0_v57, main_call0_v58]
def written6 : List (Ref sig .tc) :=
  [main_call0_c_15, main_call0_v60, main_call0_v61, main_call0_c_16, main_call0_v62, main_call0_v63, main_call0_v64,
   main_call0_v65, main_call0_v66, main_call0_cst_17, main_call0_v67, main_call0_v68, main_call0_v69]
def written7 : List (Ref sig .tc) :=
  [main_call0_c_18, main_call0_v71, main_call0_v72, main_call0_c_19, main_call0_v73, main_call0_v74, main_call0_v75,
   main_call0_v76, main_call0_v77, main_call0_c_20, main_call0_v78, main_call0_v79, main_call0_c_21, main_call0_v80,
   main_call0_v81, main_call0_v82, main_call0_v83, main_call0_v84, main_call0_v85, main_call0_v86]

/-- A one-buffer set of written buffers lies in a list's image as soon as the reference is in the list. -/
theorem single_sub {W : List (Ref sig .tc)} {r : Ref sig .tc} (h : r ∈ W) :
    ({Proc.devRef (τ := τ) .tc r} : Finset (DevRef τ sig)) ⊆ (W.map (Proc.devRef (τ := τ) .tc)).toFinset :=
  Finset.singleton_subset_iff.mpr (List.mem_toFinset.mpr (List.mem_map_of_mem h))

/-- Each operation of a literal stretch writes its one result buffer; that buffer is in the stretch's list. -/
macro "stretch_writes " ops:ident : tactic => `(tactic| (
  simp only [$ops:ident, List.Forall, StableHlo.nullary_writes, StableHlo.unary_writes, StableHlo.binary_writes,
    StableHlo.ternary_writes, StableHlo.quaternary_writes, StableHlo.reshape_writes, StableHlo.binaryIndexed_writes]
  repeat' apply And.intro
  all_goals exact single_sub (by decide)))

theorem writes2 : (hostOps2 : List (HloOp τ sig (Elt F))).Forall fun op =>
    op.writes ⊆ (written2.map (Proc.devRef (τ := τ) .tc)).toFinset := by stretch_writes hostOps2
theorem writes3 : (hostOps3 : List (HloOp τ sig (Elt F))).Forall fun op =>
    op.writes ⊆ (written3.map (Proc.devRef (τ := τ) .tc)).toFinset := by stretch_writes hostOps3
theorem writes4 : (hostOps4 : List (HloOp τ sig (Elt F))).Forall fun op =>
    op.writes ⊆ (written4.map (Proc.devRef (τ := τ) .tc)).toFinset := by stretch_writes hostOps4
theorem writes5 : (hostOps5 : List (HloOp τ sig (Elt F))).Forall fun op =>
    op.writes ⊆ (written5.map (Proc.devRef (τ := τ) .tc)).toFinset := by stretch_writes hostOps5
theorem writes6 : (hostOps6 : List (HloOp τ sig (Elt F))).Forall fun op =>
    op.writes ⊆ (written6.map (Proc.devRef (τ := τ) .tc)).toFinset := by stretch_writes hostOps6
theorem writes7 : (hostOps7 : List (HloOp τ sig (Elt F))).Forall fun op =>
    op.writes ⊆ (written7.map (Proc.devRef (τ := τ) .tc)).toFinset := by stretch_writes hostOps7

/-- A buffer outside a stretch's list keeps its contents across the stretch. -/
theorem keep2 (V : Valuation τ sig (Elt F)) (r : Ref sig .tc) (hr : r ∉ written2) :
    StableHlo.after hostOps2 V (Proc.devRef .tc r) = V (Proc.devRef .tc r) :=
  StableHlo.after_of_writes_sub hostOps2 V writes2 hr
theorem keep3 (V : Valuation τ sig (Elt F)) (r : Ref sig .tc) (hr : r ∉ written3) :
    StableHlo.after hostOps3 V (Proc.devRef .tc r) = V (Proc.devRef .tc r) :=
  StableHlo.after_of_writes_sub hostOps3 V writes3 hr
theorem keep4 (V : Valuation τ sig (Elt F)) (r : Ref sig .tc) (hr : r ∉ written4) :
    StableHlo.after hostOps4 V (Proc.devRef .tc r) = V (Proc.devRef .tc r) :=
  StableHlo.after_of_writes_sub hostOps4 V writes4 hr
theorem keep5 (V : Valuation τ sig (Elt F)) (r : Ref sig .tc) (hr : r ∉ written5) :
    StableHlo.after hostOps5 V (Proc.devRef .tc r) = V (Proc.devRef .tc r) :=
  StableHlo.after_of_writes_sub hostOps5 V writes5 hr
theorem keep6 (V : Valuation τ sig (Elt F)) (r : Ref sig .tc) (hr : r ∉ written6) :
    StableHlo.after hostOps6 V (Proc.devRef .tc r) = V (Proc.devRef .tc r) :=
  StableHlo.after_of_writes_sub hostOps6 V writes6 hr
theorem keep7 (V : Valuation τ sig (Elt F)) (r : Ref sig .tc) (hr : r ∉ written7) :
    StableHlo.after hostOps7 V (Proc.devRef .tc r) = V (Proc.devRef .tc r) :=
  StableHlo.after_of_writes_sub hostOps7 V writes7 hr

/-- No argument array is a result buffer of a stretch. -/
theorem arg_not_written2 : ∀ r ∈ argList, r ∉ written2 := by decide
theorem arg_not_written3 : ∀ r ∈ argList, r ∉ written3 := by decide
theorem arg_not_written4 : ∀ r ∈ argList, r ∉ written4 := by decide
theorem arg_not_written5 : ∀ r ∈ argList, r ∉ written5 := by decide
theorem arg_not_written6 : ∀ r ∈ argList, r ∉ written6 := by decide
theorem arg_not_written7 : ∀ r ∈ argList, r ∉ written7 := by decide

/-! ## The argument arrays at every boundary -/

/-- The output array of each dense launch, and the three row arrays and the output array of each graph-layer launch,
    are results of earlier operations of the program, not arguments of it. -/
theorem out0_not_arg : Pipeline.arrRef spec0 3 ∉ argList := by decide
theorem out1_not_arg : Pipeline.arrRef spec1 3 ∉ argList := by decide

/-- At launch. -/
theorem args0 (c : Dev nD) (r : Ref sig .tc) : W0 m ρ c (Proc.devRef .tc r) = m ((c : Thread nD τ).loc r) := rfl

/-- After the first launch (user rows): an argument it stages ends as entered, its output is no argument, any other
    buffer is untouched. -/
theorem args1 (c : Dev nD) (r : Ref sig .tc) (hr : r ∈ argList) :
    W1 m ρ c (Proc.devRef .tc r) = m ((c : Thread nD τ).loc r) := by
  by_cases h : ∃ w, Pipeline.arrRef spec0 w = r
  · obtain ⟨w, rfl⟩ := h
    match w, hr with
    | ⟨0, _⟩, hr => exact (W1_arr m ρ c 0).trans (((dat0 (V0 m ρ) c).arrAt_in 0 rfl _).trans ((A_eq0 (V0 m ρ) c 0).trans (args0 m ρ c _)))
    | ⟨1, _⟩, hr => exact (W1_arr m ρ c 1).trans (((dat0 (V0 m ρ) c).arrAt_in 1 rfl _).trans ((A_eq0 (V0 m ρ) c 1).trans (args0 m ρ c _)))
    | ⟨2, _⟩, hr => exact (W1_arr m ρ c 2).trans (((dat0 (V0 m ρ) c).arrAt_in 2 rfl _).trans ((A_eq0 (V0 m ρ) c 2).trans (args0 m ρ c _)))
    | ⟨3, _⟩, hr => exact absurd hr out0_not_arg
  · exact (W1_of_ne m ρ c r fun w e => h ⟨w, e⟩).trans (args0 m ρ c r)

/-- After the second launch (movie rows). -/
theorem args2 (c : Dev nD) (r : Ref sig .tc) (hr : r ∈ argList) :
    W2 m ρ c (Proc.devRef .tc r) = m ((c : Thread nD τ).loc r) := by
  by_cases h : ∃ w, Pipeline.arrRef spec1 w = r
  · obtain ⟨w, rfl⟩ := h
    match w, hr with
    | ⟨0, _⟩, hr => exact (W2_arr m ρ c 0).trans (((dat1 (V1 m ρ) c).arrAt_in 0 rfl _).trans ((A_eq1 (V1 m ρ) c 0).trans (args1 m ρ c _ hr)))
    | ⟨1, _⟩, hr => exact (W2_arr m ρ c 1).trans (((dat1 (V1 m ρ) c).arrAt_in 1 rfl _).trans ((A_eq1 (V1 m ρ) c 1).trans (args1 m ρ c _ hr)))
    | ⟨2, _⟩, hr => exact (W2_arr m ρ c 2).trans (((dat1 (V1 m ρ) c).arrAt_in 2 rfl _).trans ((A_eq1 (V1 m ρ) c 2).trans (args1 m ρ c _ hr)))
    | ⟨3, _⟩, hr => exact absurd hr out1_not_arg
  · exact (W2_of_ne m ρ c r fun w e => h ⟨w, e⟩).trans (args1 m ρ c r hr)

/-- After the first stretch of host operations. -/
theorem args3 (c : Dev nD) (r : Ref sig .tc) (hr : r ∈ argList) :
    W3 m ρ c (Proc.devRef .tc r) = m ((c : Thread nD τ).loc r) :=
  (keep2 (W2 m ρ c) r (arg_not_written2 r hr)).trans (args2 m ρ c r hr)

theorem l2w0_not_arg : Pipeline.arrRef spec2 0 ∉ argList := by decide
theorem l2w1_not_arg : Pipeline.arrRef spec2 1 ∉ argList := by decide
theorem l2w2_not_arg : Pipeline.arrRef spec2 2 ∉ argList := by decide
theorem l2w6_not_arg : Pipeline.arrRef spec2 6 ∉ argList := by decide
theorem l3w0_not_arg : Pipeline.arrRef spec3 0 ∉ argList := by decide
theorem l3w1_not_arg : Pipeline.arrRef spec3 1 ∉ argList := by decide
theorem l3w2_not_arg : Pipeline.arrRef spec3 2 ∉ argList := by decide
theorem l3w6_not_arg : Pipeline.arrRef spec3 6 ∉ argList := by decide
theorem l4w0_not_arg : Pipeline.arrRef spec4 0 ∉ argList := by decide
theorem l4w1_not_arg : Pipeline.arrRef spec4 1 ∉ argList := by decide
theorem l4w2_not_arg : Pipeline.arrRef spec4 2 ∉ argList := by decide
theorem l4w6_not_arg : Pipeline.arrRef spec4 6 ∉ argList := by decide
theorem l5w0_not_arg : Pipeline.arrRef spec5 0 ∉ argList := by decide
theorem l5w1_not_arg : Pipeline.arrRef spec5 1 ∉ argList := by decide
theorem l5w2_not_arg : Pipeline.arrRef spec5 2 ∉ argList := by decide
theorem l5w6_not_arg : Pipeline.arrRef spec5 6 ∉ argList := by decide
theorem l6w0_not_arg : Pipeline.arrRef spec6 0 ∉ argList := by decide
theorem l6w1_not_arg : Pipeline.arrRef spec6 1 ∉ argList := by decide
theorem l6w2_not_arg : Pipeline.arrRef spec6 2 ∉ argList := by decide
theorem l6w6_not_arg : Pipeline.arrRef spec6 6 ∉ argList := by decide

/-- After the third launch (the first graph layer, movie rows). -/
theorem args4 (c : Dev nD) (r : Ref sig .tc) (hr : r ∈ argList) :
    W4 m ρ c (Proc.devRef .tc r) = m ((c : Thread nD τ).loc r) := by
  by_cases h : ∃ w, Pipeline.arrRef spec2 w = r
  · obtain ⟨w, rfl⟩ := h
    match w, hr with
    | ⟨0, _⟩, hr => exact absurd hr l2w0_not_arg
    | ⟨1, _⟩, hr => exact absurd hr l2w1_not_arg
    | ⟨2, _⟩, hr => exact absurd hr l2w2_not_arg
    | ⟨3, _⟩, hr => exact (W4_arr m ρ c 3).trans (((dat2 (V3 m ρ) c).arrAt_in 3 rfl _).trans ((A_eq2 (V3 m ρ) c 3).trans (args3 m ρ c _ hr)))
    | ⟨4, _⟩, hr => exact (W4_arr m ρ c 4).trans (((dat2 (V3 m ρ) c).arrAt_in 4 rfl _).trans ((A_eq2 (V3 m ρ) c 4).trans (args3 m ρ c _ hr)))
    | ⟨5, _⟩, hr => exact (W4_arr m ρ c 5).trans (((dat2 (V3 m ρ) c).arrAt_in 5 rfl _).trans ((A_eq2 (V3 m ρ) c 5).trans (args3 m ρ c _ hr)))
    | ⟨6, _⟩, hr => exact absurd hr l2w6_not_arg
  · exact (W4_of_ne m ρ c r fun w e => h ⟨w, e⟩).trans (args3 m ρ c r hr)

theorem args5 (c : Dev nD) (r : Ref sig .tc) (hr : r ∈ argList) :
    W5 m ρ c (Proc.devRef .tc r) = m ((c : Thread nD τ).loc r) :=
  (keep3 (W4 m ρ c) r (arg_not_written3 r hr)).trans (args4 m ρ c r hr)

/-- After the fourth launch (the second graph layer, user rows). -/
theorem args6 (c : Dev nD) (r : Ref sig .tc) (hr : r ∈ argList) :
    W6 m ρ c (Proc.devRef .tc r) = m ((c : Thread nD τ).loc r) := by
  by_cases h : ∃ w, Pipeline.arrRef spec3 w = r
  · obtain ⟨w, rfl⟩ := h
    match w, hr with
    | ⟨0, _⟩, hr => exact absurd hr l3w0_not_arg
    | ⟨1, _⟩, hr => exact absurd hr l3w1_not_arg
    | ⟨2, _⟩, hr => exact absurd hr l3w2_not_arg
    | ⟨3, _⟩, hr => exact (W6_arr m ρ c 3).trans (((dat3 (V5 m ρ) c).arrAt_in 3 rfl _).trans ((A_eq3 (V5 m ρ) c 3).trans (args5 m ρ c _ hr)))
    | ⟨4, _⟩, hr => exact (W6_arr m ρ c 4).trans (((dat3 (V5 m ρ) c).arrAt_in 4 rfl _).trans ((A_eq3 (V5 m ρ) c 4).trans (args5 m ρ c _ hr)))
    | ⟨5, _⟩, hr => exact (W6_arr m ρ c 5).trans (((dat3 (V5 m ρ) c).arrAt_in 5 rfl _).trans ((A_eq3 (V5 m ρ) c 5).trans (args5 m ρ c _ hr)))
    | ⟨6, _⟩, hr => exact absurd hr l3w6_not_arg
  · exact (W6_of_ne m ρ c r fun w e => h ⟨w, e⟩).trans (args5 m ρ c r hr)

theorem args7 (c : Dev nD) (r : Ref sig .tc) (hr : r ∈ argList) :
    W7 m ρ c (Proc.devRef .tc r) = m ((c : Thread nD τ).loc r) :=
  (keep4 (W6 m ρ c) r (arg_not_written4 r hr)).trans (args6 m ρ c r hr)

/-- After the fifth launch (the third graph layer, movie rows). -/
theorem args8 (c : Dev nD) (r : Ref sig .tc) (hr : r ∈ argList) :
    W8 m ρ c (Proc.devRef .tc r) = m ((c : Thread nD τ).loc r) := by
  by_cases h : ∃ w, Pipeline.arrRef spec4 w = r
  · obtain ⟨w, rfl⟩ := h
    match w, hr with
    | ⟨0, _⟩, hr => exact absurd hr l4w0_not_arg
    | ⟨1, _⟩, hr => exact absurd hr l4w1_not_arg
    | ⟨2, _⟩, hr => exact absurd hr l4w2_not_arg
    | ⟨3, _⟩, hr => exact (W8_arr m ρ c 3).trans (((dat4 (V7 m ρ) c).arrAt_in 3 rfl _).trans ((A_eq4 (V7 m ρ) c 3).trans (args7 m ρ c _ hr)))
    | ⟨4, _⟩, hr => exact (W8_arr m ρ c 4).trans (((dat4 (V7 m ρ) c).arrAt_in 4 rfl _).trans ((A_eq4 (V7 m ρ) c 4).trans (args7 m ρ c _ hr)))
    | ⟨5, _⟩, hr => exact (W8_arr m ρ c 5).trans (((dat4 (V7 m ρ) c).arrAt_in 5 rfl _).trans ((A_eq4 (V7 m ρ) c 5).trans (args7 m ρ c _ hr)))
    | ⟨6, _⟩, hr => exact absurd hr l4w6_not_arg
  · exact (W8_of_ne m ρ c r fun w e => h ⟨w, e⟩).trans (args7 m ρ c r hr)

theorem args9 (c : Dev nD) (r : Ref sig .tc) (hr : r ∈ argList) :
    W9 m ρ c (Proc.devRef .tc r) = m ((c : Thread nD τ).loc r) :=
  (keep5 (W8 m ρ c) r (arg_not_written5 r hr)).trans (args8 m ρ c r hr)

/-- After the sixth launch (the fourth graph layer, user rows). -/
theorem args10 (c : Dev nD) (r : Ref sig .tc) (hr : r ∈ argList) :
    W10 m ρ c (Proc.devRef .tc r) = m ((c : Thread nD τ).loc r) := by
  by_cases h : ∃ w, Pipeline.arrRef spec5 w = r
  · obtain ⟨w, rfl⟩ := h
    match w, hr with
    | ⟨0, _⟩, hr => exact absurd hr l5w0_not_arg
    | ⟨1, _⟩, hr => exact absurd hr l5w1_not_arg
    | ⟨2, _⟩, hr => exact absurd hr l5w2_not_arg
    | ⟨3, _⟩, hr => exact (W10_arr m ρ c 3).trans (((dat5 (V9 m ρ) c).arrAt_in 3 rfl _).trans ((A_eq5 (V9 m ρ) c 3).trans (args9 m ρ c _ hr)))
    | ⟨4, _⟩, hr => exact (W10_arr m ρ c 4).trans (((dat5 (V9 m ρ) c).arrAt_in 4 rfl _).trans ((A_eq5 (V9 m ρ) c 4).trans (args9 m ρ c _ hr)))
    | ⟨5, _⟩, hr => exact (W10_arr m ρ c 5).trans (((dat5 (V9 m ρ) c).arrAt_in 5 rfl _).trans ((A_eq5 (V9 m ρ) c 5).trans (args9 m ρ c _ hr)))
    | ⟨6, _⟩, hr => exact absurd hr l5w6_not_arg
  · exact (W10_of_ne m ρ c r fun w e => h ⟨w, e⟩).trans (args9 m ρ c r hr)

theorem args11 (c : Dev nD) (r : Ref sig .tc) (hr : r ∈ argList) :
    W11 m ρ c (Proc.devRef .tc r) = m ((c : Thread nD τ).loc r) :=
  (keep6 (W10 m ρ c) r (arg_not_written6 r hr)).trans (args10 m ρ c r hr)

/-- After the seventh launch (the user-to-user graph layer). -/
theorem args12 (c : Dev nD) (r : Ref sig .tc) (hr : r ∈ argList) :
    W12 m ρ c (Proc.devRef .tc r) = m ((c : Thread nD τ).loc r) := by
  by_cases h : ∃ w, Pipeline.arrRef spec6 w = r
  · obtain ⟨w, rfl⟩ := h
    match w, hr with
    | ⟨0, _⟩, hr => exact absurd hr l6w0_not_arg
    | ⟨1, _⟩, hr => exact absurd hr l6w1_not_arg
    | ⟨2, _⟩, hr => exact absurd hr l6w2_not_arg
    | ⟨3, _⟩, hr => exact (W12_arr m ρ c 3).trans (((dat6 (V11 m ρ) c).arrAt_in 3 rfl _).trans ((A_eq6 (V11 m ρ) c 3).trans (args11 m ρ c _ hr)))
    | ⟨4, _⟩, hr => exact (W12_arr m ρ c 4).trans (((dat6 (V11 m ρ) c).arrAt_in 4 rfl _).trans ((A_eq6 (V11 m ρ) c 4).trans (args11 m ρ c _ hr)))
    | ⟨5, _⟩, hr => exact (W12_arr m ρ c 5).trans (((dat6 (V11 m ρ) c).arrAt_in 5 rfl _).trans ((A_eq6 (V11 m ρ) c 5).trans (args11 m ρ c _ hr)))
    | ⟨6, _⟩, hr => exact absurd hr l6w6_not_arg
  · exact (W12_of_ne m ρ c r fun w e => h ⟨w, e⟩).trans (args11 m ρ c r hr)

/-- At the scorer's entry. -/
theorem args13 (c : Dev nD) (r : Ref sig .tc) (hr : r ∈ argList) :
    W13 m ρ c (Proc.devRef .tc r) = m ((c : Thread nD τ).loc r) :=
  (keep7 (W12 m ρ c) r (arg_not_written7 r hr)).trans (args12 m ρ c r hr)

end Cert.KernelIdeal.Fold

end
-- ==== Proof.KGlue.lean ====
/-
  The index bookkeeping of the network, as functions of whole arrays.

  Between its dense stages the network only moves rows around, steered by the integer edge arrays:

  * `wrapE n idx` / `wrapU idx`: an index vector with a negative entry counted from the end of an axis of `n` rows
    (`idx < 0 ? idx + n : idx`), as a one-column matrix — the form in which a row gather takes its indices;
  * `colE`, `colU`: an index vector as a one-column matrix, unwrapped — the form in which a segment sum takes them;
  * `cntM`, `cntU`, `cntUU`: how many edges end at each node: a segment sum of ones, as a column;
  * `sumToM`, `sumToU`, `sumUU`: the sum over a node's incoming edges of the source rows: gather the source row of
    every edge, then add it into its destination's row of a zero matrix;
  * `rowsU`, `rowsM`: the two endpoint embeddings of every rated edge; `topHalf`, `botHalf`: the rows of the scorer's
    first weight matrix that multiply the one and the other.

  The gather and the scatter-add themselves are never opened: both programs apply the same ones to the same operands.
-/
import proofs.«129102_j79517024519044_2_alg».proof.KernelIdeal
import proofs.«129102_j79517024519044_2_alg».proof.Proof.Gen.KernelIdeal

noncomputable section

namespace Cert.KernelIdeal.Glue

open Idealize.ShloMosaic Cert.KernelIdeal Cert.KernelIdeal.Facts₀

variable {F : FTy → Type} [FloatOps F]

/-- The contents of an array of a shape and element type. -/
abbrev Arr (F : FTy → Type) (S : Shape) (φ : EltTy) := (⟨S, φ⟩ : BufTy).Contents (Elt F)

def colE (idx : Arr F S1000000 .i32) : Arr F S1000000x1 .i32 :=
  broadcastInDim S1000000x1 ![0] bcast_S1000000_S1000000x1_0 idx

def colU (idx : Arr F S500000 .i32) : Arr F S500000x1 .i32 :=
  broadcastInDim S500000x1 ![0] bcast_S500000_S500000x1_0 idx

def wrapE (n : BitVec 32) (idx : Arr F S1000000 .i32) : Arr F S1000000x1 .i32 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 n))) idx)

def wrapU (idx : Arr F S500000 .i32) : Arr F S500000x1 .i32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

/-- Rated edges ending at each movie. -/
def cntM (dst : Arr F S1000000 .i32) : Arr F S20000x1 .f32 :=
  broadcastInDim S20000x1 ![0] bcast_S20000_S20000x1_0
    (Host.scatterAdd scatter_S20000_S1000000x1_S1000000_n_0_0_1
      (broadcastInDim S20000 ![] bcast_S_S20000 (constant (F := F) S_ .f32 0x00000000#32)) (colE dst)
      (broadcastInDim S1000000 ![] bcast_S_S1000000 (constant (F := F) S_ .f32 0x3F800000#32)))

/-- Rated edges starting at each user. -/
def cntU (src : Arr F S1000000 .i32) : Arr F S100000x1 .f32 :=
  broadcastInDim S100000x1 ![0] bcast_S100000_S100000x1_0
    (Host.scatterAdd scatter_S100000_S1000000x1_S1000000_n_0_0_1
      (broadcastInDim S100000 ![] bcast_S_S100000 (constant (F := F) S_ .f32 0x00000000#32)) (colE src)
      (broadcastInDim S1000000 ![] bcast_S_S1000000 (constant (F := F) S_ .f32 0x3F800000#32)))

/-- Follow edges ending at each user. -/
def cntUU (udst : Arr F S500000 .i32) : Arr F S100000x1 .f32 :=
  broadcastInDim S100000x1 ![0] bcast_S100000_S100000x1_0
    (Host.scatterAdd scatter_S100000_S500000x1_S500000_n_0_0_1
      (broadcastInDim S100000 ![] bcast_S_S100000 (constant (F := F) S_ .f32 0x00000000#32)) (colU udst)
      (broadcastInDim S500000 ![] bcast_S_S500000 (constant (F := F) S_ .f32 0x3F800000#32)))

/-- The user row at the start of every rated edge. -/
def rowsU (x : Arr F S100000x128 .f32) (src : Arr F S1000000 .i32) : Arr F S1000000x128 .f32 :=
  Host.gather gather_S100000x128_S1000000x1_S1000000x128_1_0_n_n_0_1_1128 x (wrapE 100000#32 src)

/-- The movie row at the end of every rated edge. -/
def rowsM (x : Arr F S20000x128 .f32) (dst : Arr F S1000000 .i32) : Arr F S1000000x128 .f32 :=
  Host.gather gather_S20000x128_S1000000x1_S1000000x128_1_0_n_n_0_1_1128 x (wrapE 20000#32 dst)

/-- For each movie, the sum of the user rows of the edges ending there. -/
def sumToM (x : Arr F S100000x128 .f32) (src dst : Arr F S1000000 .i32) : Arr F S20000x128 .f32 :=
  Host.scatterAdd scatter_S20000x128_S1000000x1_S1000000x128_1_0_0_1
    (broadcastInDim S20000x128 ![] bcast_S_S20000x128 (constant (F := F) S_ .f32 0x00000000#32)) (colE dst) (rowsU x src)

/-- For each user, the sum of the movie rows of the edges starting there. -/
def sumToU (x : Arr F S20000x128 .f32) (src dst : Arr F S1000000 .i32) : Arr F S100000x128 .f32 :=
  Host.scatterAdd scatter_S100000x128_S1000000x1_S1000000x128_1_0_0_1
    (broadcastInDim S100000x128 ![] bcast_S_S100000x128 (constant (F := F) S_ .f32 0x00000000#32)) (colE src) (rowsM x dst)

/-- For each user, the sum of the rows of the users that follow edges lead from. -/
def sumUU (x : Arr F S100000x128 .f32) (usrc udst : Arr F S500000 .i32) : Arr F S100000x128 .f32 :=
  Host.scatterAdd scatter_S100000x128_S500000x1_S500000x128_1_0_0_1
    (broadcastInDim S100000x128 ![] bcast_S_S100000x128 (constant (F := F) S_ .f32 0x00000000#32)) (colU udst)
    (Host.gather gather_S100000x128_S500000x1_S500000x128_1_0_n_n_0_1_1128 x (wrapU usrc))

/-- The rows of the scorer's first weight matrix that multiply the user embedding, and the movie embedding. -/
def topHalf (w : Arr F S256x128 .f32) : Arr F S128x128 .f32 :=
  extractStridedSlice S128x128 ![0, 0] w slices_S256x128_S128x128_0_0
def botHalf (w : Arr F S256x128 .f32) : Arr F S128x128 .f32 :=
  extractStridedSlice S128x128 ![128, 0] w slices_S256x128_S128x128_128_0

end Cert.KernelIdeal.Glue

end
-- ==== Proof.KStretch.lean ====
/-
  The host operations between the kernel regions, evaluated.

  Between two regions the program runs a stretch of host operations on whole arrays. Each stretch only moves rows
  around, steered by the integer edge arrays: it counts the edges at each node (a segment sum of ones, as a column),
  gathers the source row of every edge and adds it into its destination's row of a zero matrix, gathers the two
  endpoint rows of every rated edge, cuts the scorer's first weight matrix into its upper and lower 128 rows, and
  flattens the scores' one-column matrix into a vector.

  What a buffer holds after a stretch is read off the stretch's list of operations: the operation that writes the buffer
  gives its function applied to what its operand buffers hold, each operand is read the same way, and a buffer no
  operation of the stretch writes holds what it held when the stretch began. Every result below is that reading, stated
  as one named function of the arrays the stretch began from. The gathers and the segment sums are never opened: they
  stand on both sides as the same operation applied to the same operands.
-/
import proofs.«129102_j79517024519044_2_alg».proof.Proof.Gen.KernelIdeal.Frame
import proofs.«129102_j79517024519044_2_alg».proof.Proof.KGlue
import Idealize.ShloMosaic.Lib.StableHlo.Run

noncomputable section

namespace Cert.KernelIdeal.Stretch

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before region 2: the three neighbour counts and the first neighbour sum -/

/-- The number of rated edges ending at each movie, as a column. -/
theorem s2_v7 (c : Dev nD) :
    W3 m ρ c (Proc.devRef .tc main_call0_v7)
      = cntM (W2 m ρ c (Proc.devRef .tc main_arg30)) := by
  show StableHlo.after hostOps2 (W2 m ρ c) (Proc.devRef .tc main_call0_v7) = _
  generalize W2 m ρ c = V
  after_results_simp
  rfl

/-- The number of rated edges starting at each user, as a column. -/
theorem s2_v11 (c : Dev nD) :
    W3 m ρ c (Proc.devRef .tc main_call0_v11)
      = cntU (W2 m ρ c (Proc.devRef .tc main_arg29)) := by
  show StableHlo.after hostOps2 (W2 m ρ c) (Proc.devRef .tc main_call0_v11) = _
  generalize W2 m ρ c = V
  after_results_simp
  rfl

/-- The number of follow edges ending at each user, as a column. -/
theorem s2_v15 (c : Dev nD) :
    W3 m ρ c (Proc.devRef .tc main_call0_v15)
      = cntUU (W2 m ρ c (Proc.devRef .tc main_arg32)) := by
  show StableHlo.after hostOps2 (W2 m ρ c) (Proc.devRef .tc main_call0_v15) = _
  generalize W2 m ρ c = V
  after_results_simp
  rfl

/-- For each movie, the sum of the first-layer user rows over the rated edges ending there. -/
theorem s2_v25 (c : Dev nD) :
    W3 m ρ c (Proc.devRef .tc main_call0_v25)
      = sumToM (W2 m ρ c (Proc.devRef .tc main_call0_v0)) (W2 m ρ c (Proc.devRef .tc main_arg29))
          (W2 m ρ c (Proc.devRef .tc main_arg30)) := by
  show StableHlo.after hostOps2 (W2 m ρ c) (Proc.devRef .tc main_call0_v25) = _
  generalize W2 m ρ c = V
  after_results_simp
  rfl

/-! ## Before regions 3 to 6: one neighbour sum each -/

/-- For each user, the sum of region 2's movie rows over the rated edges starting there. -/
theorem s3_v36 (c : Dev nD) :
    W5 m ρ c (Proc.devRef .tc main_call0_v36)
      = sumToU (W4 m ρ c (Proc.devRef .tc main_call0_v26)) (W4 m ρ c (Proc.devRef .tc main_arg29))
          (W4 m ρ c (Proc.devRef .tc main_arg30)) := by
  show StableHlo.after hostOps3 (W4 m ρ c) (Proc.devRef .tc main_call0_v36) = _
  generalize W4 m ρ c = V
  after_results_simp
  rfl

/-- For each movie, the sum of region 3's user rows over the rated edges ending there. -/
theorem s4_v47 (c : Dev nD) :
    W7 m ρ c (Proc.devRef .tc main_call0_v47)
      = sumToM (W6 m ρ c (Proc.devRef .tc main_call0_v37)) (W6 m ρ c (Proc.devRef .tc main_arg29))
          (W6 m ρ c (Proc.devRef .tc main_arg30)) := by
  show StableHlo.after hostOps4 (W6 m ρ c) (Proc.devRef .tc main_call0_v47) = _
  generalize W6 m ρ c = V
  after_results_simp
  rfl

/-- For each user, the sum of region 4's movie rows over the rated edges starting there. -/
theorem s5_v58 (c : Dev nD) :
    W9 m ρ c (Proc.devRef .tc main_call0_v58)
      = sumToU (W8 m ρ c (Proc.devRef .tc main_call0_v48)) (W8 m ρ c (Proc.devRef .tc main_arg29))
          (W8 m ρ c (Proc.devRef .tc main_arg30)) := by
  show StableHlo.after hostOps5 (W8 m ρ c) (Proc.devRef .tc main_call0_v58) = _
  generalize W8 m ρ c = V
  after_results_simp
  rfl

/-- For each user, the sum of region 5's user rows over the follow edges ending there. -/
theorem s6_v69 (c : Dev nD) :
    W11 m ρ c (Proc.devRef .tc main_call0_v69)
      = sumUU (W10 m ρ c (Proc.devRef .tc main_call0_v59)) (W10 m ρ c (Proc.devRef .tc main_arg31))
          (W10 m ρ c (Proc.devRef .tc main_arg32)) := by
  show StableHlo.after hostOps6 (W10 m ρ c) (Proc.devRef .tc main_call0_v69) = _
  generalize W10 m ρ c = V
  after_results_simp
  rfl

/-! ## Before region 7: the endpoint rows of every rated edge, and the two halves of the scorer's first weight matrix -/

/-- The user row, after region 6, at the start of every rated edge. -/
theorem s7_v77 (c : Dev nD) :
    W13 m ρ c (Proc.devRef .tc main_call0_v77)
      = rowsU (W12 m ρ c (Proc.devRef .tc main_call0_v70)) (W12 m ρ c (Proc.devRef .tc main_arg29)) := by
  show StableHlo.after hostOps7 (W12 m ρ c) (Proc.devRef .tc main_call0_v77) = _
  generalize W12 m ρ c = V
  after_results_simp
  rfl

/-- The movie row, after region 4, at the end of every rated edge. -/
theorem s7_v84 (c : Dev nD) :
    W13 m ρ c (Proc.devRef .tc main_call0_v84)
      = rowsM (W12 m ρ c (Proc.devRef .tc main_call0_v48)) (W12 m ρ c (Proc.devRef .tc main_arg30)) := by
  show StableHlo.after hostOps7 (W12 m ρ c) (Proc.devRef .tc main_call0_v84) = _
  generalize W12 m ρ c = V
  after_results_simp
  rfl

/-- The upper 128 rows of the scorer's first weight matrix: those that multiply the user row. -/
theorem s7_v85 (c : Dev nD) :
    W13 m ρ c (Proc.devRef .tc main_call0_v85)
      = topHalf (W12 m ρ c (Proc.devRef .tc main_arg21)) := by
  show StableHlo.after hostOps7 (W12 m ρ c) (Proc.devRef .tc main_call0_v85) = _
  generalize W12 m ρ c = V
  after_results_simp
  rfl

/-- The lower 128 rows of the scorer's first weight matrix: those that multiply the movie row. -/
theorem s7_v86 (c : Dev nD) :
    W13 m ρ c (Proc.devRef .tc main_call0_v86)
      = botHalf (W12 m ρ c (Proc.devRef .tc main_arg21)) := by
  show StableHlo.after hostOps7 (W12 m ρ c) (Proc.devRef .tc main_call0_v86) = _
  generalize W12 m ρ c = V
  after_results_simp
  rfl

/-! ## After region 7: the scores' one-column matrix flattened -/

/-- The result vector is region 7's one-column matrix of scores read in row-major order: entry `r` is row `r`'s one entry. -/
theorem s8_res (c : Dev nD) :
    W15 m ρ c (Proc.devRef .tc main_v0)
      = shapeCast S1000000 (W14 m ρ c (Proc.devRef .tc main_call0_v87) : Arr F S1000000x1 .f32)
          Facts₀.shapeCasts_S1000000x1_S1000000 := by
  show StableHlo.after hostOps8 (W14 m ρ c) (Proc.devRef .tc main_v0) = _
  generalize W14 m ρ c = V
  after_results_simp
  rfl

end Cert.KernelIdeal.Stretch

end
-- ==== Proof.Spec.lean ====
/-
  The arithmetic of the three dense stages of the network, as plain formulas on the extended reals.

  Every stage of the network is a gather / segment-sum of rows (index bookkeeping, shared by both programs) followed by
  one of three dense maps applied row by row:

  * `dense`   : `max (x·W + b) 0`                                  — a linear layer followed by the rectifier;
  * `sage`    : `max ((mean·Wl + bl) + xd·Wr) 0` where `mean = a / max cnt 1` — a mean-aggregating graph layer: the
                  neighbour sum `a` of a row divided by the clipped neighbour count of that row;
  * `predict` : the edge scorer: an affine map of the concatenated endpoint embeddings, a normalisation
                  `(h - μ) · (σ² + ε)^(-1/2) · γ + β`, the rectifier, a second affine map to one number, the logistic
                  function, and the affine rescaling `4·s + 1`.

  Rows are indexed by an arbitrary type `ρ`, contracted axes by finite types, and the float literals that occur
  (`0`, `1`, `4`, `ε`) are parameters, so nothing here depends on an array's extent or on how a literal is spelt.

  Two spellings of the same stage occur. The mean is either the quotient `a / c` or the product `a · (1 / c)` with the
  clipped count `c = max cnt 1`; these agree for every extended real `a` because `c ≠ 0` (`mul_one_div`). The first
  affine map of the scorer is either one product with the 256-row weight matrix applied to the concatenation, or the sum
  of two products with its upper and lower halves (`sum_concat`: a finite sum split over `Fin (m + n)`). The logistic
  function is by definition `1 / (1 + e^(-x))` with the extended-real conventions of the quotient and the exponential.
-/
import Idealize.ShloMosaic.PureOps.Ideal
import Mathlib.Algebra.BigOperators.Fin

noncomputable section

namespace Cert.Spec

open Idealize.ShloMosaic
open scoped BigOperators

variable {ρ κ γ : Type} [Fintype κ] [Fintype γ]

/-- A linear layer and the rectifier: `max (∑ₖ x r k · w k q + b q) z` (`z` the literal zero). -/
def dense (z : EReal) (x : ρ → κ → EReal) (w : κ → γ → EReal) (b : γ → EReal) (r : ρ) (q : γ) : EReal :=
  max (∑ k, x r k * w k q + b q) z

/-- The clipped neighbour count of a row. -/
def clip (one : EReal) (cnt : ρ → EReal) (r : ρ) : EReal := max (cnt r) one

/-- The mean-aggregating layer with the mean written as a product with the reciprocal of the clipped count. -/
def sageMul (z one : EReal) (a : ρ → κ → EReal) (cnt : ρ → EReal) (xd : ρ → κ → EReal)
    (wl : κ → γ → EReal) (bl : γ → EReal) (wr : κ → γ → EReal) (r : ρ) (q : γ) : EReal :=
  max (((∑ k, (a r k * Ideal.div one (clip one cnt r)) * wl k q) + bl q) + ∑ k, xd r k * wr k q) z

/-- The same layer with the mean written as a quotient by the clipped count. -/
def sageDiv (z one : EReal) (a : ρ → κ → EReal) (cnt : ρ → EReal) (xd : ρ → κ → EReal)
    (wl : κ → γ → EReal) (bl : γ → EReal) (wr : κ → γ → EReal) (r : ρ) (q : γ) : EReal :=
  max (((∑ k, Ideal.div (a r k) (clip one cnt r) * wl k q) + bl q) + ∑ k, xd r k * wr k q) z

/-- The scorer's normalised, rectified hidden row from its pre-activation `h`. -/
def normRelu (z eps : EReal) (gamma beta mean var : γ → EReal) (h : γ → EReal) (q : γ) : EReal :=
  max ((h q - mean q) * Ideal.rsqrt (var q + eps) * gamma q + beta q) z

/-- The scorer's output from its rectified hidden row: the logistic of an affine form, rescaled. -/
def score (one four : EReal) (w2 : γ → EReal) (b2 : EReal) (h : γ → EReal) : EReal :=
  Ideal.logistic (∑ q, h q * w2 q + b2) * four + one

/-- The same with the logistic function spelt out as `1 / (1 + e^(-x))`. -/
def scoreExp (one four : EReal) (w2 : γ → EReal) (b2 : EReal) (h : γ → EReal) : EReal :=
  Ideal.div one (one + Ideal.exp (-(∑ q, h q * w2 q + b2))) * four + one

/-- The scorer with its first affine map split over the two endpoint embeddings. -/
def predictSplit (z one four eps : EReal) (ug mg : ρ → κ → EReal) (wt wb : κ → γ → EReal)
    (b1 gamma beta mean var w2 : γ → EReal) (b2 : EReal) (r : ρ) : EReal :=
  score one four w2 b2 (normRelu z eps gamma beta mean var
    (fun q => (∑ k, ug r k * wt k q + ∑ k, mg r k * wb k q) + b1 q))

/-- The scorer with its first affine map applied to the concatenated embedding `cat` (contracted over `κ'`). -/
def predictCat {κ' : Type} [Fintype κ'] (z one four eps : EReal) (cat : ρ → κ' → EReal) (w : κ' → γ → EReal)
    (b1 gamma beta mean var w2 : γ → EReal) (b2 : EReal) (r : ρ) : EReal :=
  scoreExp one four w2 b2 (normRelu z eps gamma beta mean var (fun q => (∑ k, cat r k * w k q) + b1 q))

/-! ## The laws joining the two spellings -/

/-- A product with the reciprocal of a nonzero extended real is the quotient by it, for EVERY extended real `x`
    (infinite ones included): off zero the quotient is `x · c⁻¹` by definition and `1 · c⁻¹ = c⁻¹`. -/
theorem mul_one_div (x c : EReal) (hc : c ≠ 0) : x * Ideal.div 1 c = Ideal.div x c := by
  unfold Ideal.div
  rw [if_neg hc, if_neg hc, one_mul]

/-- A clipped count is not zero: it is at least one. -/
theorem clip_ne_zero (cnt : ρ → EReal) (r : ρ) : clip 1 cnt r ≠ 0 := by
  have h : (1 : EReal) ≤ clip 1 cnt r := le_max_right _ _
  intro h0
  rw [h0] at h
  exact absurd h (by norm_num)

/-- The two spellings of the mean-aggregating layer agree (with the literal `one` the number one). -/
theorem sageMul_eq_sageDiv (z : EReal) (a : ρ → κ → EReal) (cnt : ρ → EReal) (xd : ρ → κ → EReal)
    (wl : κ → γ → EReal) (bl : γ → EReal) (wr : κ → γ → EReal) :
    sageMul z 1 a cnt xd wl bl wr = sageDiv z 1 a cnt xd wl bl wr := by
  funext r q
  unfold sageMul sageDiv
  simp only [mul_one_div _ _ (clip_ne_zero cnt r)]

/-- The logistic function is its defining expression. -/
theorem score_eq_scoreExp (four : EReal) (w2 : γ → EReal) (b2 : EReal) (h : γ → EReal) :
    score 1 four w2 b2 h = scoreExp 1 four w2 b2 h := rfl

/-- A sum over `Fin (m + n)` of products with a concatenation splits into the sums over the two parts. -/
theorem sum_concat {m n : ℕ} (f : Fin (m + n) → EReal) :
    ∑ k : Fin (m + n), f k = ∑ k : Fin m, f (Fin.castAdd n k) + ∑ k : Fin n, f (Fin.natAdd m k) :=
  Fin.sum_univ_add f

end Cert.Spec

end
-- ==== Proof.Net.lean ====
/-
  The network, as a function of its thirty-three argument arrays, on the extended reals.

  Users and movies each start from a linear layer with the rectifier. Four mean-aggregating graph layers then pass
  rows along the rated edges — users to movies, movies back to users, twice — and a fifth passes user rows along the
  follow edges; each layer takes, for every node, the sum of the rows at the far ends of its incoming edges, divides
  by the clipped number of such edges, and combines that mean linearly with the node's own row under the rectifier.
  Every rated edge is then scored from the rows of its two endpoints, and the scores (one column) are laid out as a
  vector. The arithmetic of the dense stages is `Cert.Spec`'s; the row movement is `Cert.KernelIdeal.Glue`'s.
-/
import proofs.«129102_j79517024519044_2_alg».proof.Proof.Spec
import proofs.«129102_j79517024519044_2_alg».proof.Proof.KGlue
import Idealize.ShloMosaic.Lib.ValueIdx

noncomputable section

namespace Cert.Net

open Idealize.ShloMosaic Idealize.ShloMosaic.ValueIdx Cert.KernelIdeal Cert.KernelIdeal.Facts₀ Cert.KernelIdeal.Glue

/-- The float literals of the network: zero (the rectifier's floor), one (the clip of a count), four (the score's
    scale), and the normalisation's epsilon; each kept as its binary word. -/
abbrev z : EReal := Ideal.ofBits .f32 0x00000000#32
abbrev one : EReal := Ideal.ofBits .f32 0x3F800000#32
abbrev four : EReal := Ideal.ofBits .f32 0x40800000#32
abbrev eps : EReal := Ideal.ofBits .f32 0x3727C5AC#32

/-- The argument arrays, in the program's order. -/
structure Args where
  userFeat : Arr Ideal S100000x64 .f32
  movieFeat : Arr Ideal S20000x128 .f32
  wUser : Arr Ideal S64x128 .f32
  bUser : Arr Ideal S128 .f32
  wMovie : Arr Ideal S128x128 .f32
  bMovie : Arr Ideal S128 .f32
  l1Wl : Arr Ideal S128x128 .f32
  l1bl : Arr Ideal S128 .f32
  l1Wr : Arr Ideal S128x128 .f32
  l2Wl : Arr Ideal S128x128 .f32
  l2bl : Arr Ideal S128 .f32
  l2Wr : Arr Ideal S128x128 .f32
  l3Wl : Arr Ideal S128x128 .f32
  l3bl : Arr Ideal S128 .f32
  l3Wr : Arr Ideal S128x128 .f32
  l4Wl : Arr Ideal S128x128 .f32
  l4bl : Arr Ideal S128 .f32
  l4Wr : Arr Ideal S128x128 .f32
  l5Wl : Arr Ideal S128x128 .f32
  l5bl : Arr Ideal S128 .f32
  l5Wr : Arr Ideal S128x128 .f32
  p1W : Arr Ideal S256x128 .f32
  p1b : Arr Ideal S128 .f32
  gamma : Arr Ideal S128 .f32
  beta : Arr Ideal S128 .f32
  mean : Arr Ideal S128 .f32
  var : Arr Ideal S128 .f32
  p2W : Arr Ideal S128x1 .f32
  p2b : Arr Ideal S1 .f32
  src : Arr Ideal S1000000 .i32
  dst : Arr Ideal S1000000 .i32
  usrc : Arr Ideal S500000 .i32
  udst : Arr Ideal S500000 .i32

/-- A mean-aggregating layer over the movies' rows, and over the users' rows. -/
def layerM (agg : S20000x128.Idx → EReal) (cnt : S20000x1.Idx → EReal) (xd : S20000x128.Idx → EReal)
    (wl : S128x128.Idx → EReal) (bl : S128.Idx → EReal) (wr : S128x128.Idx → EReal) : S20000x128.Idx → EReal :=
  fun i => Cert.Spec.sageMul z one (fun r k => agg (ix2 r k)) (fun r => cnt (ix2 r 0)) (fun r k => xd (ix2 r k))
    (fun k q => wl (ix2 k q)) (fun q => bl (ix1 q)) (fun k q => wr (ix2 k q)) (i 0) (i 1)
def layerU (agg : S100000x128.Idx → EReal) (cnt : S100000x1.Idx → EReal) (xd : S100000x128.Idx → EReal)
    (wl : S128x128.Idx → EReal) (bl : S128.Idx → EReal) (wr : S128x128.Idx → EReal) : S100000x128.Idx → EReal :=
  fun i => Cert.Spec.sageMul z one (fun r k => agg (ix2 r k)) (fun r => cnt (ix2 r 0)) (fun r k => xd (ix2 r k))
    (fun k q => wl (ix2 k q)) (fun q => bl (ix1 q)) (fun k q => wr (ix2 k q)) (i 0) (i 1)

variable (A : Args)

/-- The users' and the movies' first rows. -/
def ux0 : S100000x128.Idx → EReal :=
  fun i => Cert.Spec.dense z (fun r k => A.userFeat (ix2 r k)) (fun k q => A.wUser (ix2 k q)) (fun q => A.bUser (ix1 q)) (i 0) (i 1)
def mx0 : S20000x128.Idx → EReal :=
  fun i => Cert.Spec.dense z (fun r k => A.movieFeat (ix2 r k)) (fun k q => A.wMovie (ix2 k q)) (fun q => A.bMovie (ix1 q)) (i 0) (i 1)

/-- The five graph layers. -/
def mx1 : S20000x128.Idx → EReal :=
  layerM (sumToM (ux0 A) A.src A.dst) (cntM A.dst) (mx0 A) A.l1Wl A.l1bl A.l1Wr
def ux1 : S100000x128.Idx → EReal :=
  layerU (sumToU (mx1 A) A.src A.dst) (cntU A.src) (ux0 A) A.l2Wl A.l2bl A.l2Wr
def mx2 : S20000x128.Idx → EReal :=
  layerM (sumToM (ux1 A) A.src A.dst) (cntM A.dst) (mx1 A) A.l3Wl A.l3bl A.l3Wr
def ux2 : S100000x128.Idx → EReal :=
  layerU (sumToU (mx2 A) A.src A.dst) (cntU A.src) (ux1 A) A.l4Wl A.l4bl A.l4Wr
def ux3 : S100000x128.Idx → EReal :=
  layerU (sumUU (ux2 A) A.usrc A.udst) (cntUU A.udst) (ux2 A) A.l5Wl A.l5bl A.l5Wr

/-- The score of every rated edge, as one column. -/
def scores : S1000000x1.Idx → EReal :=
  fun i => Cert.Spec.predictSplit z one four eps
    (fun r k => rowsU (ux3 A) A.src (ix2 r k)) (fun r k => rowsM (mx2 A) A.dst (ix2 r k))
    (fun k q => topHalf A.p1W (ix2 k q)) (fun k q => botHalf A.p1W (ix2 k q))
    (fun q => A.p1b (ix1 q)) (fun q => A.gamma (ix1 q)) (fun q => A.beta (ix1 q)) (fun q => A.mean (ix1 q))
    (fun q => A.var (ix1 q)) (fun q => A.p2W (ix2 q 0)) (A.p2b (ix1 0)) (i 0)

/-- The scores as a vector: the one-column matrix read along its rows. -/
def result : S1000000.Idx → EReal :=
  shapeCast S1000000 (scores A) shapeCasts_S1000000x1_S1000000

end Cert.Net

end
-- ==== Proof.Dense0.lean ====
/-
  The first linear layer of the network on the user rows: every row of the [100000, 64] input array is multiplied by the
  [64, 128] weight matrix, the bias row is added and the result is rectified. The kernel region does this on twenty
  blocks of 5000 consecutive rows; this module reads the region's output array as ONE function of its three input
  arrays, index by index: the entry at (r, q) is max (∑ₖ x r k · w k q + b q) 0, which is `Cert.Spec.dense`.

  * `pay_apply`: the body's stored value at an entry (p, q) of a block depends on row p of the block of x, on column q of
    the weights and on entry q of the bias, and is `dense` of them (the product is the sum over the contracted axis; the
    bias is cast to one row and that row is repeated on every row of the block; changes of float format are the
    identity on the extended reals).
  * `block_eq`: grid point t writes back the block of rows 5000·t … 5000·t + 4999 of `G0` of the arrays: the block of x
    read at point t is at the same rows, the weights and the bias are read whole at every point.
  * `covered`: row r lies in the block of point r / 5000.
  * `final0`: so the output array after the region is `G0` of the three input arrays.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier, kept as its word. -/
abbrev z : EReal := Ideal.ofBits .f32 0x00000000#32

/-! ## The body's stored value at an entry -/

/-- The product's operand indices, coordinate by coordinate: the left operand is read at the output's row and the
    contracted coordinate, the right operand at the contracted coordinate and the output's column. -/
theorem lhs_row (i : S5000x128.Idx) (c : dot_S5000x64_S64x128_S5000x128_1_0_0_1_n_n.contr.Idx) :
    (dot_S5000x64_S64x128_S5000x128_1_0_0_1_n_n.lhsIdx i c 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_col (i : S5000x128.Idx) (c : dot_S5000x64_S64x128_S5000x128_1_0_0_1_n_n.contr.Idx) :
    (dot_S5000x64_S64x128_S5000x128_1_0_0_1_n_n.lhsIdx i c 1).val = (c ⟨0, by decide⟩).val :=
  dot_S5000x64_S64x128_S5000x128_1_0_0_1_n_n.lhsIdx_val_of_single rfl i c
theorem rhs_row (i : S5000x128.Idx) (c : dot_S5000x64_S64x128_S5000x128_1_0_0_1_n_n.contr.Idx) :
    (dot_S5000x64_S64x128_S5000x128_1_0_0_1_n_n.rhsIdx i c 0).val = (c ⟨0, by decide⟩).val :=
  dot_S5000x64_S64x128_S5000x128_1_0_0_1_n_n.rhsIdx_val_of_single rfl i c
theorem rhs_col (i : S5000x128.Idx) (c : dot_S5000x64_S64x128_S5000x128_1_0_0_1_n_n.contr.Idx) :
    (dot_S5000x64_S64x128_S5000x128_1_0_0_1_n_n.rhsIdx i c 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- At output entry `(p, q)` and contracted coordinate `k` the left operand is read at `(p, k)`. -/
theorem lhs_idx (p : Fin 5000) (q : Fin 128) (k : Fin 64) :
    dot_S5000x64_S64x128_S5000x128_1_0_0_1_n_n.lhsIdx (ix2 p q)
      ((contrEquiv1 dot_S5000x64_S64x128_S5000x128_1_0_0_1_n_n 64 rfl rfl).symm k) = ix2 p k := by
  have hk := contrEquiv1_symm_val dot_S5000x64_S64x128_S5000x128_1_0_0_1_n_n 64 rfl rfl k
  exact funext fun a => Fin.ext (by
    match a with
    | ⟨0, _⟩ => exact lhs_row _ _
    | ⟨1, _⟩ => exact (lhs_col _ _).trans hk)

/-- At output entry `(p, q)` and contracted coordinate `k` the right operand is read at `(k, q)`. -/
theorem rhs_idx (p : Fin 5000) (q : Fin 128) (k : Fin 64) :
    dot_S5000x64_S64x128_S5000x128_1_0_0_1_n_n.rhsIdx (ix2 p q)
      ((contrEquiv1 dot_S5000x64_S64x128_S5000x128_1_0_0_1_n_n 64 rfl rfl).symm k) = ix2 k q := by
  have hk := contrEquiv1_symm_val dot_S5000x64_S64x128_S5000x128_1_0_0_1_n_n 64 rfl rfl k
  exact funext fun a => Fin.ext (by
    match a with
    | ⟨0, _⟩ => exact (rhs_row _ _).trans hk
    | ⟨1, _⟩ => exact rhs_col _ _)

/-- The matrix product into the zero accumulator, at an entry: the sum over the contracted axis. -/
theorem matmul_at (a : FVec Ideal S5000x64 .bf16) (w : FVec Ideal S64x128 .bf16) (p : Fin 5000) (q : Fin 128) :
    FloatOps.matmul dot_S5000x64_S64x128_S5000x128_1_0_0_1_n_n none a w (constant (F := Ideal) S5000x128 .f32 0x00000000#32) (ix2 p q)
      = ∑ k : Fin 64, a (ix2 p k) * w (ix2 k q) := by
  rw [Ideal.matmul_constant_zero_apply, ← Equiv.sum_comp (contrEquiv1 dot_S5000x64_S64x128_S5000x128_1_0_0_1_n_n 64 rfl rfl).symm]
  refine Finset.sum_congr rfl fun k _ => ?_
  rw [lhs_idx, rhs_idx]

/-- The bias, cast to one row and repeated on every row, at an entry `(p, q)`: its entry `q`. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- THE BODY'S STORED VALUE at entry `(p, q)` of its block: the rectified affine form of row `p` of the block of `x`. -/
theorem pay_apply (x0 : Vec Ideal S5000x64 .f32) (x1 : Vec Ideal S64x128 .f32) (x2 : Vec Ideal S128 .f32) (p : Fin 5000) (q : Fin 128) :
    k0_pay1 (F := Ideal) x0 x1 x2 (ix2 p q)
      = Cert.Spec.dense z (fun r k => x0 (ix2 r k)) (fun k q => x1 (ix2 k q)) (fun q => x2 (ix1 q)) p q := by
  unfold k0_pay1 Cert.Spec.dense
  show max (FloatOps.matmul dot_S5000x64_S64x128_S5000x128_1_0_0_1_n_n none (truncf .bf16 x0 bitsLt_bf16_f32) (truncf .bf16 x1 bitsLt_bf16_f32) (constant (F := Ideal) S5000x128 .f32 0x00000000#32) (ix2 p q)
      + broadcastTo S5000x128 (shapeCast S1x128 x2 shapeCasts_S128_S1x128) broadcasts_S1x128_S5000x128 (ix2 p q)) z = _
  rw [matmul_at, bias_at]
  rfl

/-! ## The whole array as one function -/

/-- The layer on whole arrays: entry `(r, q)` of the output is the rectified affine form of row `r` of `X`. -/
def G0 (X : S100000x64.Idx → EReal) (W : S64x128.Idx → EReal) (B : S128.Idx → EReal) : S100000x128.Idx → EReal :=
  fun i => Cert.Spec.dense z (fun r k => X (ix2 r k)) (fun k q => W (ix2 k q)) (fun q => B (ix1 q)) (i 0) (i 1)

theorem hz2 : (![0, 0] : Fin 2 → Nat) = fun _ => 0 := funext fun a => by fin_cases a <;> rfl
theorem hz1 : (![0] : Fin 1 → Nat) = fun _ => 0 := funext fun a => by fin_cases a; rfl

/-- ONE ENTRY of a block: if the block `x0` of the input holds the rows `5000·n + p` of `X`, and the weights and the
    bias are read whole, the body's value at `(p, q)` is `G0` of the arrays at `(5000·n + p, q)`. -/
theorem entry_eq (X : S100000x64.Idx → EReal) (W : S64x128.Idx → EReal) (B : S128.Idx → EReal)
    (x0 : Vec Ideal S5000x64 .f32) (x1 : Vec Ideal S64x128 .f32) (x2 : Vec Ideal S128 .f32) (n : Nat)
    (h0 : ∀ (y : S5000x64.Idx) (i : S100000x64.Idx), (i 0).val = n * 5000 + (y 0).val → (i 1).val = (y 1).val → x0 y = X i)
    (h1 : x1 = W) (h2 : x2 = B)
    (j : S5000x128.Idx) (i : S100000x128.Idx) (hi0 : (i 0).val = n * 5000 + (j 0).val) (hi1 : (i 1).val = (j 1).val) :
    k0_pay1 (F := Ideal) x0 x1 x2 j = G0 X W B i := by
  obtain ⟨p, q, rfl⟩ : ∃ (p : Fin 5000) (q : Fin 128), j = ix2 p q := ⟨j 0, j 1, eq_ix2 j⟩
  rw [pay_apply]
  subst h1 h2
  unfold G0 Cert.Spec.dense
  have e1 : i 1 = q := Fin.ext hi1
  have hs : ∀ k : Fin 64, x0 (ix2 p k) = X (ix2 (i 0) k) := fun k => h0 _ _ hi0 rfl
  simp only [hs]
  rw [e1]

/-! ## From the blocks to the array -/

section Region
variable (V : (c : Dev nD) → (b : Ref sig .tc) → Buf (Elt Ideal) ((c : Thread nD τ).loc b))

/-- The printed index maps, decided over the grid: at point `t` the input's and the output's block index on the row
    axis is `t`, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of `G0` of the three input arrays as the region finds them: an entry
    `(p, q)` of a block sits at row `5000·t + p` and column `q` of its array (block index × block size + the coordinate
    inside the block), for the input as for the output; the weights' and the bias's one block is the whole array. -/
theorem block_eq (c : Dev nD) (t : Fin cfg0.N) :
    (dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz2]
  simp only [View.ld_unit_zero (S := S5000x64) hz2, View.ld_unit_zero (S := S64x128) hz2, View.ld_unit_zero (S := S128) hz1]
  obtain ⟨e00, e01, e10, e11, e20, e30, e31⟩ := idx_facts t
  funext j
  show k0_pay1 (F := Ideal) (iblk0 V c 0 t) (iblk0 V c 1 t) (iblk0 V c 2 t) j
    = G0 (V c (Pipeline.arrRef spec0 0)) (V c (Pipeline.arrRef spec0 1)) (V c (Pipeline.arrRef spec0 2)) (((cfg0.win 3).blk t).view.emb j)
  refine entry_eq _ _ _ _ _ _ t.val ?_ ?_ ?_ j _ ?_ ?_
  · intro y i hi0 hi1
    show V c (Pipeline.arrRef spec0 0) (((cfg0.win 0).blk t).view.emb y) = V c (Pipeline.arrRef spec0 0) i
    refine congrArg (V c (Pipeline.arrRef spec0 0)) (funext fun a => Fin.ext ?_)
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · funext y
    show V c (Pipeline.arrRef spec0 1) (((cfg0.win 1).blk t).view.emb y) = V c (Pipeline.arrRef spec0 1) y
    refine congrArg (V c (Pipeline.arrRef spec0 1)) (funext fun a => Fin.ext ?_)
    match a with
    | ⟨0, _⟩ => show win0_1.index t (0 : Fin 2) * 64 + 1 * (y 0).val = (y 0).val; omega
    | ⟨1, _⟩ => show win0_1.index t (1 : Fin 2) * 128 + 1 * (y 1).val = (y 1).val; omega
  · funext y
    show V c (Pipeline.arrRef spec0 2) (((cfg0.win 2).blk t).view.emb y) = V c (Pipeline.arrRef spec0 2) y
    refine congrArg (V c (Pipeline.arrRef spec0 2)) (funext fun a => Fin.ext ?_)
    match a with
    | ⟨0, _⟩ => show win0_2.index t (0 : Fin 1) * 128 + 1 * (y 0).val = (y 0).val; omega
  · show win0_3.index t (0 : Fin 2) * 5000 + 1 * (j 0).val = t.val * 5000 + (j 0).val; omega
  · show win0_3.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_call0_v0).slice (win0_3.rect t)).set ↔ _
  rw [View.set_slice_whole, Rect.mem_set_unit]
  exact Iff.rfl

/-- EVERY INDEX IS COVERED: row `r` lies in the block of point `r / 5000`. -/
theorem covered (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨e00, e01, e10, e11, e20, e30, e31⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the region is `G0` of the three input arrays as the region finds them. -/
theorem final0 (c : Dev nD) : (dat0 (F := Ideal) V c).arrAt 3 cfg0.N
    = G0 (V c (Pipeline.arrRef spec0 0)) (V c (Pipeline.arrRef spec0 1)) (V c (Pipeline.arrRef spec0 2)) :=
  (dat0 (F := Ideal) V c).arrAt_eq_of_cover 3
    (G0 (V c (Pipeline.arrRef spec0 0)) (V c (Pipeline.arrRef spec0 1)) (V c (Pipeline.arrRef spec0 2)))
    (fun t _ => block_eq V c t) covered

end Region

end Cert.KernelIdeal.Dense0

end
-- ==== Proof.Dense1.lean ====
/-
  The first linear layer of the network on the movie rows: every row of the [20000, 128] input array is multiplied by the
  [128, 128] weight matrix, the bias row is added and the result is rectified. The kernel region does this on four
  blocks of 5000 consecutive rows; this module reads the region's output array as ONE function of its three input
  arrays, index by index: the entry at (r, q) is max (∑ₖ x r k · w k q + b q) 0, which is `Cert.Spec.dense`.

  * `pay_apply`: the body's stored value at an entry (p, q) of a block depends on row p of the block of x, on column q of
    the weights and on entry q of the bias, and is `dense` of them (the product is the sum over the contracted axis; the
    bias is cast to one row and that row is repeated on every row of the block; changes of float format are the
    identity on the extended reals).
  * `block_eq`: grid point t writes back the block of rows 5000·t … 5000·t + 4999 of `G1` of the arrays: the block of x
    read at point t is at the same rows, the weights and the bias are read whole at every point.
  * `covered`: row r lies in the block of point r / 5000.
  * `final1`: so the output array after the region is `G1` of the three input arrays.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier, kept as its word. -/
abbrev z : EReal := Ideal.ofBits .f32 0x00000000#32

/-! ## The body's stored value at an entry -/

/-- The product's operand indices, coordinate by coordinate: the left operand is read at the output's row and the
    contracted coordinate, the right operand at the contracted coordinate and the output's column. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- At output entry `(p, q)` and contracted coordinate `k` the left operand is read at `(p, k)`. -/
theorem lhs_idx (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  exact funext fun a => Fin.ext (by
    match a with
    | ⟨0, _⟩ => exact lhs_row _ _
    | ⟨1, _⟩ => exact (lhs_col _ _).trans hk)

/-- At output entry `(p, q)` and contracted coordinate `k` the right operand is read at `(k, q)`. -/
theorem rhs_idx (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  exact funext fun a => Fin.ext (by
    match a with
    | ⟨0, _⟩ => exact (rhs_row _ _).trans hk
    | ⟨1, _⟩ => exact rhs_col _ _)

/-- The matrix product into the zero accumulator, at an entry: the sum over the contracted axis. -/
theorem matmul_at (a : FVec Ideal S5000x128 .bf16) (w : FVec Ideal S128x128 .bf16) (p : Fin 5000) (q : Fin 128) :
    FloatOps.matmul dot_S5000x128_S128x128_S5000x128_1_0_0_1_n_n none a w (constant (F := Ideal) S5000x128 .f32 0x00000000#32) (ix2 p q)
      = ∑ k : Fin 128, a (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  rw [lhs_idx, rhs_idx]

/-- The bias, cast to one row and repeated on every row, at an entry `(p, q)`: its entry `q`. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- THE BODY'S STORED VALUE at entry `(p, q)` of its block: the rectified affine form of row `p` of the block of `x`. -/
theorem pay_apply (x0 : Vec Ideal S5000x128 .f32) (x1 : Vec Ideal S128x128 .f32) (x2 : Vec Ideal S128 .f32) (p : Fin 5000) (q : Fin 128) :
    k1_pay1 (F := Ideal) x0 x1 x2 (ix2 p q)
      = Cert.Spec.dense z (fun r k => x0 (ix2 r k)) (fun k q => x1 (ix2 k q)) (fun q => x2 (ix1 q)) p q := by
  unfold k1_pay1 Cert.Spec.dense
  show max (FloatOps.matmul dot_S5000x128_S128x128_S5000x128_1_0_0_1_n_n none (truncf .bf16 x0 bitsLt_bf16_f32) (truncf .bf16 x1 bitsLt_bf16_f32) (constant (F := Ideal) S5000x128 .f32 0x00000000#32) (ix2 p q)
      + broadcastTo S5000x128 (shapeCast S1x128 x2 shapeCasts_S128_S1x128) broadcasts_S1x128_S5000x128 (ix2 p q)) z = _
  rw [matmul_at, bias_at]
  rfl

/-! ## The whole array as one function -/

/-- The layer on whole arrays: entry `(r, q)` of the output is the rectified affine form of row `r` of `X`. -/
def G1 (X : S20000x128.Idx → EReal) (W : S128x128.Idx → EReal) (B : S128.Idx → EReal) : S20000x128.Idx → EReal :=
  fun i => Cert.Spec.dense z (fun r k => X (ix2 r k)) (fun k q => W (ix2 k q)) (fun q => B (ix1 q)) (i 0) (i 1)

theorem hz2 : (![0, 0] : Fin 2 → Nat) = fun _ => 0 := funext fun a => by fin_cases a <;> rfl
theorem hz1 : (![0] : Fin 1 → Nat) = fun _ => 0 := funext fun a => by fin_cases a; rfl

/-- ONE ENTRY of a block: if the block `x0` of the input holds the rows `5000·n + p` of `X`, and the weights and the
    bias are read whole, the body's value at `(p, q)` is `G1` of the arrays at `(5000·n + p, q)`. -/
theorem entry_eq (X : S20000x128.Idx → EReal) (W : S128x128.Idx → EReal) (B : S128.Idx → EReal)
    (x0 : Vec Ideal S5000x128 .f32) (x1 : Vec Ideal S128x128 .f32) (x2 : Vec Ideal S128 .f32) (n : Nat)
    (h0 : ∀ (y : S5000x128.Idx) (i : S20000x128.Idx), (i 0).val = n * 5000 + (y 0).val → (i 1).val = (y 1).val → x0 y = X i)
    (h1 : x1 = W) (h2 : x2 = B)
    (j : S5000x128.Idx) (i : S20000x128.Idx) (hi0 : (i 0).val = n * 5000 + (j 0).val) (hi1 : (i 1).val = (j 1).val) :
    k1_pay1 (F := Ideal) x0 x1 x2 j = G1 X W B i := by
  obtain ⟨p, q, rfl⟩ : ∃ (p : Fin 5000) (q : Fin 128), j = ix2 p q := ⟨j 0, j 1, eq_ix2 j⟩
  rw [pay_apply]
  subst h1 h2
  unfold G1 Cert.Spec.dense
  have e1 : i 1 = q := Fin.ext hi1
  have hs : ∀ k : Fin 128, x0 (ix2 p k) = X (ix2 (i 0) k) := fun k => h0 _ _ hi0 rfl
  simp only [hs]
  rw [e1]

/-! ## From the blocks to the array -/

section Region
variable (V : (c : Dev nD) → (b : Ref sig .tc) → Buf (Elt Ideal) ((c : Thread nD τ).loc b))

/-- The printed index maps, decided over the grid: at point `t` the input's and the output's block index on the row
    axis is `t`, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT `t` WRITES BACK is block `t` of `G1` of the three input arrays as the region finds them: an entry
    `(p, q)` of a block sits at row `5000·t + p` and column `q` of its array (block index × block size + the coordinate
    inside the block), for the input as for the output; the weights' and the bias's one block is the whole array. -/
theorem block_eq (c : Dev nD) (t : Fin cfg1.N) :
    (dat1 (F := Ideal) V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz2]
  simp only [View.ld_unit_zero (S := S5000x128) hz2, View.ld_unit_zero (S := S128x128) hz2, View.ld_unit_zero (S := S128) hz1]
  obtain ⟨e00, e01, e10, e11, e20, e30, e31⟩ := idx_facts t
  funext j
  show k1_pay1 (F := Ideal) (iblk1 V c 0 t) (iblk1 V c 1 t) (iblk1 V c 2 t) j
    = G1 (V c (Pipeline.arrRef spec1 0)) (V c (Pipeline.arrRef spec1 1)) (V c (Pipeline.arrRef spec1 2)) (((cfg1.win 3).blk t).view.emb j)
  refine entry_eq _ _ _ _ _ _ t.val ?_ ?_ ?_ j _ ?_ ?_
  · intro y i hi0 hi1
    show V c (Pipeline.arrRef spec1 0) (((cfg1.win 0).blk t).view.emb y) = V c (Pipeline.arrRef spec1 0) i
    refine congrArg (V c (Pipeline.arrRef spec1 0)) (funext fun a => Fin.ext ?_)
    match a with
    | ⟨0, _⟩ => show win1_0.index t (0 : Fin 2) * 5000 + 1 * (y 0).val = (i 0).val; omega
    | ⟨1, _⟩ => show win1_0.index t (1 : Fin 2) * 128 + 1 * (y 1).val = (i 1).val; omega
  · funext y
    show V c (Pipeline.arrRef spec1 1) (((cfg1.win 1).blk t).view.emb y) = V c (Pipeline.arrRef spec1 1) y
    refine congrArg (V c (Pipeline.arrRef spec1 1)) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c (Pipeline.arrRef spec1 2) (((cfg1.win 2).blk t).view.emb y) = V c (Pipeline.arrRef spec1 2) y
    refine congrArg (V c (Pipeline.arrRef spec1 2)) (funext fun a => Fin.ext ?_)
    match a with
    | ⟨0, _⟩ => show win1_2.index t (0 : Fin 1) * 128 + 1 * (y 0).val = (y 0).val; omega
  · show win1_3.index t (0 : Fin 2) * 5000 + 1 * (j 0).val = t.val * 5000 + (j 0).val; omega
  · show win1_3.index t (1 : Fin 2) * 128 + 1 * (j 1).val = (j 1).val; omega

/-- An index of the output array is in point `t`'s block iff each coordinate is in the block's range on its axis. -/
theorem mem_blk (t : Fin cfg1.N) (i : S20000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_call0_v1).slice (win1_3.rect t)).set ↔ _
  rw [View.set_slice_whole, Rect.mem_set_unit]
  exact Iff.rfl

/-- EVERY INDEX IS COVERED: row `r` lies in the block of point `r / 5000`. -/
theorem covered (i : S20000x128.Idx) :
    ∃ t : Fin cfg1.N, (cfg1.win 3).flush t = true ∧ i ∈ ((cfg1.win 3).blk t).view.set := by
  have hN : cfg1.N = 4 := N_1
  have hi0 : (i 0).val < 20000 := (i 0).isLt
  have hi1 : (i 1).val < 128 := (i 1).isLt
  let t : Fin cfg1.N := ⟨(i 0).val / 5000, by rw [hN]; omega⟩
  obtain ⟨e00, e01, e10, e11, e20, e30, e31⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the region is `G1` of the three input arrays as the region finds them. -/
theorem final1 (c : Dev nD) : (dat1 (F := Ideal) V c).arrAt 3 cfg1.N
    = G1 (V c (Pipeline.arrRef spec1 0)) (V c (Pipeline.arrRef spec1 1)) (V c (Pipeline.arrRef spec1 2)) :=
  (dat1 (F := Ideal) V c).arrAt_eq_of_cover 3
    (G1 (V c (Pipeline.arrRef spec1 0)) (V c (Pipeline.arrRef spec1 1)) (V c (Pipeline.arrRef spec1 2)))
    (fun t _ => block_eq V c t) covered

end Region

end Cert.KernelIdeal.Dense1

end
-- ==== Proof.Sage2.lean ====
/-
  Region 2 of the kernel program: the mean-aggregating graph layer on 20000 rows, computed in 4 blocks of 5000 rows.

  The body reads a block of the neighbour sums `a` [5000,128], the matching block of the neighbour counts `cnt` [5000,1]
  and of the rows' own features `xd` [5000,128], and the whole of the two weight matrices `Wl`, `Wr` [128,128] and of the
  bias `bl` [128]; it stores `max (((a · (1 / max cnt 1)) · Wl + bl) + xd · Wr) 0` as the matching block of the output.

  Three steps. (i) The stored value at row `p`, column `q` of a block: each pointwise operation is read at the index, the
  count's reciprocal is a [5000,1] column broadcast along the rows' 128 columns (so it reads the column's entry of row `p`),
  the bias is a [1,128] row broadcast down the 5000 rows, and each matrix product into the zero accumulator is the sum
  over the 128 contracted positions `k` of `lhs (p, k) * rhs (k, q)`. (ii) At grid point `t` the row blocks of `a`, `cnt`,
  `xd` and of the output all sit at rows `5000 t … 5000 t + 4999` and the weights' blocks are the whole arrays, so what point
  `t` writes back is block `t` of ONE function of the six input arrays: row `r` of the output depends only on row `r` of `a`,
  `cnt`, `xd` and on the weights. (iii) Row `r` lies in the block of point `r / 5000`, so the blocks cover the output array
  and it ends holding that function.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier and of the accumulators. -/
abbrev z : EReal := Ideal.ofBits .f32 0x00000000#32
/-- The literal one the neighbour count is clipped at and whose quotient by the clipped count is the mean's factor. -/
abbrev one : EReal := Ideal.ofBits .f32 0x3F800000#32

/-! ## The layer as one function of the six input arrays -/

/-- Row `i 0`, column `i 1` of the layer's output, from the whole input arrays. -/
def G2 (A : S20000x128.Idx → EReal) (Cnt : S20000x1.Idx → EReal) (Xd : S20000x128.Idx → EReal)
    (Wl : S128x128.Idx → EReal) (Bl : S128.Idx → EReal) (Wr : S128x128.Idx → EReal) : S20000x128.Idx → EReal :=
  fun i => Cert.Spec.sageMul z one (fun r k => A (ix2 r k)) (fun r => Cnt (ix2 r 0)) (fun r k => Xd (ix2 r k))
    (fun k q => Wl (ix2 k q)) (fun q => Bl (ix1 q)) (fun k q => Wr (ix2 k q)) (i 0) (i 1)

/-! ## (i) The stored value at an index -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the rows' axis the left operand of the product is read at the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the columns' axis the right operand of the product is read at the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A `[5000,128] × [128,128]` product into the zero accumulator, read at `(p, q)`: the sum over the 128 contracted
    positions of `lhs (p, k) * rhs (k, q)`. -/
theorem matmul_at (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- THE STORED VALUE at row `p`, column `q` of a block: the layer's formula on the loaded blocks, the count's reciprocal
    taken in row `p` of the count column, the bias in column `q`, each product summed over the 128 contracted positions. -/
theorem pay_at (cnt : Vec Ideal S5000x1 .f32) (a xd : Vec Ideal S5000x128 .f32) (wl wr : Vec Ideal S128x128 .f32)
    (bl : Vec Ideal S128 .f32) (p : Fin 5000) (q : Fin 128) :
    k2_pay1 (F := Ideal) cnt a xd wl wr bl (ix2 p q)
      = Cert.Spec.sageMul z one (fun r k => a (ix2 r k)) (fun r => cnt (ix2 r 0)) (fun r k => xd (ix2 r k))
          (fun k q => wl (ix2 k q)) (fun q => bl (ix1 q)) (fun k q => wr (ix2 k q)) p q := by
  unfold k2_pay1
  rw [maximumf_apply, addf_apply, addf_apply, matmul_at, matmul_at, broadcast_apply,
    broadcastTo_1b_ab_apply, shapeCast_a_1a_apply]
  simp only [truncf_apply, mulf_apply, shapeCast_self, broadcastTo_a1_ab_apply, divf_apply, maximumf_apply, broadcast_apply]
  rfl

/-! ## (ii) What a grid point writes back -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices, decided over the grid: the row blocks of `a`, `cnt`, `xd` and of the output are block `t` at
    point `t`; the weights' and the bias's blocks are the whole arrays at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block `t` of the neighbour sums is rows `5000 t … 5000 t + 4999` of their array. -/
theorem a_rows (c : Dev nD) (t : Fin cfg2.N) (y : S5000x128.Idx) (k : S20000x128.Idx)
    (hk0 : (k 0).val = t.val * 5000 + (y 0).val) (hk1 : (k 1).val = (y 1).val) :
    (iblk2 V c 0 t : Vec Ideal S5000x128 .f32) y = (V c (Pipeline.arrRef spec2 0) : S20000x128.Idx → EReal) k := by
  obtain ⟨e0, e1, -⟩ := idx_facts t
  show (V c (Pipeline.arrRef spec2 0) : S20000x128.Idx → EReal) (((cfg2.win 0).blk t).view.emb y) = _
  refine congrArg (V c (Pipeline.arrRef spec2 0) : S20000x128.Idx → EReal) (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- Block `t` of the neighbour counts is rows `5000 t … 5000 t + 4999` of their one-column array. -/
theorem cnt_rows (c : Dev nD) (t : Fin cfg2.N) (y : S5000x1.Idx) (k : S20000x1.Idx)
    (hk0 : (k 0).val = t.val * 5000 + (y 0).val) (hk1 : (k 1).val = (y 1).val) :
    (iblk2 V c 1 t : Vec Ideal S5000x1 .f32) y = (V c (Pipeline.arrRef spec2 1) : S20000x1.Idx → EReal) k := by
  obtain ⟨-, -, e0, e1, -⟩ := idx_facts t
  show (V c (Pipeline.arrRef spec2 1) : S20000x1.Idx → EReal) (((cfg2.win 1).blk t).view.emb y) = _
  refine congrArg (V c (Pipeline.arrRef spec2 1) : S20000x1.Idx → EReal) (funext fun a => Fin.ext ?_)
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega

/-- Block `t` of the rows' own features is rows `5000 t … 5000 t + 4999` of their array. -/
theorem xd_rows (c : Dev nD) (t : Fin cfg2.N) (y : S5000x128.Idx) (k : S20000x128.Idx)
    (hk0 : (k 0).val = t.val * 5000 + (y 0).val) (hk1 : (k 1).val = (y 1).val) :
    (iblk2 V c 2 t : Vec Ideal S5000x128 .f32) y = (V c (Pipeline.arrRef spec2 2) : S20000x128.Idx → EReal) k := by
  obtain ⟨-, -, -, -, e0, e1, -⟩ := idx_facts t
  show (V c (Pipeline.arrRef spec2 2) : S20000x128.Idx → EReal) (((cfg2.win 2).blk t).view.emb y) = _
  refine congrArg (V c (Pipeline.arrRef spec2 2) : S20000x128.Idx → EReal) (funext fun a => Fin.ext ?_)
  match a with
  | ⟨0, _⟩ => show win2_2.index t (0 : Fin 2) * 5000 + 1 * (y 0).val = (k 0).val; rw [e0, hk0]; omega
  | ⟨1, _⟩ => show win2_2.index t (1 : Fin 2) * 128 + 1 * (y 1).val = (k 1).val; rw [e1, hk1]; omega

/-- The left weight matrix's block is the whole matrix at every point. -/
theorem wl_whole (c : Dev nD) (t : Fin cfg2.N) :
    (iblk2 V c 3 t : Vec Ideal S128x128 .f32) = (V c (Pipeline.arrRef spec2 3) : S128x128.Idx → EReal) := by
  obtain ⟨-, -, -, -, -, -, e0, e1, -⟩ := idx_facts t
  funext y
  show (V c (Pipeline.arrRef spec2 3) : S128x128.Idx → EReal) (((cfg2.win 3).blk t).view.emb y) = _
  refine congrArg (V c (Pipeline.arrRef spec2 3) : S128x128.Idx → EReal) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias's block is the whole vector at every point. -/
theorem bl_whole (c : Dev nD) (t : Fin cfg2.N) :
    (iblk2 V c 4 t : Vec Ideal S128 .f32) = (V c (Pipeline.arrRef spec2 4) : S128.Idx → EReal) := by
  obtain ⟨-, -, -, -, -, -, -, -, e0, -⟩ := idx_facts t
  funext y
  show (V c (Pipeline.arrRef spec2 4) : S128.Idx → EReal) (((cfg2.win 4).blk t).view.emb y) = _
  refine congrArg (V c (Pipeline.arrRef spec2 4) : S128.Idx → EReal) (funext fun a => Fin.ext ?_)
  match a with
  | ⟨0, _⟩ => show win2_4.index t (0 : Fin 1) * 128 + 1 * (y 0).val = (y 0).val; rw [e0]; omega

/-- The right weight matrix's block is the whole matrix at every point. -/
theorem wr_whole (c : Dev nD) (t : Fin cfg2.N) :
    (iblk2 V c 5 t : Vec Ideal S128x128 .f32) = (V c (Pipeline.arrRef spec2 5) : S128x128.Idx → EReal) := by
  obtain ⟨-, -, -, -, -, -, -, -, -, e0, e1, -⟩ := idx_facts t
  funext y
  show (V c (Pipeline.arrRef spec2 5) : S128x128.Idx → EReal) (((cfg2.win 5).blk t).view.emb y) = _
  refine congrArg (V c (Pipeline.arrRef spec2 5) : S128x128.Idx → EReal) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- THE STORED VALUE IS THE LAYER'S: when the three row blocks are rows `5000 b …` of their arrays and the weights' blocks
    are the whole arrays, the value stored at `j` is the layer's output at row `5000 b + j 0`, column `j 1`: it depends on
    that row of `A`, `Cnt`, `Xd` and on the weights only. -/
theorem stored_eq (A : S20000x128.Idx → EReal) (Cnt : S20000x1.Idx → EReal) (Xd : S20000x128.Idx → EReal)
    (Wl : S128x128.Idx → EReal) (Bl : S128.Idx → EReal) (Wr : S128x128.Idx → EReal)
    (cnt : Vec Ideal S5000x1 .f32) (a xd : Vec Ideal S5000x128 .f32) (wl wr : Vec Ideal S128x128 .f32) (bl : Vec Ideal S128 .f32)
    (b : ℕ)
    (ha : ∀ (y : S5000x128.Idx) (k : S20000x128.Idx), (k 0).val = b * 5000 + (y 0).val → (k 1).val = (y 1).val → a y = A k)
    (hcnt : ∀ (y : S5000x1.Idx) (k : S20000x1.Idx), (k 0).val = b * 5000 + (y 0).val → (k 1).val = (y 1).val → cnt y = Cnt k)
    (hxd : ∀ (y : S5000x128.Idx) (k : S20000x128.Idx), (k 0).val = b * 5000 + (y 0).val → (k 1).val = (y 1).val → xd y = Xd k)
    (hwl : wl = Wl) (hbl : bl = Bl) (hwr : wr = Wr)
    (j : S5000x128.Idx) (i : S20000x128.Idx) (hi0 : (i 0).val = b * 5000 + (j 0).val) (hi1 : (i 1).val = (j 1).val) :
    k2_pay1 (F := Ideal) cnt a xd wl wr bl j = G2 A Cnt Xd Wl Bl Wr i := by
  subst hwl hbl hwr
  obtain ⟨p, q, rfl⟩ : ∃ (p : Fin 5000) (q : Fin 128), j = ix2 p q := ⟨j 0, j 1, eq_ix2 j⟩
  obtain ⟨r, q', rfl⟩ : ∃ (r : Fin 20000) (q' : Fin 128), i = ix2 r q' := ⟨i 0, i 1, eq_ix2 i⟩
  obtain rfl : q' = q := Fin.ext hi1
  have e_a : ∀ k : Fin 128, a (ix2 p k) = A (ix2 r k) := fun k => ha _ _ hi0 rfl
  have e_c : cnt (ix2 p 0) = Cnt (ix2 r 0) := hcnt _ _ hi0 rfl
  have e_x : ∀ k : Fin 128, xd (ix2 p k) = Xd (ix2 r k) := fun k => hxd _ _ hi0 rfl
  rw [pay_at]
  unfold G2
  show Cert.Spec.sageMul z one _ _ _ _ _ _ p q' = Cert.Spec.sageMul z one _ _ _ _ _ _ r q'
  unfold Cert.Spec.sageMul Cert.Spec.clip
  simp only [e_a, e_c, e_x]

/-- WHAT POINT `t` WRITES BACK is block `t` of the layer's output computed from the six arrays as the region finds them. -/
theorem flushed_eq (c : Dev nD) (t : Fin cfg2.N) :
    (dat2 (F := Ideal) V c).flushed 6 t = ((cfg2.win 6).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 (F := Ideal) V c).after 6 t) = _
  rw [after2_6]
  unfold out2_6
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, -, e0, e1⟩ := idx_facts t
  funext j
  show k2_pay1 (F := Ideal) (iblk2 V c 1 t) (iblk2 V c 0 t) (iblk2 V c 2 t) (iblk2 V c 3 t) (iblk2 V c 5 t) (iblk2 V c 4 t) j
    = G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (((cfg2.win 6).blk t).view.emb j)
  refine stored_eq _ _ _ _ _ _ _ _ _ _ _ _ t.val (a_rows V c t) (cnt_rows V c t) (xd_rows V c t)
    (wl_whole V c t) (bl_whole V c t) (wr_whole V c t) j _ ?_ ?_
  · show win2_6.index t (0 : Fin 2) * 5000 + 1 * (j 0).val = t.val * 5000 + (j 0).val; rw [e0]; omega
  · show win2_6.index t (1 : Fin 2) * 128 + 1 * (j 1).val = (j 1).val; rw [e1]; omega

/-! ## (iii) The blocks cover the output array -/

/-- An index of the output array is in point `t`'s block iff each coordinate is in the block's range on its axis. -/
theorem mem_blk (t : Fin cfg2.N) (i : S20000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_call0_v26).slice (win2_6.rect t)).set ↔ _
  rw [View.set_slice_whole, Rect.mem_set_unit]
  exact Iff.rfl

/-- Row `r` of the output lies in the block of point `r / 5000`, and every point writes its block back. -/
theorem cover (i : S20000x128.Idx) :
    ∃ t : Fin cfg2.N, (cfg2.win 6).flush t = true ∧ i ∈ ((cfg2.win 6).blk t).view.set := by
  have hi0 : (i 0).val < 20000 := (i 0).isLt
  have hi1 : (i 1).val < 128 := (i 1).isLt
  have hN : cfg2.N = 4 := N_2
  obtain ⟨t, ht⟩ : ∃ t : Fin cfg2.N, t.val = (i 0).val / 5000 := ⟨⟨(i 0).val / 5000, by rw [hN]; omega⟩, rfl⟩
  obtain ⟨-, -, -, -, -, -, -, -, -, -, -, e0, e1⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

/-- THE OUTPUT ARRAY after the region is the layer's output computed from the six input arrays as the region finds them. -/
theorem final2 (c : Dev nD) :
    (dat2 (F := Ideal) V c).arrAt 6 cfg2.N
      = G2 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 (F := Ideal) V c).arrAt_eq_of_cover 6 _ (fun t _ => flushed_eq V c t) cover

end Cert.KernelIdeal.Sage2

end
-- ==== Proof.KChainA.lean ====
/-
  The idealized kernel program's buffers, boundary by boundary, as values of the network (first part: up to the end of
  the first graph layer).

  `argsOf m c` collects the launch contents of the thirty-three argument arrays. At each boundary every buffer that a
  later stage still reads holds a value of the network at those arguments: a launch's output array holds its dense
  stage applied to what its input windows held at the launch's entry; a host stretch's results hold the row movement
  applied to what its operands held at the stretch's entry; anything else is carried over unchanged. Each fact follows
  from the facts at the previous boundary in one step.
-/
import proofs.«129102_j79517024519044_2_alg».proof.Proof.KFold
import proofs.«129102_j79517024519044_2_alg».proof.Proof.KStretch
import proofs.«129102_j79517024519044_2_alg».proof.Proof.Net
import proofs.«129102_j79517024519044_2_alg».proof.Proof.Dense0
import proofs.«129102_j79517024519044_2_alg».proof.Proof.Dense1
import proofs.«129102_j79517024519044_2_alg».proof.Proof.Sage2

set_option maxRecDepth 16384

noncomputable section

namespace Cert.KernelIdeal.Chain

open Idealize.ShloMosaic Idealize.ShloMosaic.TcCoe Idealize.SL.Sem
open Cert.KernelIdeal Cert.KernelIdeal.Gen Cert.KernelIdeal.Fold Cert.KernelIdeal.Stretch Cert.KernelIdeal.Glue

variable (m : (ℓ : Loc nD τ sig) → Buf (Elt Ideal) ℓ) (ρ : Dev nD → PrngReg) (c : Dev nD)

/-- The launch contents of the argument arrays. -/
def argsOf : Cert.Net.Args where
  userFeat := m ((c : Thread nD τ).loc main_arg0)
  movieFeat := m ((c : Thread nD τ).loc main_arg1)
  wUser := m ((c : Thread nD τ).loc main_arg2)
  bUser := m ((c : Thread nD τ).loc main_arg3)
  wMovie := m ((c : Thread nD τ).loc main_arg4)
  bMovie := m ((c : Thread nD τ).loc main_arg5)
  l1Wl := m ((c : Thread nD τ).loc main_arg6)
  l1bl := m ((c : Thread nD τ).loc main_arg7)
  l1Wr := m ((c : Thread nD τ).loc main_arg8)
  l2Wl := m ((c : Thread nD τ).loc main_arg9)
  l2bl := m ((c : Thread nD τ).loc main_arg10)
  l2Wr := m ((c : Thread nD τ).loc main_arg11)
  l3Wl := m ((c : Thread nD τ).loc main_arg12)
  l3bl := m ((c : Thread nD τ).loc main_arg13)
  l3Wr := m ((c : Thread nD τ).loc main_arg14)
  l4Wl := m ((c : Thread nD τ).loc main_arg15)
  l4bl := m ((c : Thread nD τ).loc main_arg16)
  l4Wr := m ((c : Thread nD τ).loc main_arg17)
  l5Wl := m ((c : Thread nD τ).loc main_arg18)
  l5bl := m ((c : Thread nD τ).loc main_arg19)
  l5Wr := m ((c : Thread nD τ).loc main_arg20)
  p1W := m ((c : Thread nD τ).loc main_arg21)
  p1b := m ((c : Thread nD τ).loc main_arg22)
  gamma := m ((c : Thread nD τ).loc main_arg23)
  beta := m ((c : Thread nD τ).loc main_arg24)
  mean := m ((c : Thread nD τ).loc main_arg25)
  var := m ((c : Thread nD τ).loc main_arg26)
  p2W := m ((c : Thread nD τ).loc main_arg27)
  p2b := m ((c : Thread nD τ).loc main_arg28)
  src := m ((c : Thread nD τ).loc main_arg29)
  dst := m ((c : Thread nD τ).loc main_arg30)
  usrc := m ((c : Thread nD τ).loc main_arg31)
  udst := m ((c : Thread nD τ).loc main_arg32)

/-! ## Boundary 1: after the users' dense layer -/

theorem b1_ux0 : W1 m ρ c (Proc.devRef .tc main_call0_v0) = Cert.Net.ux0 (argsOf m c) :=
  (W1_arr m ρ c 3).trans ((Cert.KernelIdeal.Dense0.final0 (V0 m ρ) c).trans rfl)

/-! ## Boundary 2: after the movies' dense layer -/

theorem b2_ux0 : W2 m ρ c (Proc.devRef .tc main_call0_v0) = Cert.Net.ux0 (argsOf m c) :=
  (W2_of_ne m ρ c main_call0_v0 (by decide)).trans (b1_ux0 m ρ c)

theorem b2_mx0 : W2 m ρ c (Proc.devRef .tc main_call0_v1) = Cert.Net.mx0 (argsOf m c) :=
  (W2_arr m ρ c 3).trans ((Cert.KernelIdeal.Dense1.final1 (V1 m ρ) c).trans (by
    show Cert.KernelIdeal.Dense1.G1 (W1 m ρ c (Proc.devRef .tc main_arg1)) (W1 m ρ c (Proc.devRef .tc main_arg4))
      (W1 m ρ c (Proc.devRef .tc main_arg5)) = _
    rw [args1 m ρ c main_arg1 (by decide), args1 m ρ c main_arg4 (by decide), args1 m ρ c main_arg5 (by decide)]
    rfl))

/-! ## Boundary 3: after the first stretch (the three neighbour counts, the first layer's neighbour sums) -/

theorem b3_ux0 : W3 m ρ c (Proc.devRef .tc main_call0_v0) = Cert.Net.ux0 (argsOf m c) :=
  (keep2 (W2 m ρ c) main_call0_v0 (by decide)).trans (b2_ux0 m ρ c)

theorem b3_mx0 : W3 m ρ c (Proc.devRef .tc main_call0_v1) = Cert.Net.mx0 (argsOf m c) :=
  (keep2 (W2 m ρ c) main_call0_v1 (by decide)).trans (b2_mx0 m ρ c)

theorem b3_cntM : W3 m ρ c (Proc.devRef .tc main_call0_v7) = cntM (argsOf m c).dst :=
  (s2_v7 m ρ c).trans (by rw [args2 m ρ c main_arg30 (by decide)]; rfl)

theorem b3_cntU : W3 m ρ c (Proc.devRef .tc main_call0_v11) = cntU (argsOf m c).src :=
  (s2_v11 m ρ c).trans (by rw [args2 m ρ c main_arg29 (by decide)]; rfl)

theorem b3_cntUU : W3 m ρ c (Proc.devRef .tc main_call0_v15) = cntUU (argsOf m c).udst :=
  (s2_v15 m ρ c).trans (by rw [args2 m ρ c main_arg32 (by decide)]; rfl)

theorem b3_sum1 : W3 m ρ c (Proc.devRef .tc main_call0_v25)
    = sumToM (Cert.Net.ux0 (argsOf m c)) (argsOf m c).src (argsOf m c).dst :=
  (s2_v25 m ρ c).trans (by
    rw [b2_ux0 m ρ c, args2 m ρ c main_arg29 (by decide), args2 m ρ c main_arg30 (by decide)]; rfl)

/-! ## Boundary 4: after the first graph layer (movie rows) -/

theorem b4_mx1 : W4 m ρ c (Proc.devRef .tc main_call0_v26) = Cert.Net.mx1 (argsOf m c) :=
  (W4_arr m ρ c 6).trans ((Cert.KernelIdeal.Sage2.final2 (V3 m ρ) c).trans (by
    show Cert.KernelIdeal.Sage2.G2 (W3 m ρ c (Proc.devRef .tc main_call0_v25)) (W3 m ρ c (Proc.devRef .tc main_call0_v7))
      (W3 m ρ c (Proc.devRef .tc main_call0_v1)) (W3 m ρ c (Proc.devRef .tc main_arg6))
      (W3 m ρ c (Proc.devRef .tc main_arg7)) (W3 m ρ c (Proc.devRef .tc main_arg8)) = _
    rw [b3_sum1 m ρ c, b3_cntM m ρ c, b3_mx0 m ρ c, args3 m ρ c main_arg6 (by decide),
      args3 m ρ c main_arg7 (by decide), args3 m ρ c main_arg8 (by decide)]
    rfl))

/-- A launch's input array ends as it was entered: the first graph layer stages the movies' counts (window 1). -/
theorem b4_cntM : W4 m ρ c (Proc.devRef .tc main_call0_v7) = cntM (argsOf m c).dst :=
  (W4_arr m ρ c 1).trans (((dat2 (V3 m ρ) c).arrAt_in 1 rfl _).trans ((A_eq2 (V3 m ρ) c 1).trans (b3_cntM m ρ c)))

theorem b4_ux0 : W4 m ρ c (Proc.devRef .tc main_call0_v0) = Cert.Net.ux0 (argsOf m c) :=
  (W4_of_ne m ρ c main_call0_v0 (by decide)).trans (b3_ux0 m ρ c)

theorem b4_cntU : W4 m ρ c (Proc.devRef .tc main_call0_v11) = cntU (argsOf m c).src :=
  (W4_of_ne m ρ c main_call0_v11 (by decide)).trans (b3_cntU m ρ c)

theorem b4_cntUU : W4 m ρ c (Proc.devRef .tc main_call0_v15) = cntUU (argsOf m c).udst :=
  (W4_of_ne m ρ c main_call0_v15 (by decide)).trans (b3_cntUU m ρ c)

end Cert.KernelIdeal.Chain

end
-- ==== Proof.Sage3.lean ====
/-
  Region 3 of the kernel program: the mean-aggregating graph layer on 100000 rows, computed in 20 blocks of 5000 rows.

  The body reads a block of the neighbour sums `a` [5000,128], the matching block of the neighbour counts `cnt` [5000,1]
  and of the rows' own features `xd` [5000,128], and the whole of the two weight matrices `Wl`, `Wr` [128,128] and of the
  bias `bl` [128]; it stores `max (((a · (1 / max cnt 1)) · Wl + bl) + xd · Wr) 0` as the matching block of the output.

  Three steps. (i) The stored value at row `p`, column `q` of a block: each pointwise operation is read at the index, the
  count's reciprocal is a [5000,1] column broadcast along the rows' 128 columns (so it reads the column's entry of row `p`),
  the bias is a [1,128] row broadcast down the 5000 rows, and each matrix product into the zero accumulator is the sum
  over the 128 contracted positions `k` of `lhs (p, k) * rhs (k, q)`. (ii) At grid point `t` the row blocks of `a`, `cnt`,
  `xd` and of the output all sit at rows `5000 t … 5000 t + 4999` and the weights' blocks are the whole arrays, so what point
  `t` writes back is block `t` of ONE function of the six input arrays: row `r` of the output depends only on row `r` of `a`,
  `cnt`, `xd` and on the weights. (iii) Row `r` lies in the block of point `r / 5000`, so the blocks cover the output array
  and it ends holding that function.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier and of the accumulators. -/
abbrev z : EReal := Ideal.ofBits .f32 0x00000000#32
/-- The literal one the neighbour count is clipped at and whose quotient by the clipped count is the mean's factor. -/
abbrev one : EReal := Ideal.ofBits .f32 0x3F800000#32

/-! ## The layer as one function of the six input arrays -/

/-- Row `i 0`, column `i 1` of the layer's output, from the whole input arrays. -/
def G3 (A : S100000x128.Idx → EReal) (Cnt : S100000x1.Idx → EReal) (Xd : S100000x128.Idx → EReal)
    (Wl : S128x128.Idx → EReal) (Bl : S128.Idx → EReal) (Wr : S128x128.Idx → EReal) : S100000x128.Idx → EReal :=
  fun i => Cert.Spec.sageMul z one (fun r k => A (ix2 r k)) (fun r => Cnt (ix2 r 0)) (fun r k => Xd (ix2 r k))
    (fun k q => Wl (ix2 k q)) (fun q => Bl (ix1 q)) (fun k q => Wr (ix2 k q)) (i 0) (i 1)

/-! ## (i) The stored value at an index -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the rows' axis the left operand of the product is read at the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the columns' axis the right operand of the product is read at the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A `[5000,128] × [128,128]` product into the zero accumulator, read at `(p, q)`: the sum over the 128 contracted
    positions of `lhs (p, k) * rhs (k, q)`. -/
theorem matmul_at (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- THE STORED VALUE at row `p`, column `q` of a block: the layer's formula on the loaded blocks, the count's reciprocal
    taken in row `p` of the count column, the bias in column `q`, each product summed over the 128 contracted positions. -/
theorem pay_at (cnt : Vec Ideal S5000x1 .f32) (a xd : Vec Ideal S5000x128 .f32) (wl wr : Vec Ideal S128x128 .f32)
    (bl : Vec Ideal S128 .f32) (p : Fin 5000) (q : Fin 128) :
    k3_pay1 (F := Ideal) cnt a xd wl wr bl (ix2 p q)
      = Cert.Spec.sageMul z one (fun r k => a (ix2 r k)) (fun r => cnt (ix2 r 0)) (fun r k => xd (ix2 r k))
          (fun k q => wl (ix2 k q)) (fun q => bl (ix1 q)) (fun k q => wr (ix2 k q)) p q := by
  unfold k3_pay1
  rw [maximumf_apply, addf_apply, addf_apply, matmul_at, matmul_at, broadcast_apply,
    broadcastTo_1b_ab_apply, shapeCast_a_1a_apply]
  simp only [truncf_apply, mulf_apply, shapeCast_self, broadcastTo_a1_ab_apply, divf_apply, maximumf_apply, broadcast_apply]
  rfl

/-! ## (ii) What a grid point writes back -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices, decided over the grid: the row blocks of `a`, `cnt`, `xd` and of the output are block `t` at
    point `t`; the weights' and the bias's blocks are the whole arrays at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Block `t` of the neighbour sums is rows `5000 t … 5000 t + 4999` of their array. -/
theorem a_rows (c : Dev nD) (t : Fin cfg3.N) (y : S5000x128.Idx) (k : S100000x128.Idx)
    (hk0 : (k 0).val = t.val * 5000 + (y 0).val) (hk1 : (k 1).val = (y 1).val) :
    (iblk3 V c 0 t : Vec Ideal S5000x128 .f32) y = (V c (Pipeline.arrRef spec3 0) : S100000x128.Idx → EReal) k := by
  obtain ⟨e0, e1, -⟩ := idx_facts t
  show (V c (Pipeline.arrRef spec3 0) : S100000x128.Idx → EReal) (((cfg3.win 0).blk t).view.emb y) = _
  refine congrArg (V c (Pipeline.arrRef spec3 0) : S100000x128.Idx → EReal) (funext fun a => Fin.ext ?_)
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- Block `t` of the neighbour counts is rows `5000 t … 5000 t + 4999` of their one-column array. -/
theorem cnt_rows (c : Dev nD) (t : Fin cfg3.N) (y : S5000x1.Idx) (k : S100000x1.Idx)
    (hk0 : (k 0).val = t.val * 5000 + (y 0).val) (hk1 : (k 1).val = (y 1).val) :
    (iblk3 V c 1 t : Vec Ideal S5000x1 .f32) y = (V c (Pipeline.arrRef spec3 1) : S100000x1.Idx → EReal) k := by
  obtain ⟨-, -, e0, e1, -⟩ := idx_facts t
  show (V c (Pipeline.arrRef spec3 1) : S100000x1.Idx → EReal) (((cfg3.win 1).blk t).view.emb y) = _
  refine congrArg (V c (Pipeline.arrRef spec3 1) : S100000x1.Idx → EReal) (funext fun a => Fin.ext ?_)
  match a with
  | ⟨0, _⟩ => show win3_1.index t (0 : Fin 2) * 5000 + 1 * (y 0).val = (k 0).val; rw [e0, hk0]; omega
  | ⟨1, _⟩ => show win3_1.index t (1 : Fin 2) * 1 + 1 * (y 1).val = (k 1).val; rw [e1, hk1]; omega

/-- Block `t` of the rows' own features is rows `5000 t … 5000 t + 4999` of their array. -/
theorem xd_rows (c : Dev nD) (t : Fin cfg3.N) (y : S5000x128.Idx) (k : S100000x128.Idx)
    (hk0 : (k 0).val = t.val * 5000 + (y 0).val) (hk1 : (k 1).val = (y 1).val) :
    (iblk3 V c 2 t : Vec Ideal S5000x128 .f32) y = (V c (Pipeline.arrRef spec3 2) : S100000x128.Idx → EReal) k := by
  obtain ⟨-, -, -, -, e0, e1, -⟩ := idx_facts t
  show (V c (Pipeline.arrRef spec3 2) : S100000x128.Idx → EReal) (((cfg3.win 2).blk t).view.emb y) = _
  refine congrArg (V c (Pipeline.arrRef spec3 2) : S100000x128.Idx → EReal) (funext fun a => Fin.ext ?_)
  match a with
  | ⟨0, _⟩ => show win3_2.index t (0 : Fin 2) * 5000 + 1 * (y 0).val = (k 0).val; rw [e0, hk0]; omega
  | ⟨1, _⟩ => show win3_2.index t (1 : Fin 2) * 128 + 1 * (y 1).val = (k 1).val; rw [e1, hk1]; omega

/-- The left weight matrix's block is the whole matrix at every point. -/
theorem wl_whole (c : Dev nD) (t : Fin cfg3.N) :
    (iblk3 V c 3 t : Vec Ideal S128x128 .f32) = (V c (Pipeline.arrRef spec3 3) : S128x128.Idx → EReal) := by
  obtain ⟨-, -, -, -, -, -, e0, e1, -⟩ := idx_facts t
  funext y
  show (V c (Pipeline.arrRef spec3 3) : S128x128.Idx → EReal) (((cfg3.win 3).blk t).view.emb y) = _
  refine congrArg (V c (Pipeline.arrRef spec3 3) : S128x128.Idx → EReal) (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The bias's block is the whole vector at every point. -/
theorem bl_whole (c : Dev nD) (t : Fin cfg3.N) :
    (iblk3 V c 4 t : Vec Ideal S128 .f32) = (V c (Pipeline.arrRef spec3 4) : S128.Idx → EReal) := by
  obtain ⟨-, -, -, -, -, -, -, -, e0, -⟩ := idx_facts t
  funext y
  show (V c (Pipeline.arrRef spec3 4) : S128.Idx → EReal) (((cfg3.win 4).blk t).view.emb y) = _
  refine congrArg (V c (Pipeline.arrRef spec3 4) : S128.Idx → EReal) (funext fun a => Fin.ext ?_)
  match a with
  | ⟨0, _⟩ => show win3_4.index t (0 : Fin 1) * 128 + 1 * (y 0).val = (y 0).val; rw [e0]; omega

/-- The right weight matrix's block is the whole matrix at every point. -/
theorem wr_whole (c : Dev nD) (t : Fin cfg3.N) :
    (iblk3 V c 5 t : Vec Ideal S128x128 .f32) = (V c (Pipeline.arrRef spec3 5) : S128x128.Idx → EReal) := by
  obtain ⟨-, -, -, -, -, -, -, -, -, e0, e1, -⟩ := idx_facts t
  funext y
  show (V c (Pipeline.arrRef spec3 5) : S128x128.Idx → EReal) (((cfg3.win 5).blk t).view.emb y) = _
  refine congrArg (V c (Pipeline.arrRef spec3 5) : S128x128.Idx → EReal) (funext fun a => Fin.ext ?_)
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

/-- THE STORED VALUE IS THE LAYER'S: when the three row blocks are rows `5000 b …` of their arrays and the weights' blocks
    are the whole arrays, the value stored at `j` is the layer's output at row `5000 b + j 0`, column `j 1`: it depends on
    that row of `A`, `Cnt`, `Xd` and on the weights only. -/
theorem stored_eq (A : S100000x128.Idx → EReal) (Cnt : S100000x1.Idx → EReal) (Xd : S100000x128.Idx → EReal)
    (Wl : S128x128.Idx → EReal) (Bl : S128.Idx → EReal) (Wr : S128x128.Idx → EReal)
    (cnt : Vec Ideal S5000x1 .f32) (a xd : Vec Ideal S5000x128 .f32) (wl wr : Vec Ideal S128x128 .f32) (bl : Vec Ideal S128 .f32)
    (b : ℕ)
    (ha : ∀ (y : S5000x128.Idx) (k : S100000x128.Idx), (k 0).val = b * 5000 + (y 0).val → (k 1).val = (y 1).val → a y = A k)
    (hcnt : ∀ (y : S5000x1.Idx) (k : S100000x1.Idx), (k 0).val = b * 5000 + (y 0).val → (k 1).val = (y 1).val → cnt y = Cnt k)
    (hxd : ∀ (y : S5000x128.Idx) (k : S100000x128.Idx), (k 0).val = b * 5000 + (y 0).val → (k 1).val = (y 1).val → xd y = Xd k)
    (hwl : wl = Wl) (hbl : bl = Bl) (hwr : wr = Wr)
    (j : S5000x128.Idx) (i : S100000x128.Idx) (hi0 : (i 0).val = b * 5000 + (j 0).val) (hi1 : (i 1).val = (j 1).val) :
    k3_pay1 (F := Ideal) cnt a xd wl wr bl j = G3 A Cnt Xd Wl Bl Wr i := by
  subst hwl hbl hwr
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  have e_a : ∀ k : Fin 128, a (ix2 p k) = A (ix2 r k) := fun k => ha _ _ hi0 rfl
  have e_c : cnt (ix2 p 0) = Cnt (ix2 r 0) := hcnt _ _ hi0 rfl
  have e_x : ∀ k : Fin 128, xd (ix2 p k) = Xd (ix2 r k) := fun k => hxd _ _ hi0 rfl
  rw [pay_at]
  unfold G3
  show Cert.Spec.sageMul z one _ _ _ _ _ _ p q' = Cert.Spec.sageMul z one _ _ _ _ _ _ r q'
  unfold Cert.Spec.sageMul Cert.Spec.clip
  simp only [e_a, e_c, e_x]

/-- WHAT POINT `t` WRITES BACK is block `t` of the layer's output computed from the six arrays as the region finds them. -/
theorem flushed_eq (c : Dev nD) (t : Fin cfg3.N) :
    (dat3 (F := Ideal) V c).flushed 6 t = ((cfg3.win 6).blk t).view.read (Elt Ideal)
      (G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, -, e0, e1⟩ := idx_facts t
  funext j
  show k3_pay1 (F := Ideal) (iblk3 V c 1 t) (iblk3 V c 0 t) (iblk3 V c 2 t) (iblk3 V c 3 t) (iblk3 V c 5 t) (iblk3 V c 4 t) j
    = G3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (((cfg3.win 6).blk t).view.emb j)
  refine stored_eq _ _ _ _ _ _ _ _ _ _ _ _ t.val (a_rows V c t) (cnt_rows V c t) (xd_rows V c t)
    (wl_whole V c t) (bl_whole V c t) (wr_whole V c t) j _ ?_ ?_
  · show win3_6.index t (0 : Fin 2) * 5000 + 1 * (j 0).val = t.val * 5000 + (j 0).val; rw [e0]; omega
  · show win3_6.index t (1 : Fin 2) * 128 + 1 * (j 1).val = (j 1).val; rw [e1]; omega

/-! ## (iii) The blocks cover the output array -/

/-- An index of the output array is in point `t`'s block iff each coordinate is in the block's range on its axis. -/
theorem mem_blk (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_call0_v37).slice (win3_6.rect t)).set ↔ _
  rw [View.set_slice_whole, Rect.mem_set_unit]
  exact Iff.rfl

/-- Row `r` of the output lies in the block of point `r / 5000`, and every point writes its block back. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 128 ≤ (i 1).val ∧ (i 1).val < win3_6.index t (1 : Fin 2) * 128 + 128
    rw [e1]; omega

/-- THE OUTPUT ARRAY after the region is the layer's output computed from the six input arrays as the region finds them. -/
theorem final3 (c : Dev nD) :
    (dat3 (F := Ideal) V c).arrAt 6 cfg3.N
      = G3 (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => flushed_eq V c t) cover

end Cert.KernelIdeal.Sage3

end
-- ==== Proof.Sage4.lean ====
/-
  Region 4 of the kernel program: the mean-aggregating graph layer on 20000 rows, computed in 4 blocks of 5000 rows.

  The body reads a block of the neighbour sums `a` [5000,128], the matching block of the neighbour counts `cnt` [5000,1]
  and of the rows' own features `xd` [5000,128], and the whole of the two weight matrices `Wl`, `Wr` [128,128] and of the
  bias `bl` [128]; it stores `max (((a · (1 / max cnt 1)) · Wl + bl) + xd · Wr) 0` as the matching block of the output.

  Three steps. (i) The stored value at row `p`, column `q` of a block: each pointwise operation is read at the index, the
  count's reciprocal is a [5000,1] column broadcast along the rows' 128 columns (so it reads the column's entry of row `p`),
  the bias is a [1,128] row broadcast down the 5000 rows, and each matrix product into the zero accumulator is the sum
  over the 128 contracted positions `k` of `lhs (p, k) * rhs (k, q)`. (ii) At grid point `t` the row blocks of `a`, `cnt`,
  `xd` and of the output all sit at rows `5000 t … 5000 t + 4999` and the weights' blocks are the whole arrays, so what point
  `t` writes back is block `t` of ONE function of the six input arrays: row `r` of the output depends only on row `r` of `a`,
  `cnt`, `xd` and on the weights. (iii) Row `r` lies in the block of point `r / 5000`, so the blocks cover the output array
  and it ends holding that function.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier and of the accumulators. -/
abbrev z : EReal := Ideal.ofBits .f32 0x00000000#32
/-- The literal one the neighbour count is clipped at and whose quotient by the clipped count is the mean's factor. -/
abbrev one : EReal := Ideal.ofBits .f32 0x3F800000#32

/-! ## The layer as one function of the six input arrays -/

/-- Row `i 0`, column `i 1` of the layer's output, from the whole input arrays. -/
def G4 (A : S20000x128.Idx → EReal) (Cnt : S20000x1.Idx → EReal) (Xd : S20000x128.Idx → EReal)
    (Wl : S128x128.Idx → EReal) (Bl : S128.Idx → EReal) (Wr : S128x128.Idx → EReal) : S20000x128.Idx → EReal :=
  fun i => Cert.Spec.sageMul z one (fun r k => A (ix2 r k)) (fun r => Cnt (ix2 r 0)) (fun r k => Xd (ix2 r k))
    (fun k q => Wl (ix2 k q)) (fun q => Bl (ix1 q)) (fun k q => Wr (ix2 k q)) (i 0) (i 1)

/-! ## (i) The stored value at an index -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the rows' axis the left operand of the product is read at the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the columns' axis the right operand of the product is read at the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A `[5000,128] × [128,128]` product into the zero accumulator, read at `(p, q)`: the sum over the 128 contracted
    positions of `lhs (p, k) * rhs (k, q)`. -/
theorem matmul_at (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- THE STORED VALUE at row `p`, column `q` of a block: the layer's formula on the loaded blocks, the count's reciprocal
    taken in row `p` of the count column, the bias in column `q`, each product summed over the 128 contracted positions. -/
theorem pay_at (cnt : Vec Ideal S5000x1 .f32) (a xd : Vec Ideal S5000x128 .f32) (wl wr : Vec Ideal S128x128 .f32)
    (bl : Vec Ideal S128 .f32) (p : Fin 5000) (q : Fin 128) :
    k4_pay1 (F := Ideal) cnt a xd wl wr bl (ix2 p q)
      = Cert.Spec.sageMul z one (fun r k => a (ix2 r k)) (fun r => cnt (ix2 r 0)) (fun r k => xd (ix2 r k))
          (fun k q => wl (ix2 k q)) (fun q => bl (ix1 q)) (fun k q => wr (ix2 k q)) p q := by
  unfold k4_pay1
  rw [maximumf_apply, addf_apply, addf_apply, matmul_at, matmul_at, broadcast_apply,
    broadcastTo_1b_ab_apply, shapeCast_a_1a_apply]
  simp only [truncf_apply, mulf_apply, shapeCast_self, broadcastTo_a1_ab_apply, divf_apply, maximumf_apply, broadcast_apply]
  rfl

/-! ## (ii) What a grid point writes back -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices, decided over the grid: the row blocks of `a`, `cnt`, `xd` and of the output are block `t` at
    point `t`; the weights' and the bias's blocks are the whole arrays at every point. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Block `t` of the neighbour sums is rows `5000 t … 5000 t + 4999` of their array. -/
theorem a_rows (c : Dev nD) (t : Fin cfg4.N) (y : S5000x128.Idx) (k : S20000x128.Idx)
    (hk0 : (k 0).val = t.val * 5000 + (y 0).val) (hk1 : (k 1).val = (y 1).val) :
    (iblk4 V c 0 t : Vec Ideal S5000x128 .f32) y = (V c (Pipeline.arrRef spec4 0) : S20000x128.Idx → EReal) k := by
  obtain ⟨e0, e1, -⟩ := idx_facts t
  show (V c (Pipeline.arrRef spec4 0) : S20000x128.Idx → EReal) (((cfg4.win 0).blk t).view.emb y) = _
  refine congrArg (V c (Pipeline.arrRef spec4 0) : S20000x128.Idx → EReal) (funext fun a => Fin.ext ?_)
  match a with
  | ⟨0, _⟩ => show win4_0.index t (0 : Fin 2) * 5000 + 1 * (y 0).val = (k 0).val; rw [e0, hk0]; omega
  | ⟨1, _⟩ => show win4_0.index t (1 : Fin 2) * 128 + 1 * (y 1).val = (k 1).val; rw [e1, hk1]; omega

/-- Block `t` of the neighbour counts is rows `5000 t … 5000 t + 4999` of their one-column array. -/
theorem cnt_rows (c : Dev nD) (t : Fin cfg4.N) (y : S5000x1.Idx) (k : S20000x1.Idx)
    (hk0 : (k 0).val = t.val * 5000 + (y 0).val) (hk1 : (k 1).val = (y 1).val) :
    (iblk4 V c 1 t : Vec Ideal S5000x1 .f32) y = (V c (Pipeline.arrRef spec4 1) : S20000x1.Idx → EReal) k := by
  obtain ⟨-, -, e0, e1, -⟩ := idx_facts t
  show (V c (Pipeline.arrRef spec4 1) : S20000x1.Idx → EReal) (((cfg4.win 1).blk t).view.emb y) = _
  refine congrArg (V c (Pipeline.arrRef spec4 1) : S20000x1.Idx → EReal) (funext fun a => Fin.ext ?_)
  match a with
  | ⟨0, _⟩ => show win4_1.index t (0 : Fin 2) * 5000 + 1 * (y 0).val = (k 0).val; rw [e0, hk0]; omega
  | ⟨1, _⟩ => show win4_1.index t (1 : Fin 2) * 1 + 1 * (y 1).val = (k 1).val; rw [e1, hk1]; omega

/-- Block `t` of the rows' own features is rows `5000 t … 5000 t + 4999` of their array. -/
theorem xd_rows (c : Dev nD) (t : Fin cfg4.N) (y : S5000x128.Idx) (k : S20000x128.Idx)
    (hk0 : (k 0).val = t.val * 5000 + (y 0).val) (hk1 : (k 1).val = (y 1).val) :
    (iblk4 V c 2 t : Vec Ideal S5000x128 .f32) y = (V c (Pipeline.arrRef spec4 2) : S20000x128.Idx → EReal) k := by
  obtain ⟨-, -, -, -, e0, e1, -⟩ := idx_facts t
  show (V c (Pipeline.arrRef spec4 2) : S20000x128.Idx → EReal) (((cfg4.win 2).blk t).view.emb y) = _
  refine congrArg (V c (Pipeline.arrRef spec4 2) : S20000x128.Idx → EReal) (funext fun a => Fin.ext ?_)
  match a with
  | ⟨0, _⟩ => show win4_2.index t (0 : Fin 2) * 5000 + 1 * (y 0).val = (k 0).val; rw [e0, hk0]; omega
  | ⟨1, _⟩ => show win4_2.index t (1 : Fin 2) * 128 + 1 * (y 1).val = (k 1).val; rw [e1, hk1]; omega

/-- The left weight matrix's block is the whole matrix at every point. -/
theorem wl_whole (c : Dev nD) (t : Fin cfg4.N) :
    (iblk4 V c 3 t : Vec Ideal S128x128 .f32) = (V c (Pipeline.arrRef spec4 3) : S128x128.Idx → EReal) := by
  obtain ⟨-, -, -, -, -, -, e0, e1, -⟩ := idx_facts t
  funext y
  show (V c (Pipeline.arrRef spec4 3) : S128x128.Idx → EReal) (((cfg4.win 3).blk t).view.emb y) = _
  refine congrArg (V c (Pipeline.arrRef spec4 3) : S128x128.Idx → EReal) (funext fun a => Fin.ext ?_)
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- The bias's block is the whole vector at every point. -/
theorem bl_whole (c : Dev nD) (t : Fin cfg4.N) :
    (iblk4 V c 4 t : Vec Ideal S128 .f32) = (V c (Pipeline.arrRef spec4 4) : S128.Idx → EReal) := by
  obtain ⟨-, -, -, -, -, -, -, -, e0, -⟩ := idx_facts t
  funext y
  show (V c (Pipeline.arrRef spec4 4) : S128.Idx → EReal) (((cfg4.win 4).blk t).view.emb y) = _
  refine congrArg (V c (Pipeline.arrRef spec4 4) : S128.Idx → EReal) (funext fun a => Fin.ext ?_)
  match a with
  | ⟨0, _⟩ => show win4_4.index t (0 : Fin 1) * 128 + 1 * (y 0).val = (y 0).val; rw [e0]; omega

/-- The right weight matrix's block is the whole matrix at every point. -/
theorem wr_whole (c : Dev nD) (t : Fin cfg4.N) :
    (iblk4 V c 5 t : Vec Ideal S128x128 .f32) = (V c (Pipeline.arrRef spec4 5) : S128x128.Idx → EReal) := by
  obtain ⟨-, -, -, -, -, -, -, -, -, e0, e1, -⟩ := idx_facts t
  funext y
  show (V c (Pipeline.arrRef spec4 5) : S128x128.Idx → EReal) (((cfg4.win 5).blk t).view.emb y) = _
  refine congrArg (V c (Pipeline.arrRef spec4 5) : S128x128.Idx → EReal) (funext fun a => Fin.ext ?_)
  match a with
  | ⟨0, _⟩ => show win4_5.index t (0 : Fin 2) * 128 + 1 * (y 0).val = (y 0).val; rw [e0]; omega
  | ⟨1, _⟩ => show win4_5.index t (1 : Fin 2) * 128 + 1 * (y 1).val = (y 1).val; rw [e1]; omega

/-- THE STORED VALUE IS THE LAYER'S: when the three row blocks are rows `5000 b …` of their arrays and the weights' blocks
    are the whole arrays, the value stored at `j` is the layer's output at row `5000 b + j 0`, column `j 1`: it depends on
    that row of `A`, `Cnt`, `Xd` and on the weights only. -/
theorem stored_eq (A : S20000x128.Idx → EReal) (Cnt : S20000x1.Idx → EReal) (Xd : S20000x128.Idx → EReal)
    (Wl : S128x128.Idx → EReal) (Bl : S128.Idx → EReal) (Wr : S128x128.Idx → EReal)
    (cnt : Vec Ideal S5000x1 .f32) (a xd : Vec Ideal S5000x128 .f32) (wl wr : Vec Ideal S128x128 .f32) (bl : Vec Ideal S128 .f32)
    (b : ℕ)
    (ha : ∀ (y : S5000x128.Idx) (k : S20000x128.Idx), (k 0).val = b * 5000 + (y 0).val → (k 1).val = (y 1).val → a y = A k)
    (hcnt : ∀ (y : S5000x1.Idx) (k : S20000x1.Idx), (k 0).val = b * 5000 + (y 0).val → (k 1).val = (y 1).val → cnt y = Cnt k)
    (hxd : ∀ (y : S5000x128.Idx) (k : S20000x128.Idx), (k 0).val = b * 5000 + (y 0).val → (k 1).val = (y 1).val → xd y = Xd k)
    (hwl : wl = Wl) (hbl : bl = Bl) (hwr : wr = Wr)
    (j : S5000x128.Idx) (i : S20000x128.Idx) (hi0 : (i 0).val = b * 5000 + (j 0).val) (hi1 : (i 1).val = (j 1).val) :
    k4_pay1 (F := Ideal) cnt a xd wl wr bl j = G4 A Cnt Xd Wl Bl Wr i := by
  subst hwl hbl hwr
  obtain ⟨p, q, rfl⟩ : ∃ (p : Fin 5000) (q : Fin 128), j = ix2 p q := ⟨j 0, j 1, eq_ix2 j⟩
  obtain ⟨r, q', rfl⟩ : ∃ (r : Fin 20000) (q' : Fin 128), i = ix2 r q' := ⟨i 0, i 1, eq_ix2 i⟩
  obtain rfl : q' = q := Fin.ext hi1
  have e_a : ∀ k : Fin 128, a (ix2 p k) = A (ix2 r k) := fun k => ha _ _ hi0 rfl
  have e_c : cnt (ix2 p 0) = Cnt (ix2 r 0) := hcnt _ _ hi0 rfl
  have e_x : ∀ k : Fin 128, xd (ix2 p k) = Xd (ix2 r k) := fun k => hxd _ _ hi0 rfl
  rw [pay_at]
  unfold G4
  show Cert.Spec.sageMul z one _ _ _ _ _ _ p q' = Cert.Spec.sageMul z one _ _ _ _ _ _ r q'
  unfold Cert.Spec.sageMul Cert.Spec.clip
  simp only [e_a, e_c, e_x]

/-- WHAT POINT `t` WRITES BACK is block `t` of the layer's output computed from the six arrays as the region finds them. -/
theorem flushed_eq (c : Dev nD) (t : Fin cfg4.N) :
    (dat4 (F := Ideal) V c).flushed 6 t = ((cfg4.win 6).blk t).view.read (Elt Ideal)
      (G4 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 (F := Ideal) V c).after 6 t) = _
  rw [after4_6]
  unfold out4_6
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, -, e0, e1⟩ := idx_facts t
  funext j
  show k4_pay1 (F := Ideal) (iblk4 V c 1 t) (iblk4 V c 0 t) (iblk4 V c 2 t) (iblk4 V c 3 t) (iblk4 V c 5 t) (iblk4 V c 4 t) j
    = G4 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (((cfg4.win 6).blk t).view.emb j)
  refine stored_eq _ _ _ _ _ _ _ _ _ _ _ _ t.val (a_rows V c t) (cnt_rows V c t) (xd_rows V c t)
    (wl_whole V c t) (bl_whole V c t) (wr_whole V c t) j _ ?_ ?_
  · show win4_6.index t (0 : Fin 2) * 5000 + 1 * (j 0).val = t.val * 5000 + (j 0).val; rw [e0]; omega
  · show win4_6.index t (1 : Fin 2) * 128 + 1 * (j 1).val = (j 1).val; rw [e1]; omega

/-! ## (iii) The blocks cover the output array -/

/-- An index of the output array is in point `t`'s block iff each coordinate is in the block's range on its axis. -/
theorem mem_blk (t : Fin cfg4.N) (i : S20000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_call0_v48).slice (win4_6.rect t)).set ↔ _
  rw [View.set_slice_whole, Rect.mem_set_unit]
  exact Iff.rfl

/-- Row `r` of the output lies in the block of point `r / 5000`, and every point writes its block back. -/
theorem cover (i : S20000x128.Idx) :
    ∃ t : Fin cfg4.N, (cfg4.win 6).flush t = true ∧ i ∈ ((cfg4.win 6).blk t).view.set := by
  have hi0 : (i 0).val < 20000 := (i 0).isLt
  have hi1 : (i 1).val < 128 := (i 1).isLt
  have hN : cfg4.N = 4 := N_4
  obtain ⟨t, ht⟩ : ∃ t : Fin cfg4.N, t.val = (i 0).val / 5000 := ⟨⟨(i 0).val / 5000, by rw [hN]; omega⟩, rfl⟩
  obtain ⟨-, -, -, -, -, -, -, -, -, -, -, e0, e1⟩ := idx_facts t
  refine ⟨t, flush4_6 t, ?_⟩
  rw [mem_blk]
  intro a
  match a with
  | ⟨0, _⟩ =>
    show win4_6.index t (0 : Fin 2) * 5000 ≤ (i 0).val ∧ (i 0).val < win4_6.index t (0 : Fin 2) * 5000 + 5000
    rw [e0, ht]; omega
  | ⟨1, _⟩ =>
    show win4_6.index t (1 : Fin 2) * 128 ≤ (i 1).val ∧ (i 1).val < win4_6.index t (1 : Fin 2) * 128 + 128
    rw [e1]; omega

/-- THE OUTPUT ARRAY after the region is the layer's output computed from the six input arrays as the region finds them. -/
theorem final4 (c : Dev nD) :
    (dat4 (F := Ideal) V c).arrAt 6 cfg4.N
      = G4 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 (F := Ideal) V c).arrAt_eq_of_cover 6 _ (fun t _ => flushed_eq V c t) cover

end Cert.KernelIdeal.Sage4

end
-- ==== Proof.KChainB.lean ====
/-
  The idealized kernel program's buffers as values of the network, second part: the second and third graph layers
  (boundaries 5 to 8). Same pattern as the first part: a stretch's result is the row movement of its operands, a launch's
  output is its dense stage of its input windows, a staged input ends as entered, anything else is carried over.
-/
import proofs.«129102_j79517024519044_2_alg».proof.Proof.KChainA
import proofs.«129102_j79517024519044_2_alg».proof.Proof.Sage3
import proofs.«129102_j79517024519044_2_alg».proof.Proof.Sage4

set_option maxRecDepth 16384

noncomputable section

namespace Cert.KernelIdeal.Chain

open Idealize.ShloMosaic Idealize.ShloMosaic.TcCoe Idealize.SL.Sem
open Cert.KernelIdeal Cert.KernelIdeal.Gen Cert.KernelIdeal.Fold Cert.KernelIdeal.Stretch Cert.KernelIdeal.Glue

variable (m : (ℓ : Loc nD τ sig) → Buf (Elt Ideal) ℓ) (ρ : Dev nD → PrngReg) (c : Dev nD)

/-! ## Boundary 5: after the second stretch (the second layer's neighbour sums, over the users) -/

theorem b5_sum2 : W5 m ρ c (Proc.devRef .tc main_call0_v36)
    = sumToU (Cert.Net.mx1 (argsOf m c)) (argsOf m c).src (argsOf m c).dst :=
  (s3_v36 m ρ c).trans (by
    rw [b4_mx1 m ρ c, args4 m ρ c main_arg29 (by decide), args4 m ρ c main_arg30 (by decide)]; rfl)

theorem b5_mx1 : W5 m ρ c (Proc.devRef .tc main_call0_v26) = Cert.Net.mx1 (argsOf m c) :=
  (keep3 (W4 m ρ c) main_call0_v26 (by decide)).trans (b4_mx1 m ρ c)
theorem b5_ux0 : W5 m ρ c (Proc.devRef .tc main_call0_v0) = Cert.Net.ux0 (argsOf m c) :=
  (keep3 (W4 m ρ c) main_call0_v0 (by decide)).trans (b4_ux0 m ρ c)
theorem b5_cntM : W5 m ρ c (Proc.devRef .tc main_call0_v7) = cntM (argsOf m c).dst :=
  (keep3 (W4 m ρ c) main_call0_v7 (by decide)).trans (b4_cntM m ρ c)
theorem b5_cntU : W5 m ρ c (Proc.devRef .tc main_call0_v11) = cntU (argsOf m c).src :=
  (keep3 (W4 m ρ c) main_call0_v11 (by decide)).trans (b4_cntU m ρ c)
theorem b5_cntUU : W5 m ρ c (Proc.devRef .tc main_call0_v15) = cntUU (argsOf m c).udst :=
  (keep3 (W4 m ρ c) main_call0_v15 (by decide)).trans (b4_cntUU m ρ c)

/-! ## Boundary 6: after the second graph layer (user rows) -/

theorem b6_ux1 : W6 m ρ c (Proc.devRef .tc main_call0_v37) = Cert.Net.ux1 (argsOf m c) :=
  (W6_arr m ρ c 6).trans ((Cert.KernelIdeal.Sage3.final3 (V5 m ρ) c).trans (by
    show Cert.KernelIdeal.Sage3.G3 (W5 m ρ c (Proc.devRef .tc main_call0_v36)) (W5 m ρ c (Proc.devRef .tc main_call0_v11))
      (W5 m ρ c (Proc.devRef .tc main_call0_v0)) (W5 m ρ c (Proc.devRef .tc main_arg9))
      (W5 m ρ c (Proc.devRef .tc main_arg10)) (W5 m ρ c (Proc.devRef .tc main_arg11)) = _
    rw [b5_sum2 m ρ c, b5_cntU m ρ c, b5_ux0 m ρ c, args5 m ρ c main_arg9 (by decide),
      args5 m ρ c main_arg10 (by decide), args5 m ρ c main_arg11 (by decide)]
    rfl))

theorem b6_cntU : W6 m ρ c (Proc.devRef .tc main_call0_v11) = cntU (argsOf m c).src :=
  (W6_arr m ρ c 1).trans (((dat3 (V5 m ρ) c).arrAt_in 1 rfl _).trans ((A_eq3 (V5 m ρ) c 1).trans (b5_cntU m ρ c)))
theorem b6_mx1 : W6 m ρ c (Proc.devRef .tc main_call0_v26) = Cert.Net.mx1 (argsOf m c) :=
  (W6_of_ne m ρ c main_call0_v26 (by decide)).trans (b5_mx1 m ρ c)
theorem b6_cntM : W6 m ρ c (Proc.devRef .tc main_call0_v7) = cntM (argsOf m c).dst :=
  (W6_of_ne m ρ c main_call0_v7 (by decide)).trans (b5_cntM m ρ c)
theorem b6_cntUU : W6 m ρ c (Proc.devRef .tc main_call0_v15) = cntUU (argsOf m c).udst :=
  (W6_of_ne m ρ c main_call0_v15 (by decide)).trans (b5_cntUU m ρ c)

/-! ## Boundary 7: after the third stretch (the third layer's neighbour sums, over the movies) -/

theorem b7_sum3 : W7 m ρ c (Proc.devRef .tc main_call0_v47)
    = sumToM (Cert.Net.ux1 (argsOf m c)) (argsOf m c).src (argsOf m c).dst :=
  (s4_v47 m ρ c).trans (by
    rw [b6_ux1 m ρ c, args6 m ρ c main_arg29 (by decide), args6 m ρ c main_arg30 (by decide)]; rfl)

theorem b7_ux1 : W7 m ρ c (Proc.devRef .tc main_call0_v37) = Cert.Net.ux1 (argsOf m c) :=
  (keep4 (W6 m ρ c) main_call0_v37 (by decide)).trans (b6_ux1 m ρ c)
theorem b7_mx1 : W7 m ρ c (Proc.devRef .tc main_call0_v26) = Cert.Net.mx1 (argsOf m c) :=
  (keep4 (W6 m ρ c) main_call0_v26 (by decide)).trans (b6_mx1 m ρ c)
theorem b7_cntM : W7 m ρ c (Proc.devRef .tc main_call0_v7) = cntM (argsOf m c).dst :=
  (keep4 (W6 m ρ c) main_call0_v7 (by decide)).trans (b6_cntM m ρ c)
theorem b7_cntU : W7 m ρ c (Proc.devRef .tc main_call0_v11) = cntU (argsOf m c).src :=
  (keep4 (W6 m ρ c) main_call0_v11 (by decide)).trans (b6_cntU m ρ c)
theorem b7_cntUU : W7 m ρ c (Proc.devRef .tc main_call0_v15) = cntUU (argsOf m c).udst :=
  (keep4 (W6 m ρ c) main_call0_v15 (by decide)).trans (b6_cntUU m ρ c)

/-! ## Boundary 8: after the third graph layer (movie rows) -/

theorem b8_mx2 : W8 m ρ c (Proc.devRef .tc main_call0_v48) = Cert.Net.mx2 (argsOf m c) :=
  (W8_arr m ρ c 6).trans ((Cert.KernelIdeal.Sage4.final4 (V7 m ρ) c).trans (by
    show Cert.KernelIdeal.Sage4.G4 (W7 m ρ c (Proc.devRef .tc main_call0_v47)) (W7 m ρ c (Proc.devRef .tc main_call0_v7))
      (W7 m ρ c (Proc.devRef .tc main_call0_v26)) (W7 m ρ c (Proc.devRef .tc main_arg12))
      (W7 m ρ c (Proc.devRef .tc main_arg13)) (W7 m ρ c (Proc.devRef .tc main_arg14)) = _
    rw [b7_sum3 m ρ c, b7_cntM m ρ c, b7_mx1 m ρ c, args7 m ρ c main_arg12 (by decide),
      args7 m ρ c main_arg13 (by decide), args7 m ρ c main_arg14 (by decide)]
    rfl))

theorem b8_ux1 : W8 m ρ c (Proc.devRef .tc main_call0_v37) = Cert.Net.ux1 (argsOf m c) :=
  (W8_of_ne m ρ c main_call0_v37 (by decide)).trans (b7_ux1 m ρ c)
theorem b8_cntU : W8 m ρ c (Proc.devRef .tc main_call0_v11) = cntU (argsOf m c).src :=
  (W8_of_ne m ρ c main_call0_v11 (by decide)).trans (b7_cntU m ρ c)
theorem b8_cntUU : W8 m ρ c (Proc.devRef .tc main_call0_v15) = cntUU (argsOf m c).udst :=
  (W8_of_ne m ρ c main_call0_v15 (by decide)).trans (b7_cntUU m ρ c)

end Cert.KernelIdeal.Chain

end
-- ==== Proof.Sage5.lean ====
/-
  Region 5 of the kernel program: the mean-aggregating graph layer on 100000 rows, computed in 20 blocks of 5000 rows.

  The body reads a block of the neighbour sums `a` [5000,128], the matching block of the neighbour counts `cnt` [5000,1]
  and of the rows' own features `xd` [5000,128], and the whole of the two weight matrices `Wl`, `Wr` [128,128] and of the
  bias `bl` [128]; it stores `max (((a · (1 / max cnt 1)) · Wl + bl) + xd · Wr) 0` as the matching block of the output.

  Three steps. (i) The stored value at row `p`, column `q` of a block: each pointwise operation is read at the index, the
  count's reciprocal is a [5000,1] column broadcast along the rows' 128 columns (so it reads the column's entry of row `p`),
  the bias is a [1,128] row broadcast down the 5000 rows, and each matrix product into the zero accumulator is the sum
  over the 128 contracted positions `k` of `lhs (p, k) * rhs (k, q)`. (ii) At grid point `t` the row blocks of `a`, `cnt`,
  `xd` and of the output all sit at rows `5000 t … 5000 t + 4999` and the weights' blocks are the whole arrays, so what point
  `t` writes back is block `t` of ONE function of the six input arrays: row `r` of the output depends only on row `r` of `a`,
  `cnt`, `xd` and on the weights. (iii) Row `r` lies in the block of point `r / 5000`, so the blocks cover the output array
  and it ends holding that function.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier and of the accumulators. -/
abbrev z : EReal := Ideal.ofBits .f32 0x00000000#32
/-- The literal one the neighbour count is clipped at and whose quotient by the clipped count is the mean's factor. -/
abbrev one : EReal := Ideal.ofBits .f32 0x3F800000#32

/-! ## The layer as one function of the six input arrays -/

/-- Row `i 0`, column `i 1` of the layer's output, from the whole input arrays. -/
def G5 (A : S100000x128.Idx → EReal) (Cnt : S100000x1.Idx → EReal) (Xd : S100000x128.Idx → EReal)
    (Wl : S128x128.Idx → EReal) (Bl : S128.Idx → EReal) (Wr : S128x128.Idx → EReal) : S100000x128.Idx → EReal :=
  fun i => Cert.Spec.sageMul z one (fun r k => A (ix2 r k)) (fun r => Cnt (ix2 r 0)) (fun r k => Xd (ix2 r k))
    (fun k q => Wl (ix2 k q)) (fun q => Bl (ix1 q)) (fun k q => Wr (ix2 k q)) (i 0) (i 1)

/-! ## (i) The stored value at an index -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the rows' axis the left operand of the product is read at the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the columns' axis the right operand of the product is read at the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A `[5000,128] × [128,128]` product into the zero accumulator, read at `(p, q)`: the sum over the 128 contracted
    positions of `lhs (p, k) * rhs (k, q)`. -/
theorem matmul_at (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- THE STORED VALUE at row `p`, column `q` of a block: the layer's formula on the loaded blocks, the count's reciprocal
    taken in row `p` of the count column, the bias in column `q`, each product summed over the 128 contracted positions. -/
theorem pay_at (cnt : Vec Ideal S5000x1 .f32) (a xd : Vec Ideal S5000x128 .f32) (wl wr : Vec Ideal S128x128 .f32)
    (bl : Vec Ideal S128 .f32) (p : Fin 5000) (q : Fin 128) :
    k5_pay1 (F := Ideal) cnt a xd wl wr bl (ix2 p q)
      = Cert.Spec.sageMul z one (fun r k => a (ix2 r k)) (fun r => cnt (ix2 r 0)) (fun r k => xd (ix2 r k))
          (fun k q => wl (ix2 k q)) (fun q => bl (ix1 q)) (fun k q => wr (ix2 k q)) p q := by
  unfold k5_pay1
  rw [maximumf_apply, addf_apply, addf_apply, matmul_at, matmul_at, broadcast_apply,
    broadcastTo_1b_ab_apply, shapeCast_a_1a_apply]
  simp only [truncf_apply, mulf_apply, shapeCast_self, broadcastTo_a1_ab_apply, divf_apply, maximumf_apply, broadcast_apply]
  rfl

/-! ## (ii) What a grid point writes back -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices, decided over the grid: the row blocks of `a`, `cnt`, `xd` and of the output are block `t` at
    point `t`; the weights' and the bias's blocks are the whole arrays at every point. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Block `t` of the neighbour sums is rows `5000 t … 5000 t + 4999` of their array. -/
theorem a_rows (c : Dev nD) (t : Fin cfg5.N) (y : S5000x128.Idx) (k : S100000x128.Idx)
    (hk0 : (k 0).val = t.val * 5000 + (y 0).val) (hk1 : (k 1).val = (y 1).val) :
    (iblk5 V c 0 t : Vec Ideal S5000x128 .f32) y = (V c (Pipeline.arrRef spec5 0) : S100000x128.Idx → EReal) k := by
  obtain ⟨e0, e1, -⟩ := idx_facts t
  show (V c (Pipeline.arrRef spec5 0) : S100000x128.Idx → EReal) (((cfg5.win 0).blk t).view.emb y) = _
  refine congrArg (V c (Pipeline.arrRef spec5 0) : S100000x128.Idx → EReal) (funext fun a => Fin.ext ?_)
  match a with
  | ⟨0, _⟩ => show win5_0.index t (0 : Fin 2) * 5000 + 1 * (y 0).val = (k 0).val; rw [e0, hk0]; omega
  | ⟨1, _⟩ => show win5_0.index t (1 : Fin 2) * 128 + 1 * (y 1).val = (k 1).val; rw [e1, hk1]; omega

/-- Block `t` of the neighbour counts is rows `5000 t … 5000 t + 4999` of their one-column array. -/
theorem cnt_rows (c : Dev nD) (t : Fin cfg5.N) (y : S5000x1.Idx) (k : S100000x1.Idx)
    (hk0 : (k 0).val = t.val * 5000 + (y 0).val) (hk1 : (k 1).val = (y 1).val) :
    (iblk5 V c 1 t : Vec Ideal S5000x1 .f32) y = (V c (Pipeline.arrRef spec5 1) : S100000x1.Idx → EReal) k := by
  obtain ⟨-, -, e0, e1, -⟩ := idx_facts t
  show (V c (Pipeline.arrRef spec5 1) : S100000x1.Idx → EReal) (((cfg5.win 1).blk t).view.emb y) = _
  refine congrArg (V c (Pipeline.arrRef spec5 1) : S100000x1.Idx → EReal) (funext fun a => Fin.ext ?_)
  match a with
  | ⟨0, _⟩ => show win5_1.index t (0 : Fin 2) * 5000 + 1 * (y 0).val = (k 0).val; rw [e0, hk0]; omega
  | ⟨1, _⟩ => show win5_1.index t (1 : Fin 2) * 1 + 1 * (y 1).val = (k 1).val; rw [e1, hk1]; omega

/-- Block `t` of the rows' own features is rows `5000 t … 5000 t + 4999` of their array. -/
theorem xd_rows (c : Dev nD) (t : Fin cfg5.N) (y : S5000x128.Idx) (k : S100000x128.Idx)
    (hk0 : (k 0).val = t.val * 5000 + (y 0).val) (hk1 : (k 1).val = (y 1).val) :
    (iblk5 V c 2 t : Vec Ideal S5000x128 .f32) y = (V c (Pipeline.arrRef spec5 2) : S100000x128.Idx → EReal) k := by
  obtain ⟨-, -, -, -, e0, e1, -⟩ := idx_facts t
  show (V c (Pipeline.arrRef spec5 2) : S100000x128.Idx → EReal) (((cfg5.win 2).blk t).view.emb y) = _
  refine congrArg (V c (Pipeline.arrRef spec5 2) : S100000x128.Idx → EReal) (funext fun a => Fin.ext ?_)
  match a with
  | ⟨0, _⟩ => show win5_2.index t (0 : Fin 2) * 5000 + 1 * (y 0).val = (k 0).val; rw [e0, hk0]; omega
  | ⟨1, _⟩ => show win5_2.index t (1 : Fin 2) * 128 + 1 * (y 1).val = (k 1).val; rw [e1, hk1]; omega

/-- The left weight matrix's block is the whole matrix at every point. -/
theorem wl_whole (c : Dev nD) (t : Fin cfg5.N) :
    (iblk5 V c 3 t : Vec Ideal S128x128 .f32) = (V c (Pipeline.arrRef spec5 3) : S128x128.Idx → EReal) := by
  obtain ⟨-, -, -, -, -, -, e0, e1, -⟩ := idx_facts t
  funext y
  show (V c (Pipeline.arrRef spec5 3) : S128x128.Idx → EReal) (((cfg5.win 3).blk t).view.emb y) = _
  refine congrArg (V c (Pipeline.arrRef spec5 3) : S128x128.Idx → EReal) (funext fun a => Fin.ext ?_)
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- The bias's block is the whole vector at every point. -/
theorem bl_whole (c : Dev nD) (t : Fin cfg5.N) :
    (iblk5 V c 4 t : Vec Ideal S128 .f32) = (V c (Pipeline.arrRef spec5 4) : S128.Idx → EReal) := by
  obtain ⟨-, -, -, -, -, -, -, -, e0, -⟩ := idx_facts t
  funext y
  show (V c (Pipeline.arrRef spec5 4) : S128.Idx → EReal) (((cfg5.win 4).blk t).view.emb y) = _
  refine congrArg (V c (Pipeline.arrRef spec5 4) : S128.Idx → EReal) (funext fun a => Fin.ext ?_)
  match a with
  | ⟨0, _⟩ => show win5_4.index t (0 : Fin 1) * 128 + 1 * (y 0).val = (y 0).val; rw [e0]; omega

/-- The right weight matrix's block is the whole matrix at every point. -/
theorem wr_whole (c : Dev nD) (t : Fin cfg5.N) :
    (iblk5 V c 5 t : Vec Ideal S128x128 .f32) = (V c (Pipeline.arrRef spec5 5) : S128x128.Idx → EReal) := by
  obtain ⟨-, -, -, -, -, -, -, -, -, e0, e1, -⟩ := idx_facts t
  funext y
  show (V c (Pipeline.arrRef spec5 5) : S128x128.Idx → EReal) (((cfg5.win 5).blk t).view.emb y) = _
  refine congrArg (V c (Pipeline.arrRef spec5 5) : S128x128.Idx → EReal) (funext fun a => Fin.ext ?_)
  match a with
  | ⟨0, _⟩ => show win5_5.index t (0 : Fin 2) * 128 + 1 * (y 0).val = (y 0).val; rw [e0]; omega
  | ⟨1, _⟩ => show win5_5.index t (1 : Fin 2) * 128 + 1 * (y 1).val = (y 1).val; rw [e1]; omega

/-- THE STORED VALUE IS THE LAYER'S: when the three row blocks are rows `5000 b …` of their arrays and the weights' blocks
    are the whole arrays, the value stored at `j` is the layer's output at row `5000 b + j 0`, column `j 1`: it depends on
    that row of `A`, `Cnt`, `Xd` and on the weights only. -/
theorem stored_eq (A : S100000x128.Idx → EReal) (Cnt : S100000x1.Idx → EReal) (Xd : S100000x128.Idx → EReal)
    (Wl : S128x128.Idx → EReal) (Bl : S128.Idx → EReal) (Wr : S128x128.Idx → EReal)
    (cnt : Vec Ideal S5000x1 .f32) (a xd : Vec Ideal S5000x128 .f32) (wl wr : Vec Ideal S128x128 .f32) (bl : Vec Ideal S128 .f32)
    (b : ℕ)
    (ha : ∀ (y : S5000x128.Idx) (k : S100000x128.Idx), (k 0).val = b * 5000 + (y 0).val → (k 1).val = (y 1).val → a y = A k)
    (hcnt : ∀ (y : S5000x1.Idx) (k : S100000x1.Idx), (k 0).val = b * 5000 + (y 0).val → (k 1).val = (y 1).val → cnt y = Cnt k)
    (hxd : ∀ (y : S5000x128.Idx) (k : S100000x128.Idx), (k 0).val = b * 5000 + (y 0).val → (k 1).val = (y 1).val → xd y = Xd k)
    (hwl : wl = Wl) (hbl : bl = Bl) (hwr : wr = Wr)
    (j : S5000x128.Idx) (i : S100000x128.Idx) (hi0 : (i 0).val = b * 5000 + (j 0).val) (hi1 : (i 1).val = (j 1).val) :
    k5_pay1 (F := Ideal) cnt a xd wl wr bl j = G5 A Cnt Xd Wl Bl Wr i := by
  subst hwl hbl hwr
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  have e_a : ∀ k : Fin 128, a (ix2 p k) = A (ix2 r k) := fun k => ha _ _ hi0 rfl
  have e_c : cnt (ix2 p 0) = Cnt (ix2 r 0) := hcnt _ _ hi0 rfl
  have e_x : ∀ k : Fin 128, xd (ix2 p k) = Xd (ix2 r k) := fun k => hxd _ _ hi0 rfl
  rw [pay_at]
  unfold G5
  show Cert.Spec.sageMul z one _ _ _ _ _ _ p q' = Cert.Spec.sageMul z one _ _ _ _ _ _ r q'
  unfold Cert.Spec.sageMul Cert.Spec.clip
  simp only [e_a, e_c, e_x]

/-- WHAT POINT `t` WRITES BACK is block `t` of the layer's output computed from the six arrays as the region finds them. -/
theorem flushed_eq (c : Dev nD) (t : Fin cfg5.N) :
    (dat5 (F := Ideal) V c).flushed 6 t = ((cfg5.win 6).blk t).view.read (Elt Ideal)
      (G5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 (F := Ideal) V c).after 6 t) = _
  rw [after5_6]
  unfold out5_6
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, -, e0, e1⟩ := idx_facts t
  funext j
  show k5_pay1 (F := Ideal) (iblk5 V c 1 t) (iblk5 V c 0 t) (iblk5 V c 2 t) (iblk5 V c 3 t) (iblk5 V c 5 t) (iblk5 V c 4 t) j
    = G5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (((cfg5.win 6).blk t).view.emb j)
  refine stored_eq _ _ _ _ _ _ _ _ _ _ _ _ t.val (a_rows V c t) (cnt_rows V c t) (xd_rows V c t)
    (wl_whole V c t) (bl_whole V c t) (wr_whole V c t) j _ ?_ ?_
  · show win5_6.index t (0 : Fin 2) * 5000 + 1 * (j 0).val = t.val * 5000 + (j 0).val; rw [e0]; omega
  · show win5_6.index t (1 : Fin 2) * 128 + 1 * (j 1).val = (j 1).val; rw [e1]; omega

/-! ## (iii) The blocks cover the output array -/

/-- An index of the output array is in point `t`'s block iff each coordinate is in the block's range on its axis. -/
theorem mem_blk (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_call0_v59).slice (win5_6.rect t)).set ↔ _
  rw [View.set_slice_whole, Rect.mem_set_unit]
  exact Iff.rfl

/-- Row `r` of the output lies in the block of point `r / 5000`, and every point writes its block back. -/
theorem cover (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, -, -, -, -, -, e0, e1⟩ := idx_facts t
  refine ⟨t, flush5_6 t, ?_⟩
  rw [mem_blk]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 128 ≤ (i 1).val ∧ (i 1).val < win5_6.index t (1 : Fin 2) * 128 + 128
    rw [e1]; omega

/-- THE OUTPUT ARRAY after the region is the layer's output computed from the six input arrays as the region finds them. -/
theorem final5 (c : Dev nD) :
    (dat5 (F := Ideal) V c).arrAt 6 cfg5.N
      = G5 (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 _ (fun t _ => flushed_eq V c t) cover

end Cert.KernelIdeal.Sage5

end
-- ==== Proof.Sage6.lean ====
/-
  Region 6 of the kernel program: the mean-aggregating graph layer on 100000 rows, computed in 20 blocks of 5000 rows.

  The body reads a block of the neighbour sums `a` [5000,128], the matching block of the neighbour counts `cnt` [5000,1]
  and of the rows' own features `xd` [5000,128], and the whole of the two weight matrices `Wl`, `Wr` [128,128] and of the
  bias `bl` [128]; it stores `max (((a · (1 / max cnt 1)) · Wl + bl) + xd · Wr) 0` as the matching block of the output.

  Three steps. (i) The stored value at row `p`, column `q` of a block: each pointwise operation is read at the index, the
  count's reciprocal is a [5000,1] column broadcast along the rows' 128 columns (so it reads the column's entry of row `p`),
  the bias is a [1,128] row broadcast down the 5000 rows, and each matrix product into the zero accumulator is the sum
  over the 128 contracted positions `k` of `lhs (p, k) * rhs (k, q)`. (ii) At grid point `t` the row blocks of `a`, `cnt`,
  `xd` and of the output all sit at rows `5000 t … 5000 t + 4999` and the weights' blocks are the whole arrays, so what point
  `t` writes back is block `t` of ONE function of the six input arrays: row `r` of the output depends only on row `r` of `a`,
  `cnt`, `xd` and on the weights. (iii) Row `r` lies in the block of point `r / 5000`, so the blocks cover the output array
  and it ends holding that function.
-/
import proofs.«129102_j79517024519044_2_alg».proof.Proof.Gen.KernelIdeal.Frame
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Sage6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The literal zero of the rectifier and of the accumulators. -/
abbrev z : EReal := Ideal.ofBits .f32 0x00000000#32
/-- The literal one the neighbour count is clipped at and whose quotient by the clipped count is the mean's factor. -/
abbrev one : EReal := Ideal.ofBits .f32 0x3F800000#32

/-! ## The layer as one function of the six input arrays -/

/-- Row `i 0`, column `i 1` of the layer's output, from the whole input arrays. -/
def G6 (A : S100000x128.Idx → EReal) (Cnt : S100000x1.Idx → EReal) (Xd : S100000x128.Idx → EReal)
    (Wl : S128x128.Idx → EReal) (Bl : S128.Idx → EReal) (Wr : S128x128.Idx → EReal) : S100000x128.Idx → EReal :=
  fun i => Cert.Spec.sageMul z one (fun r k => A (ix2 r k)) (fun r => Cnt (ix2 r 0)) (fun r k => Xd (ix2 r k))
    (fun k q => Wl (ix2 k q)) (fun q => Bl (ix1 q)) (fun k q => Wr (ix2 k q)) (i 0) (i 1)

/-! ## (i) The stored value at an index -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the rows' axis the left operand of the product is read at the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the columns' axis the right operand of the product is read at the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A `[5000,128] × [128,128]` product into the zero accumulator, read at `(p, q)`: the sum over the 128 contracted
    positions of `lhs (p, k) * rhs (k, q)`. -/
theorem matmul_at (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- THE STORED VALUE at row `p`, column `q` of a block: the layer's formula on the loaded blocks, the count's reciprocal
    taken in row `p` of the count column, the bias in column `q`, each product summed over the 128 contracted positions. -/
theorem pay_at (cnt : Vec Ideal S5000x1 .f32) (a xd : Vec Ideal S5000x128 .f32) (wl wr : Vec Ideal S128x128 .f32)
    (bl : Vec Ideal S128 .f32) (p : Fin 5000) (q : Fin 128) :
    k6_pay1 (F := Ideal) cnt a xd wl wr bl (ix2 p q)
      = Cert.Spec.sageMul z one (fun r k => a (ix2 r k)) (fun r => cnt (ix2 r 0)) (fun r k => xd (ix2 r k))
          (fun k q => wl (ix2 k q)) (fun q => bl (ix1 q)) (fun k q => wr (ix2 k q)) p q := by
  unfold k6_pay1
  rw [maximumf_apply, addf_apply, addf_apply, matmul_at, matmul_at, broadcast_apply,
    broadcastTo_1b_ab_apply, shapeCast_a_1a_apply]
  simp only [truncf_apply, mulf_apply, shapeCast_self, broadcastTo_a1_ab_apply, divf_apply, maximumf_apply, broadcast_apply]
  rfl

/-! ## (ii) What a grid point writes back -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices, decided over the grid: the row blocks of `a`, `cnt`, `xd` and of the output are block `t` at
    point `t`; the weights' and the bias's blocks are the whole arrays at every point. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Block `t` of the neighbour sums is rows `5000 t … 5000 t + 4999` of their array. -/
theorem a_rows (c : Dev nD) (t : Fin cfg6.N) (y : S5000x128.Idx) (k : S100000x128.Idx)
    (hk0 : (k 0).val = t.val * 5000 + (y 0).val) (hk1 : (k 1).val = (y 1).val) :
    (iblk6 V c 0 t : Vec Ideal S5000x128 .f32) y = (V c (Pipeline.arrRef spec6 0) : S100000x128.Idx → EReal) k := by
  obtain ⟨e0, e1, -⟩ := idx_facts t
  show (V c (Pipeline.arrRef spec6 0) : S100000x128.Idx → EReal) (((cfg6.win 0).blk t).view.emb y) = _
  refine congrArg (V c (Pipeline.arrRef spec6 0) : S100000x128.Idx → EReal) (funext fun a => Fin.ext ?_)
  match a with
  | ⟨0, _⟩ => show win6_0.index t (0 : Fin 2) * 5000 + 1 * (y 0).val = (k 0).val; rw [e0, hk0]; omega
  | ⟨1, _⟩ => show win6_0.index t (1 : Fin 2) * 128 + 1 * (y 1).val = (k 1).val; rw [e1, hk1]; omega

/-- Block `t` of the neighbour counts is rows `5000 t … 5000 t + 4999` of their one-column array. -/
theorem cnt_rows (c : Dev nD) (t : Fin cfg6.N) (y : S5000x1.Idx) (k : S100000x1.Idx)
    (hk0 : (k 0).val = t.val * 5000 + (y 0).val) (hk1 : (k 1).val = (y 1).val) :
    (iblk6 V c 1 t : Vec Ideal S5000x1 .f32) y = (V c (Pipeline.arrRef spec6 1) : S100000x1.Idx → EReal) k := by
  obtain ⟨-, -, e0, e1, -⟩ := idx_facts t
  show (V c (Pipeline.arrRef spec6 1) : S100000x1.Idx → EReal) (((cfg6.win 1).blk t).view.emb y) = _
  refine congrArg (V c (Pipeline.arrRef spec6 1) : S100000x1.Idx → EReal) (funext fun a => Fin.ext ?_)
  match a with
  | ⟨0, _⟩ => show win6_1.index t (0 : Fin 2) * 5000 + 1 * (y 0).val = (k 0).val; rw [e0, hk0]; omega
  | ⟨1, _⟩ => show win6_1.index t (1 : Fin 2) * 1 + 1 * (y 1).val = (k 1).val; rw [e1, hk1]; omega

/-- Block `t` of the rows' own features is rows `5000 t … 5000 t + 4999` of their array. -/
theorem xd_rows (c : Dev nD) (t : Fin cfg6.N) (y : S5000x128.Idx) (k : S100000x128.Idx)
    (hk0 : (k 0).val = t.val * 5000 + (y 0).val) (hk1 : (k 1).val = (y 1).val) :
    (iblk6 V c 2 t : Vec Ideal S5000x128 .f32) y = (V c (Pipeline.arrRef spec6 2) : S100000x128.Idx → EReal) k := by
  obtain ⟨-, -, -, -, e0, e1, -⟩ := idx_facts t
  show (V c (Pipeline.arrRef spec6 2) : S100000x128.Idx → EReal) (((cfg6.win 2).blk t).view.emb y) = _
  refine congrArg (V c (Pipeline.arrRef spec6 2) : S100000x128.Idx → EReal) (funext fun a => Fin.ext ?_)
  match a with
  | ⟨0, _⟩ => show win6_2.index t (0 : Fin 2) * 5000 + 1 * (y 0).val = (k 0).val; rw [e0, hk0]; omega
  | ⟨1, _⟩ => show win6_2.index t (1 : Fin 2) * 128 + 1 * (y 1).val = (k 1).val; rw [e1, hk1]; omega

/-- The left weight matrix's block is the whole matrix at every point. -/
theorem wl_whole (c : Dev nD) (t : Fin cfg6.N) :
    (iblk6 V c 3 t : Vec Ideal S128x128 .f32) = (V c (Pipeline.arrRef spec6 3) : S128x128.Idx → EReal) := by
  obtain ⟨-, -, -, -, -, -, e0, e1, -⟩ := idx_facts t
  funext y
  show (V c (Pipeline.arrRef spec6 3) : S128x128.Idx → EReal) (((cfg6.win 3).blk t).view.emb y) = _
  refine congrArg (V c (Pipeline.arrRef spec6 3) : S128x128.Idx → EReal) (funext fun a => Fin.ext ?_)
  match a with
  | ⟨0, _⟩ => show win6_3.index t (0 : Fin 2) * 128 + 1 * (y 0).val = (y 0).val; rw [e0]; omega
  | ⟨1, _⟩ => show win6_3.index t (1 : Fin 2) * 128 + 1 * (y 1).val = (y 1).val; rw [e1]; omega

/-- The bias's block is the whole vector at every point. -/
theorem bl_whole (c : Dev nD) (t : Fin cfg6.N) :
    (iblk6 V c 4 t : Vec Ideal S128 .f32) = (V c (Pipeline.arrRef spec6 4) : S128.Idx → EReal) := by
  obtain ⟨-, -, -, -, -, -, -, -, e0, -⟩ := idx_facts t
  funext y
  show (V c (Pipeline.arrRef spec6 4) : S128.Idx → EReal) (((cfg6.win 4).blk t).view.emb y) = _
  refine congrArg (V c (Pipeline.arrRef spec6 4) : S128.Idx → EReal) (funext fun a => Fin.ext ?_)
  match a with
  | ⟨0, _⟩ => show win6_4.index t (0 : Fin 1) * 128 + 1 * (y 0).val = (y 0).val; rw [e0]; omega

/-- The right weight matrix's block is the whole matrix at every point. -/
theorem wr_whole (c : Dev nD) (t : Fin cfg6.N) :
    (iblk6 V c 5 t : Vec Ideal S128x128 .f32) = (V c (Pipeline.arrRef spec6 5) : S128x128.Idx → EReal) := by
  obtain ⟨-, -, -, -, -, -, -, -, -, e0, e1, -⟩ := idx_facts t
  funext y
  show (V c (Pipeline.arrRef spec6 5) : S128x128.Idx → EReal) (((cfg6.win 5).blk t).view.emb y) = _
  refine congrArg (V c (Pipeline.arrRef spec6 5) : S128x128.Idx → EReal) (funext fun a => Fin.ext ?_)
  match a with
  | ⟨0, _⟩ => show win6_5.index t (0 : Fin 2) * 128 + 1 * (y 0).val = (y 0).val; rw [e0]; omega
  | ⟨1, _⟩ => show win6_5.index t (1 : Fin 2) * 128 + 1 * (y 1).val = (y 1).val; rw [e1]; omega

/-- THE STORED VALUE IS THE LAYER'S: when the three row blocks are rows `5000 b …` of their arrays and the weights' blocks
    are the whole arrays, the value stored at `j` is the layer's output at row `5000 b + j 0`, column `j 1`: it depends on
    that row of `A`, `Cnt`, `Xd` and on the weights only. -/
theorem stored_eq (A : S100000x128.Idx → EReal) (Cnt : S100000x1.Idx → EReal) (Xd : S100000x128.Idx → EReal)
    (Wl : S128x128.Idx → EReal) (Bl : S128.Idx → EReal) (Wr : S128x128.Idx → EReal)
    (cnt : Vec Ideal S5000x1 .f32) (a xd : Vec Ideal S5000x128 .f32) (wl wr : Vec Ideal S128x128 .f32) (bl : Vec Ideal S128 .f32)
    (b : ℕ)
    (ha : ∀ (y : S5000x128.Idx) (k : S100000x128.Idx), (k 0).val = b * 5000 + (y 0).val → (k 1).val = (y 1).val → a y = A k)
    (hcnt : ∀ (y : S5000x1.Idx) (k : S100000x1.Idx), (k 0).val = b * 5000 + (y 0).val → (k 1).val = (y 1).val → cnt y = Cnt k)
    (hxd : ∀ (y : S5000x128.Idx) (k : S100000x128.Idx), (k 0).val = b * 5000 + (y 0).val → (k 1).val = (y 1).val → xd y = Xd k)
    (hwl : wl = Wl) (hbl : bl = Bl) (hwr : wr = Wr)
    (j : S5000x128.Idx) (i : S100000x128.Idx) (hi0 : (i 0).val = b * 5000 + (j 0).val) (hi1 : (i 1).val = (j 1).val) :
    k6_pay1 (F := Ideal) cnt a xd wl wr bl j = G6 A Cnt Xd Wl Bl Wr i := by
  subst hwl hbl hwr
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  have e_a : ∀ k : Fin 128, a (ix2 p k) = A (ix2 r k) := fun k => ha _ _ hi0 rfl
  have e_c : cnt (ix2 p 0) = Cnt (ix2 r 0) := hcnt _ _ hi0 rfl
  have e_x : ∀ k : Fin 128, xd (ix2 p k) = Xd (ix2 r k) := fun k => hxd _ _ hi0 rfl
  rw [pay_at]
  unfold G6
  show Cert.Spec.sageMul z one _ _ _ _ _ _ p q' = Cert.Spec.sageMul z one _ _ _ _ _ _ r q'
  unfold Cert.Spec.sageMul Cert.Spec.clip
  simp only [e_a, e_c, e_x]

set_option maxHeartbeats 1000000 in
/-- WHAT POINT `t` WRITES BACK is block `t` of the layer's output computed from the six arrays as the region finds them. -/
theorem flushed_eq (c : Dev nD) (t : Fin cfg6.N) :
    (dat6 (F := Ideal) V c).flushed 6 t = ((cfg6.win 6).blk t).view.read (Elt Ideal)
      (G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  show (cfg6.win 6).cut (grid6.coords t) ((dat6 (F := Ideal) V c).after 6 t) = _
  rw [after6_6]
  unfold out6_6
  rw [View.canon_unit_zero zero2]
  simp only [View.ld_unit_zero (S := S5000x128) zero2, View.ld_unit_zero (S := S5000x1) zero2,
    View.ld_unit_zero (S := S128x128) zero2, View.ld_unit_zero (S := S128) zero1]
  obtain ⟨-, -, -, -, -, -, -, -, -, -, -, e0, e1⟩ := idx_facts t
  funext j
  show k6_pay1 (F := Ideal) (iblk6 V c 1 t) (iblk6 V c 0 t) (iblk6 V c 2 t) (iblk6 V c 3 t) (iblk6 V c 5 t) (iblk6 V c 4 t) j
    = G6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))
        (((cfg6.win 6).blk t).view.emb j)
  refine stored_eq _ _ _ _ _ _ _ _ _ _ _ _ t.val (a_rows V c t) (cnt_rows V c t) (xd_rows V c t)
    (wl_whole V c t) (bl_whole V c t) (wr_whole V c t) j _ ?_ ?_
  · show win6_6.index t (0 : Fin 2) * 5000 + 1 * (j 0).val = t.val * 5000 + (j 0).val; rw [e0]; omega
  · show win6_6.index t (1 : Fin 2) * 128 + 1 * (j 1).val = (j 1).val; rw [e1]; omega

/-! ## (iii) The blocks cover the output array -/

/-- An index of the output array is in point `t`'s block iff each coordinate is in the block's range on its axis. -/
theorem mem_blk (t : Fin cfg6.N) (i : S100000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_call0_v70).slice (win6_6.rect t)).set ↔ _
  rw [View.set_slice_whole, Rect.mem_set_unit]
  exact Iff.rfl

/-- Row `r` of the output lies in the block of point `r / 5000`, and every point writes its block back. -/
theorem cover (i : S100000x128.Idx) :
    ∃ t : Fin cfg6.N, (cfg6.win 6).flush t = true ∧ i ∈ ((cfg6.win 6).blk t).view.set := by
  have hi0 : (i 0).val < 100000 := (i 0).isLt
  have hi1 : (i 1).val < 128 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, -, -, -, -, -, -, -, e0, e1⟩ := idx_facts t
  refine ⟨t, flush6_6 t, ?_⟩
  rw [mem_blk]
  intro a
  match a with
  | ⟨0, _⟩ =>
    show win6_6.index t (0 : Fin 2) * 5000 ≤ (i 0).val ∧ (i 0).val < win6_6.index t (0 : Fin 2) * 5000 + 5000
    rw [e0, ht]; omega
  | ⟨1, _⟩ =>
    show win6_6.index t (1 : Fin 2) * 128 ≤ (i 1).val ∧ (i 1).val < win6_6.index t (1 : Fin 2) * 128 + 128
    rw [e1]; omega

/-- THE OUTPUT ARRAY after the region is the layer's output computed from the six input arrays as the region finds them. -/
theorem final6 (c : Dev nD) :
    (dat6 (F := Ideal) V c).arrAt 6 cfg6.N
      = G6 (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) :=
  (dat6 (F := Ideal) V c).arrAt_eq_of_cover 6 _ (fun t _ => flushed_eq V c t) cover

end Cert.KernelIdeal.Sage6

end
-- ==== Proof.KChainC.lean ====
/-
  The idealized kernel program's buffers as values of the network, third part: the fourth graph layer and the
  user-to-user layer (boundaries 9 to 12).
-/
import proofs.«129102_j79517024519044_2_alg».proof.Proof.KChainB
import proofs.«129102_j79517024519044_2_alg».proof.Proof.Sage5
import proofs.«129102_j79517024519044_2_alg».proof.Proof.Sage6

set_option maxRecDepth 16384

noncomputable section

namespace Cert.KernelIdeal.Chain

open Idealize.ShloMosaic Idealize.ShloMosaic.TcCoe Idealize.SL.Sem
open Cert.KernelIdeal Cert.KernelIdeal.Gen Cert.KernelIdeal.Fold Cert.KernelIdeal.Stretch Cert.KernelIdeal.Glue

variable (m : (ℓ : Loc nD τ sig) → Buf (Elt Ideal) ℓ) (ρ : Dev nD → PrngReg) (c : Dev nD)

/-! ## Boundary 9: after the fourth stretch (the fourth layer's neighbour sums, over the users) -/

theorem b9_sum4 : W9 m ρ c (Proc.devRef .tc main_call0_v58)
    = sumToU (Cert.Net.mx2 (argsOf m c)) (argsOf m c).src (argsOf m c).dst :=
  (s5_v58 m ρ c).trans (by
    rw [b8_mx2 m ρ c, args8 m ρ c main_arg29 (by decide), args8 m ρ c main_arg30 (by decide)]; rfl)

theorem b9_mx2 : W9 m ρ c (Proc.devRef .tc main_call0_v48) = Cert.Net.mx2 (argsOf m c) :=
  (keep5 (W8 m ρ c) main_call0_v48 (by decide)).trans (b8_mx2 m ρ c)
theorem b9_ux1 : W9 m ρ c (Proc.devRef .tc main_call0_v37) = Cert.Net.ux1 (argsOf m c) :=
  (keep5 (W8 m ρ c) main_call0_v37 (by decide)).trans (b8_ux1 m ρ c)
theorem b9_cntU : W9 m ρ c (Proc.devRef .tc main_call0_v11) = cntU (argsOf m c).src :=
  (keep5 (W8 m ρ c) main_call0_v11 (by decide)).trans (b8_cntU m ρ c)
theorem b9_cntUU : W9 m ρ c (Proc.devRef .tc main_call0_v15) = cntUU (argsOf m c).udst :=
  (keep5 (W8 m ρ c) main_call0_v15 (by decide)).trans (b8_cntUU m ρ c)

/-! ## Boundary 10: after the fourth graph layer (user rows) -/

theorem b10_ux2 : W10 m ρ c (Proc.devRef .tc main_call0_v59) = Cert.Net.ux2 (argsOf m c) :=
  (W10_arr m ρ c 6).trans ((Cert.KernelIdeal.Sage5.final5 (V9 m ρ) c).trans (by
    show Cert.KernelIdeal.Sage5.G5 (W9 m ρ c (Proc.devRef .tc main_call0_v58)) (W9 m ρ c (Proc.devRef .tc main_call0_v11))
      (W9 m ρ c (Proc.devRef .tc main_call0_v37)) (W9 m ρ c (Proc.devRef .tc main_arg15))
      (W9 m ρ c (Proc.devRef .tc main_arg16)) (W9 m ρ c (Proc.devRef .tc main_arg17)) = _
    rw [b9_sum4 m ρ c, b9_cntU m ρ c, b9_ux1 m ρ c, args9 m ρ c main_arg15 (by decide),
      args9 m ρ c main_arg16 (by decide), args9 m ρ c main_arg17 (by decide)]
    rfl))

theorem b10_mx2 : W10 m ρ c (Proc.devRef .tc main_call0_v48) = Cert.Net.mx2 (argsOf m c) :=
  (W10_of_ne m ρ c main_call0_v48 (by decide)).trans (b9_mx2 m ρ c)
theorem b10_cntUU : W10 m ρ c (Proc.devRef .tc main_call0_v15) = cntUU (argsOf m c).udst :=
  (W10_of_ne m ρ c main_call0_v15 (by decide)).trans (b9_cntUU m ρ c)

/-! ## Boundary 11: after the fifth stretch (the follow edges' neighbour sums) -/

theorem b11_sum5 : W11 m ρ c (Proc.devRef .tc main_call0_v69)
    = sumUU (Cert.Net.ux2 (argsOf m c)) (argsOf m c).usrc (argsOf m c).udst :=
  (s6_v69 m ρ c).trans (by
    rw [b10_ux2 m ρ c, args10 m ρ c main_arg31 (by decide), args10 m ρ c main_arg32 (by decide)]; rfl)

theorem b11_ux2 : W11 m ρ c (Proc.devRef .tc main_call0_v59) = Cert.Net.ux2 (argsOf m c) :=
  (keep6 (W10 m ρ c) main_call0_v59 (by decide)).trans (b10_ux2 m ρ c)
theorem b11_mx2 : W11 m ρ c (Proc.devRef .tc main_call0_v48) = Cert.Net.mx2 (argsOf m c) :=
  (keep6 (W10 m ρ c) main_call0_v48 (by decide)).trans (b10_mx2 m ρ c)
theorem b11_cntUU : W11 m ρ c (Proc.devRef .tc main_call0_v15) = cntUU (argsOf m c).udst :=
  (keep6 (W10 m ρ c) main_call0_v15 (by decide)).trans (b10_cntUU m ρ c)

/-! ## Boundary 12: after the user-to-user graph layer -/

theorem b12_ux3 : W12 m ρ c (Proc.devRef .tc main_call0_v70) = Cert.Net.ux3 (argsOf m c) :=
  (W12_arr m ρ c 6).trans ((Cert.KernelIdeal.Sage6.final6 (V11 m ρ) c).trans (by
    show Cert.KernelIdeal.Sage6.G6 (W11 m ρ c (Proc.devRef .tc main_call0_v69)) (W11 m ρ c (Proc.devRef .tc main_call0_v15))
      (W11 m ρ c (Proc.devRef .tc main_call0_v59)) (W11 m ρ c (Proc.devRef .tc main_arg18))
      (W11 m ρ c (Proc.devRef .tc main_arg19)) (W11 m ρ c (Proc.devRef .tc main_arg20)) = _
    rw [b11_sum5 m ρ c, b11_cntUU m ρ c, b11_ux2 m ρ c, args11 m ρ c main_arg18 (by decide),
      args11 m ρ c main_arg19 (by decide), args11 m ρ c main_arg20 (by decide)]
    rfl))

theorem b12_mx2 : W12 m ρ c (Proc.devRef .tc main_call0_v48) = Cert.Net.mx2 (argsOf m c) :=
  (W12_of_ne m ρ c main_call0_v48 (by decide)).trans (b11_mx2 m ρ c)

end Cert.KernelIdeal.Chain

end
-- ==== Proof.Scorer7a.lean ====
/-
  The edge scorer's block arithmetic, read one element at a time on the extended reals.

  A block of the scorer takes 5000 edges. For edge \`p\` of the block the hidden row is, at column \`q\`,
  \`max (((∑ₖ ug p k · Wt k q + ∑ₖ mg p k · Wb k q) + b1 q - mean q) · rsqrt (var q + ε) · γ q + β q) 0\`,
  and the score of the edge is \`logistic (∑_q hidden p q · w2 q + b2) · 4 + 1\`.

  Each matrix product has one contracted axis of extent 128, so an element of the product is a sum over \`Fin 128\`
  of products of one row of the left factor with one column of the right one; the vectors \`b1, γ, β, mean, var\` are
  added along rows (every row of the block sees the same vector), and the changes of float format are the identity
  on the extended reals.
-/
import proofs.«129102_j79517024519044_2_alg».proof.Proof.Gen.KernelIdeal.Skeleton
import proofs.«129102_j79517024519044_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Scorer7

open Cert.KernelIdeal Cert.KernelIdeal.Gen Idealize.ShloMosaic Idealize.ShloMosaic.ValueIdx
open scoped BigOperators

/-- The float literals of the scorer, kept as words: zero, one, four and the variance offset ε. -/
abbrev z : EReal := Ideal.ofBits .f32 0x00000000#32
abbrev one : EReal := Ideal.ofBits .f32 0x3F800000#32
abbrev four : EReal := Ideal.ofBits .f32 0x40800000#32
abbrev eps : EReal := Ideal.ofBits .f32 0x3727C5AC#32

/-! ## The two matrix products at an element -/

/-- The dimension numbers of the hidden layer's products: [5000,128]·[128,128], contracting the left factor's
    columns with the right factor's rows. -/
abbrev dotH : DotDims S5000x128 S128x128 S5000x128 := dot_S5000x128_S128x128_S5000x128_1_0_0_1_n_n
/-- The dimension numbers of the output layer's product: [5000,128]·[128,1]. -/
abbrev dotS : DotDims S5000x128 S128x1 S5000x1 := dot_S5000x128_S128x1_S5000x1_1_0_0_1_n_n

theorem dotH_lhs0 (j : S5000x128.Idx) (k : dotH.contr.Idx) : (dotH.lhsIdx j k 0).val = (j 0).val := by
  unfold DotDims.lhsIdx
  rw [dif_neg (show ¬(0 : Fin S5000x128.rank) ∈ dotH.lhsBatch by decide), dif_pos (show (0 : Fin S5000x128.rank) ∈ dotH.lhsNonContracting by decide)]
  rfl
theorem dotH_lhs1 (j : S5000x128.Idx) (k : dotH.contr.Idx) : (dotH.lhsIdx j k 1).val = (k ⟨0, by decide⟩).val :=
  dotH.lhsIdx_val_of_single rfl j k
theorem dotH_rhs0 (j : S5000x128.Idx) (k : dotH.contr.Idx) : (dotH.rhsIdx j k 0).val = (k ⟨0, by decide⟩).val :=
  dotH.rhsIdx_val_of_single rfl j k
theorem dotH_rhs1 (j : S5000x128.Idx) (k : dotH.contr.Idx) : (dotH.rhsIdx j k 1).val = (j 1).val := by
  unfold DotDims.rhsIdx
  rw [dif_neg (show ¬(1 : Fin S128x128.rank) ∈ dotH.rhsBatch by decide), dif_pos (show (1 : Fin S128x128.rank) ∈ dotH.rhsNonContracting by decide)]
  rfl

/-- An element of a hidden-layer product: row \`p\` of the left factor against column \`q\` of the right one. -/
theorem matmulH_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply, ← Equiv.sum_comp (contrEquiv1 dotH 128 rfl rfl).symm]
  refine Finset.sum_congr rfl fun k _ => ?_
  have hk := contrEquiv1_symm_val dotH 128 rfl rfl k
  have el : dotH.lhsIdx (ix2 p q) ((contrEquiv1 dotH 128 rfl rfl).symm k) = ix2 p k := funext fun a => Fin.ext (by
    match a with
    | ⟨0, _⟩ => exact dotH_lhs0 _ _
    | ⟨1, _⟩ => exact (dotH_lhs1 _ _).trans hk)
  have er : dotH.rhsIdx (ix2 p q) ((contrEquiv1 dotH 128 rfl rfl).symm k) = ix2 k q := funext fun a => Fin.ext (by
    match a with
    | ⟨0, _⟩ => exact (dotH_rhs0 _ _).trans hk
    | ⟨1, _⟩ => exact dotH_rhs1 _ _)
  rw [el, er]

theorem dotS_lhs0 (j : S5000x1.Idx) (k : dotS.contr.Idx) : (dotS.lhsIdx j k 0).val = (j 0).val := by
  unfold DotDims.lhsIdx
  rw [dif_neg (show ¬(0 : Fin S5000x128.rank) ∈ dotS.lhsBatch by decide), dif_pos (show (0 : Fin S5000x128.rank) ∈ dotS.lhsNonContracting by decide)]
  rfl
theorem dotS_lhs1 (j : S5000x1.Idx) (k : dotS.contr.Idx) : (dotS.lhsIdx j k 1).val = (k ⟨0, by decide⟩).val :=
  dotS.lhsIdx_val_of_single rfl j k
theorem dotS_rhs0 (j : S5000x1.Idx) (k : dotS.contr.Idx) : (dotS.rhsIdx j k 0).val = (k ⟨0, by decide⟩).val :=
  dotS.rhsIdx_val_of_single rfl j k
theorem dotS_rhs1 (j : S5000x1.Idx) (k : dotS.contr.Idx) : (dotS.rhsIdx j k 1).val = (j 1).val := by
  unfold DotDims.rhsIdx
  rw [dif_neg (show ¬(1 : Fin S128x1.rank) ∈ dotS.rhsBatch by decide), dif_pos (show (1 : Fin S128x1.rank) ∈ dotS.rhsNonContracting by decide)]
  rfl

/-- An element of the output layer's product: row \`p\` of the hidden block against the one column of the weights. -/
theorem matmulS_apply (lhs : FVec Ideal S5000x128 .bf16) (rhs : FVec Ideal S128x1 .bf16) (p : Fin 5000) (u : Fin 1) :
    matmul dot_S5000x128_S128x1_S5000x1_1_0_0_1_n_n none lhs rhs (constant (F := Ideal) S5000x1 .f32 0x00000000#32) (ix2 p u)
      = ∑ k : Fin 128, lhs (ix2 p k) * rhs (ix2 k u) := by
  simp only [matmul]
  rw [Ideal.matmul_constant_zero_apply, ← Equiv.sum_comp (contrEquiv1 dotS 128 rfl rfl).symm]
  refine Finset.sum_congr rfl fun k _ => ?_
  have hk := contrEquiv1_symm_val dotS 128 rfl rfl k
  have el : dotS.lhsIdx (ix2 p u) ((contrEquiv1 dotS 128 rfl rfl).symm k) = ix2 p k := funext fun a => Fin.ext (by
    match a with
    | ⟨0, _⟩ => exact dotS_lhs0 _ _
    | ⟨1, _⟩ => exact (dotS_lhs1 _ _).trans hk)
  have er : dotS.rhsIdx (ix2 p u) ((contrEquiv1 dotS 128 rfl rfl).symm k) = ix2 k u := funext fun a => Fin.ext (by
    match a with
    | ⟨0, _⟩ => exact (dotS_rhs0 _ _).trans hk
    | ⟨1, _⟩ => exact dotS_rhs1 _ _)
  rw [el, er]

/-! ## A vector added along the rows of a block -/

/-- A vector of 128 numbers, laid out as one row and repeated over the 5000 rows of a block, reads at \`(p, q)\` its
    entry \`q\`. -/
theorem rowVec_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The one number \`b2\`, repeated over the 5000 rows of the score column. -/
theorem rowOne_apply (v : FVec Ideal S1 .f32) (p : Fin 5000) (u : Fin 1) :
    broadcastTo S5000x1 (shapeCast S1x1 v shapeCasts_S1_S1x1) broadcasts_S1x1_S5000x1 (ix2 p u) = v (ix1 0) := by
  obtain rfl : u = 0 := Subsingleton.elim _ _
  exact (broadcastTo_1b_ab_apply _ broadcasts_S1x1_S5000x1 p 0).trans (shapeCast_a_1a_apply v shapeCasts_S1_S1x1 0 0)

/-! ## The payloads at an element -/

/-- The rectified, normalised hidden block at \`(p, q)\`: it depends on row \`p\` of the two endpoint blocks, on column
    \`q\` of the two weight matrices and on entry \`q\` of the five vectors. -/
theorem hidden_apply (ug mg : Vec Ideal S5000x128 .f32) (wt wb : Vec Ideal S128x128 .f32)
    (b1 var mean gamma beta : Vec Ideal S128 .f32) (p : Fin 5000) (q : Fin 128) :
    k7_pay2 (F := Ideal) ug mg wt wb b1 var mean gamma beta (ix2 p q)
      = Cert.Spec.normRelu z eps (fun q => gamma (ix1 q)) (fun q => beta (ix1 q)) (fun q => mean (ix1 q)) (fun q => var (ix1 q))
          (fun q => (∑ k : Fin 128, ug (ix2 p k) * wt (ix2 k q) + ∑ k : Fin 128, mg (ix2 p k) * wb (ix2 k q)) + b1 (ix1 q)) q := by
  unfold k7_pay2 Cert.Spec.normRelu
  simp only [truncf_apply, maximumf_apply, addf_apply, mulf_apply, subf_apply, broadcast_apply, shapeCast_self]
  rw [matmulH_apply, matmulH_apply, rowVec_apply, rowVec_apply, rowVec_apply, rowVec_apply, rowVec_apply]
  rfl

/-- The score of edge `p` of the block: it depends on row `p` of the hidden block, on the output weights and on `b2`. -/
theorem score_apply (h : FVec Ideal S5000x128 .bf16) (w2 : Vec Ideal S128x1 .f32) (b2 : Vec Ideal S1 .f32) (p : Fin 5000) (u : Fin 1) :
    k7_pay1 (F := Ideal) h w2 b2 (ix2 p u)
      = Cert.Spec.score one four (fun q => w2 (ix2 q 0)) (b2 (ix1 0)) (fun q => h (ix2 p q)) := by
  obtain rfl : u = 0 := Subsingleton.elim _ _
  unfold k7_pay1 Cert.Spec.score
  simp only [logistic, addf_apply, mulf_apply, broadcast_apply]
  rw [matmulS_apply, rowOne_apply]
  rfl

/-! ## The scorer as one function of its arrays -/

/-- The score of every edge from the eleven arrays the scorer reads: the two endpoint embeddings (one row per
    edge), the two halves of the first weight matrix, its bias, the four normalisation vectors, the output weights and
    the output bias. Edge \`i 0\` depends on row \`i 0\` of the two embeddings only. -/
def G7 (Ug Mg : S1000000x128.Idx → EReal) (Wt Wb : S128x128.Idx → EReal) (B1 Gamma Beta Mean Var : S128.Idx → EReal)
    (W2 : S128x1.Idx → EReal) (B2 : S1.Idx → EReal) : S1000000x1.Idx → EReal :=
  fun i => Cert.Spec.predictSplit z one four eps (fun r k => Ug (ix2 r k)) (fun r k => Mg (ix2 r k))
    (fun k q => Wt (ix2 k q)) (fun k q => Wb (ix2 k q)) (fun q => B1 (ix1 q)) (fun q => Gamma (ix1 q))
    (fun q => Beta (ix1 q)) (fun q => Mean (ix1 q)) (fun q => Var (ix1 q)) (fun q => W2 (ix2 q 0)) (B2 (ix1 0)) (i 0)

/-- One block of the scorer is the scorer of the arrays, read where the block sits: if row \`j 0\` of the two
    endpoint blocks is row \`i 0\` of the two embedding arrays and the other nine blocks are their whole arrays, the
    block's score at \`j\` is the arrays' score at \`i\`. -/
theorem block_apply (x0 x1 : Vec Ideal S5000x128 .f32) (x2 x3 : Vec Ideal S128x128 .f32)
    (x4 x5 x6 x7 x8 : Vec Ideal S128 .f32) (x9 : Vec Ideal S128x1 .f32) (x10 : Vec Ideal S1 .f32)
    (Ug Mg : S1000000x128.Idx → EReal) (Wt Wb : S128x128.Idx → EReal) (B1 Gamma Beta Mean Var : S128.Idx → EReal)
    (W2 : S128x1.Idx → EReal) (B2 : S1.Idx → EReal) (j : S5000x1.Idx) (i : S1000000x1.Idx)
    (h0 : ∀ k : Fin 128, x0 (ix2 (j 0) k) = Ug (ix2 (i 0) k))
    (h1 : ∀ k : Fin 128, x1 (ix2 (j 0) k) = Mg (ix2 (i 0) k))
    (h2 : ∀ y, x2 y = Wt y) (h3 : ∀ y, x3 y = Wb y) (h4 : ∀ y, x4 y = B1 y) (h5 : ∀ y, x5 y = Gamma y)
    (h6 : ∀ y, x6 y = Beta y) (h7 : ∀ y, x7 y = Mean y) (h8 : ∀ y, x8 y = Var y) (h9 : ∀ y, x9 y = W2 y)
    (h10 : ∀ y, x10 y = B2 y) :
    k7_pay1 (F := Ideal) (k7_pay2 (F := Ideal) x0 x1 x2 x3 x4 x8 x7 x5 x6) x9 x10 j
      = G7 Ug Mg Wt Wb B1 Gamma Beta Mean Var W2 B2 i := by
  obtain rfl : x2 = Wt := funext h2
  obtain rfl : x3 = Wb := funext h3
  obtain rfl : x4 = B1 := funext h4
  obtain rfl : x5 = Gamma := funext h5
  obtain rfl : x6 = Beta := funext h6
  obtain rfl : x7 = Mean := funext h7
  obtain rfl : x8 = Var := funext h8
  obtain rfl : x9 = W2 := funext h9
  obtain rfl : x10 = B2 := funext h10
  obtain ⟨p, u, rfl⟩ : ∃ (p : Fin 5000) (u : Fin 1), j = ix2 p u := ⟨j 0, j 1, eq_ix2 j⟩
  have h0' : ∀ k : Fin 128, x0 (ix2 p k) = Ug (ix2 (i 0) k) := h0
  have h1' : ∀ k : Fin 128, x1 (ix2 p k) = Mg (ix2 (i 0) k) := h1
  rw [score_apply]
  unfold G7 Cert.Spec.predictSplit
  congr 1
  funext q
  rw [hidden_apply]
  simp only [h0', h1']

end Cert.KernelIdeal.Scorer7

end
-- ==== Proof.Scorer7b.lean ====
/-
  The edge scorer over the whole edge list.

  The scorer runs over 200 blocks of 5000 edges. Block \`t\` reads rows \`5000·t … 5000·t + 4999\` of the two endpoint
  embeddings and the whole of the nine weight and normalisation arrays, and writes rows \`5000·t … 5000·t + 4999\` of the
  score column. So what block \`t\` writes is block \`t\` of one function of the eleven arrays (the scorer applied edge by
  edge), and since edge \`r\` lies in block \`r / 5000\` the 200 blocks cover the column: after the last block the score
  column holds that function.
-/
import proofs.«129102_j79517024519044_2_alg».proof.Proof.Gen.KernelIdeal.Frame
import proofs.«129102_j79517024519044_2_alg».proof.Proof.Scorer7a
import Idealize.ShloMosaic.Lib.Pipeline.Value

set_option maxRecDepth 16384

noncomputable section

namespace Cert.KernelIdeal.Scorer7

open Cert.KernelIdeal Cert.KernelIdeal.Gen Idealize.ShloMosaic Idealize.ShloMosaic.TcCoe Idealize.ShloMosaic.ValueIdx
open Idealize.SL.Sem
open Idealize.ShloMosaic.Pipeline (Dat)

theorem zeroOff2 : (![0, 0] : Fin 2 → Nat) = fun _ => 0 := funext fun a => by fin_cases a <;> rfl
theorem zeroOff1 : (![0] : Fin 1 → Nat) = fun _ => 0 := funext fun a => by fin_cases a; rfl

/-- Where the blocks sit, decided over the 200 points: the two endpoint blocks move down their arrays with the score
    block (block row \`t\`, block column 0), the nine other blocks stay at the origin of their arrays. -/
theorem blockIndex : ∀ t : Fin cfg7.N,
    win7_11.index t (0 : Fin 2) = t.val ∧ win7_11.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 1) = 0 ∧ win7_5.index t (0 : Fin 1) = 0 ∧ win7_6.index t (0 : Fin 1) = 0
    ∧ win7_7.index t (0 : Fin 1) = 0 ∧ win7_8.index t (0 : Fin 1) = 0
    ∧ win7_9.index t (0 : Fin 2) = 0 ∧ win7_9.index t (1 : Fin 2) = 0
    ∧ win7_10.index t (0 : Fin 1) = 0 :=
  (by decide +kernel : ∀ t : Fin grid7.N, _)

section
variable (V : (c : Dev nD) → (b : Ref sig .tc) → Buf (Elt Ideal) ((c : Thread nD τ).loc b))

/-- Row \`p\` of the first endpoint block at point \`t\` is row \`5000·t + p\` of the first embedding array. -/
theorem rows0 (c : Dev nD) (t : Fin cfg7.N) (p : Fin 5000) (k : Fin 128) (r : Fin 1000000) (hr : r.val = t.val * 5000 + p.val) :
    (iblk7 V c 0 t : Vec Ideal S5000x128 .f32) (ix2 p k) = (V c (Pipeline.arrRef spec7 0) : S1000000x128.Idx → EReal) (ix2 r k) := by
  obtain ⟨-, -, e0, e1, -⟩ := blockIndex t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * p.val = r.val; omega
  | ⟨1, _⟩ => show win7_0.index t (1 : Fin 2) * 128 + 1 * k.val = k.val; omega

/-- Row \`p\` of the second endpoint block at point \`t\` is row \`5000·t + p\` of the second embedding array. -/
theorem rows1 (c : Dev nD) (t : Fin cfg7.N) (p : Fin 5000) (k : Fin 128) (r : Fin 1000000) (hr : r.val = t.val * 5000 + p.val) :
    (iblk7 V c 1 t : Vec Ideal S5000x128 .f32) (ix2 p k) = (V c (Pipeline.arrRef spec7 1) : S1000000x128.Idx → EReal) (ix2 r k) := by
  obtain ⟨-, -, -, -, e0, e1, -⟩ := blockIndex t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 5000 + 1 * p.val = r.val; omega
  | ⟨1, _⟩ => show win7_1.index t (1 : Fin 2) * 128 + 1 * k.val = k.val; omega

/-- The block of each of the nine other windows is its whole array, at every point. -/
theorem whole2 (c : Dev nD) (t : Fin cfg7.N) (y : S128x128.Idx) :
    (iblk7 V c 2 t : Vec Ideal S128x128 .f32) y = (V c (Pipeline.arrRef spec7 2) : S128x128.Idx → EReal) y := by
  obtain ⟨-, -, -, -, -, -, e0, e1, -⟩ := blockIndex t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 128 + 1 * (y 0).val = (y 0).val; omega
  | ⟨1, _⟩ => show win7_2.index t (1 : Fin 2) * 128 + 1 * (y 1).val = (y 1).val; omega
theorem whole3 (c : Dev nD) (t : Fin cfg7.N) (y : S128x128.Idx) :
    (iblk7 V c 3 t : Vec Ideal S128x128 .f32) y = (V c (Pipeline.arrRef spec7 3) : S128x128.Idx → EReal) y := by
  obtain ⟨-, -, -, -, -, -, -, -, e0, e1, -⟩ := blockIndex t
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 128 + 1 * (y 0).val = (y 0).val; omega
  | ⟨1, _⟩ => show win7_3.index t (1 : Fin 2) * 128 + 1 * (y 1).val = (y 1).val; omega
theorem whole4 (c : Dev nD) (t : Fin cfg7.N) (y : S128.Idx) :
    (iblk7 V c 4 t : Vec Ideal S128 .f32) y = (V c (Pipeline.arrRef spec7 4) : S128.Idx → EReal) y := by
  obtain ⟨-, -, -, -, -, -, -, -, -, -, e0, -⟩ := blockIndex t
  unfold iblk7
  rw [View.read_apply]
  show V c (Pipeline.arrRef spec7 4) _ = V c (Pipeline.arrRef spec7 4) _
  congr 1
  funext a
  apply Fin.ext
  match a with
  | ⟨0, _⟩ => show win7_4.index t (0 : Fin 1) * 128 + 1 * (y 0).val = (y 0).val; omega
theorem whole5 (c : Dev nD) (t : Fin cfg7.N) (y : S128.Idx) :
    (iblk7 V c 5 t : Vec Ideal S128 .f32) y = (V c (Pipeline.arrRef spec7 5) : S128.Idx → EReal) y := by
  obtain ⟨-, -, -, -, -, -, -, -, -, -, -, e0, -⟩ := blockIndex t
  unfold iblk7
  rw [View.read_apply]
  show V c (Pipeline.arrRef spec7 5) _ = V c (Pipeline.arrRef spec7 5) _
  congr 1
  funext a
  apply Fin.ext
  match a with
  | ⟨0, _⟩ => show win7_5.index t (0 : Fin 1) * 128 + 1 * (y 0).val = (y 0).val; omega
theorem whole6 (c : Dev nD) (t : Fin cfg7.N) (y : S128.Idx) :
    (iblk7 V c 6 t : Vec Ideal S128 .f32) y = (V c (Pipeline.arrRef spec7 6) : S128.Idx → EReal) y := by
  obtain ⟨-, -, -, -, -, -, -, -, -, -, -, -, e0, -⟩ := blockIndex t
  unfold iblk7
  rw [View.read_apply]
  show V c (Pipeline.arrRef spec7 6) _ = V c (Pipeline.arrRef spec7 6) _
  congr 1
  funext a
  apply Fin.ext
  match a with
  | ⟨0, _⟩ => show win7_6.index t (0 : Fin 1) * 128 + 1 * (y 0).val = (y 0).val; omega
theorem whole7 (c : Dev nD) (t : Fin cfg7.N) (y : S128.Idx) :
    (iblk7 V c 7 t : Vec Ideal S128 .f32) y = (V c (Pipeline.arrRef spec7 7) : S128.Idx → EReal) y := by
  obtain ⟨-, -, -, -, -, -, -, -, -, -, -, -, -, e0, -⟩ := blockIndex t
  unfold iblk7
  rw [View.read_apply]
  show V c (Pipeline.arrRef spec7 7) _ = V c (Pipeline.arrRef spec7 7) _
  congr 1
  funext a
  apply Fin.ext
  match a with
  | ⟨0, _⟩ => show win7_7.index t (0 : Fin 1) * 128 + 1 * (y 0).val = (y 0).val; omega
theorem whole8 (c : Dev nD) (t : Fin cfg7.N) (y : S128.Idx) :
    (iblk7 V c 8 t : Vec Ideal S128 .f32) y = (V c (Pipeline.arrRef spec7 8) : S128.Idx → EReal) y := by
  obtain ⟨-, -, -, -, -, -, -, -, -, -, -, -, -, -, e0, -⟩ := blockIndex t
  unfold iblk7
  rw [View.read_apply]
  show V c (Pipeline.arrRef spec7 8) _ = V c (Pipeline.arrRef spec7 8) _
  congr 1
  funext a
  apply Fin.ext
  match a with
  | ⟨0, _⟩ => show win7_8.index t (0 : Fin 1) * 128 + 1 * (y 0).val = (y 0).val; omega
theorem whole9 (c : Dev nD) (t : Fin cfg7.N) (y : S128x1.Idx) :
    (iblk7 V c 9 t : Vec Ideal S128x1 .f32) y = (V c (Pipeline.arrRef spec7 9) : S128x1.Idx → EReal) y := by
  obtain ⟨-, -, -, -, -, -, -, -, -, -, -, -, -, -, -, e0, e1, -⟩ := blockIndex t
  unfold iblk7
  rw [View.read_apply]
  show V c (Pipeline.arrRef spec7 9) _ = V c (Pipeline.arrRef spec7 9) _
  congr 1
  funext a
  apply Fin.ext
  match a with
  | ⟨0, _⟩ => show win7_9.index t (0 : Fin 2) * 128 + 1 * (y 0).val = (y 0).val; omega
  | ⟨1, _⟩ => show win7_9.index t (1 : Fin 2) * 1 + 1 * (y 1).val = (y 1).val; omega
theorem whole10 (c : Dev nD) (t : Fin cfg7.N) (y : S1.Idx) :
    (iblk7 V c 10 t : Vec Ideal S1 .f32) y = (V c (Pipeline.arrRef spec7 10) : S1.Idx → EReal) y := by
  obtain ⟨-, -, -, -, -, -, -, -, -, -, -, -, -, -, -, -, -, e0⟩ := blockIndex t
  unfold iblk7
  rw [View.read_apply]
  show V c (Pipeline.arrRef spec7 10) _ = V c (Pipeline.arrRef spec7 10) _
  congr 1
  funext a
  apply Fin.ext
  match a with
  | ⟨0, _⟩ => show win7_10.index t (0 : Fin 1) * 1 + 1 * (y 0).val = (y 0).val; omega

end

end Cert.KernelIdeal.Scorer7

end
-- ==== Proof.Scorer7c.lean ====
/-
  The edge scorer's result array.

  What block \`t\` of the scorer writes back is block \`t\` of the scorer applied, edge by edge, to the eleven arrays as
  the scorer finds them; edge \`r\` lies in block \`r / 5000\`, so the 200 blocks cover the score column and after the last
  one the column is that function.
-/
import proofs.«129102_j79517024519044_2_alg».proof.Proof.Gen.KernelIdeal.Frame
import proofs.«129102_j79517024519044_2_alg».proof.Proof.Scorer7b
import Idealize.ShloMosaic.Lib.Pipeline.Value

set_option maxRecDepth 16384

noncomputable section

namespace Cert.KernelIdeal.Scorer7

open Cert.KernelIdeal Cert.KernelIdeal.Gen Idealize.ShloMosaic Idealize.ShloMosaic.TcCoe Idealize.ShloMosaic.ValueIdx
open Idealize.SL.Sem
open Idealize.ShloMosaic.Pipeline (Dat)

section
variable (V : (c : Dev nD) → (b : Ref sig .tc) → Buf (Elt Ideal) ((c : Thread nD τ).loc b))

/-- What point \`t\` writes back is block \`t\` of the scorer of the eleven arrays. -/
theorem flushed_eq (c : Dev nD) (t : Fin cfg7.N) :
    (dat7 (F := Ideal) V c).flushed 11 t
      = ((cfg7.win 11).blk t).view.read (Elt Ideal) (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) (V c (Pipeline.arrRef spec7 10))) := by
  show (cfg7.win 11).cut (grid7.coords t) ((dat7 (F := Ideal) V c).after 11 t) = _
  rw [after7_11]
  unfold out7_11
  rw [View.canon_unit_zero zeroOff2]
  simp only [View.ld_unit_zero (S := S5000x128) zeroOff2, View.ld_unit_zero (S := S128x128) zeroOff2,
    View.ld_unit_zero (S := S128) zeroOff1, View.ld_unit_zero (S := S128x1) zeroOff2, View.ld_unit_zero (S := S1) zeroOff1]
  funext j
  refine block_apply (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
    (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) (V c (Pipeline.arrRef spec7 10))
    j (((cfg7.win 11).blk t).view.emb j)
    (fun k => rows0 V c t (j 0) k _ ?_) (fun k => rows1 V c t (j 0) k _ ?_)
    (whole2 V c t) (whole3 V c t) (whole4 V c t) (whole5 V c t) (whole6 V c t) (whole7 V c t) (whole8 V c t) (whole9 V c t) (whole10 V c t)
  all_goals
    obtain ⟨e0, -⟩ := blockIndex t
    show win7_11.index t (0 : Fin 2) * 5000 + 1 * (j 0).val = t.val * 5000 + (j 0).val
    omega

/-- An edge is in point `t`'s block iff its row is one of the block's 5000 rows. -/
theorem mem_blk (t : Fin cfg7.N) (i : S1000000x1.Idx) :
    i ∈ ((cfg7.win 11).blk t).view.set ↔ ∀ a : Fin 2, win7_11.index t a * S5000x1.size a ≤ (i a).val ∧ (i a).val < win7_11.index t a * S5000x1.size a + S5000x1.size a := by
  show i ∈ ((View.whole main_call0_v87).slice (win7_11.rect t)).set ↔ _
  rw [View.set_slice_whole, Rect.mem_set_unit]
  exact Iff.rfl

/-- Every edge is in some block: edge `r` is in block `r / 5000`. -/
theorem cover (i : S1000000x1.Idx) :
    ∃ t : Fin cfg7.N, (cfg7.win 11).flush t = true ∧ i ∈ ((cfg7.win 11).blk t).view.set := by
  have hi0 : (i 0).val < 1000000 := (i 0).isLt
  have hi1 : (i 1).val < 1 := (i 1).isLt
  have hN : cfg7.N = 200 := N_7
  obtain ⟨t, ht⟩ : ∃ t : Fin cfg7.N, t.val = (i 0).val / 5000 := ⟨⟨(i 0).val / 5000, by rw [hN]; omega⟩, rfl⟩
  obtain ⟨e0, e1, -⟩ := blockIndex t
  refine ⟨t, flush7_11 t, ?_⟩
  rw [mem_blk]
  intro a
  match a with
  | ⟨0, _⟩ => show win7_11.index t (0 : Fin 2) * 5000 ≤ (i 0).val ∧ (i 0).val < win7_11.index t (0 : Fin 2) * 5000 + 5000; omega
  | ⟨1, _⟩ => show win7_11.index t (1 : Fin 2) * 1 ≤ (i 1).val ∧ (i 1).val < win7_11.index t (1 : Fin 2) * 1 + 1; omega

/-- After the last block the score column is the scorer of the eleven arrays as the scorer found them. -/
theorem final7 (c : Dev nD) :
    (dat7 (F := Ideal) V c).arrAt 11 cfg7.N = G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) (V c (Pipeline.arrRef spec7 10)) :=
  (dat7 (F := Ideal) V c).arrAt_eq_of_cover 11 (G7 (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) (V c (Pipeline.arrRef spec7 10)))
    (fun t _ => flushed_eq V c t) cover

end

end Cert.KernelIdeal.Scorer7

end
-- ==== Proof.KChainD.lean ====
/-
  The idealized kernel program's buffers as values of the network, last part: the edge scorer (boundaries 13, 14).
  The third-last stretch gathers the two endpoint rows of every rated edge and cuts the scorer's first weight matrix
  into the rows that multiply the one and the other; the last launch scores every edge.
-/
import proofs.«129102_j79517024519044_2_alg».proof.Proof.KChainC
import proofs.«129102_j79517024519044_2_alg».proof.Proof.Scorer7c

set_option maxRecDepth 16384

noncomputable section

namespace Cert.KernelIdeal.Chain

open Idealize.ShloMosaic Idealize.ShloMosaic.TcCoe Idealize.SL.Sem
open Cert.KernelIdeal Cert.KernelIdeal.Gen Cert.KernelIdeal.Fold Cert.KernelIdeal.Stretch Cert.KernelIdeal.Glue

variable (m : (ℓ : Loc nD τ sig) → Buf (Elt Ideal) ℓ) (ρ : Dev nD → PrngReg) (c : Dev nD)

/-! ## Boundary 13: after the sixth stretch (the endpoint rows of every rated edge; the two halves of the weights) -/

theorem b13_ug : W13 m ρ c (Proc.devRef .tc main_call0_v77) = rowsU (Cert.Net.ux3 (argsOf m c)) (argsOf m c).src :=
  (s7_v77 m ρ c).trans (by rw [b12_ux3 m ρ c, args12 m ρ c main_arg29 (by decide)]; rfl)

theorem b13_mg : W13 m ρ c (Proc.devRef .tc main_call0_v84) = rowsM (Cert.Net.mx2 (argsOf m c)) (argsOf m c).dst :=
  (s7_v84 m ρ c).trans (by rw [b12_mx2 m ρ c, args12 m ρ c main_arg30 (by decide)]; rfl)

theorem b13_top : W13 m ρ c (Proc.devRef .tc main_call0_v85) = topHalf (argsOf m c).p1W :=
  (s7_v85 m ρ c).trans (by rw [args12 m ρ c main_arg21 (by decide)]; rfl)

theorem b13_bot : W13 m ρ c (Proc.devRef .tc main_call0_v86) = botHalf (argsOf m c).p1W :=
  (s7_v86 m ρ c).trans (by rw [args12 m ρ c main_arg21 (by decide)]; rfl)

/-! ## Boundary 14: after the scorer -/

theorem b14_scores : W14 m ρ c (Proc.devRef .tc main_call0_v87) = Cert.Net.scores (argsOf m c) :=
  (W14_arr m ρ c 11).trans ((Cert.KernelIdeal.Scorer7.final7 (V13 m ρ) c).trans (by
    show Cert.KernelIdeal.Scorer7.G7 (W13 m ρ c (Proc.devRef .tc main_call0_v77)) (W13 m ρ c (Proc.devRef .tc main_call0_v84))
      (W13 m ρ c (Proc.devRef .tc main_call0_v85)) (W13 m ρ c (Proc.devRef .tc main_call0_v86))
      (W13 m ρ c (Proc.devRef .tc main_arg22)) (W13 m ρ c (Proc.devRef .tc main_arg23))
      (W13 m ρ c (Proc.devRef .tc main_arg24)) (W13 m ρ c (Proc.devRef .tc main_arg25))
      (W13 m ρ c (Proc.devRef .tc main_arg26)) (W13 m ρ c (Proc.devRef .tc main_arg27))
      (W13 m ρ c (Proc.devRef .tc main_arg28)) = _
    rw [b13_ug m ρ c, b13_mg m ρ c, b13_top m ρ c, b13_bot m ρ c, args13 m ρ c main_arg22 (by decide),
      args13 m ρ c main_arg23 (by decide), args13 m ρ c main_arg24 (by decide), args13 m ρ c main_arg25 (by decide),
      args13 m ρ c main_arg26 (by decide), args13 m ρ c main_arg27 (by decide), args13 m ρ c main_arg28 (by decide)]
    rfl))

end Cert.KernelIdeal.Chain

end
-- ==== Proof.KValue.lean ====
/-
  The idealized kernel program's result array is the network's result: the last stretch lays the scorer's one-column
  output out as a vector.
-/
import proofs.«129102_j79517024519044_2_alg».proof.Proof.KChainD

set_option maxRecDepth 16384

noncomputable section

namespace Cert.KernelIdeal.Chain

open Idealize.ShloMosaic Idealize.ShloMosaic.TcCoe Idealize.SL.Sem
open Cert.KernelIdeal Cert.KernelIdeal.Gen Cert.KernelIdeal.Fold Cert.KernelIdeal.Stretch Cert.KernelIdeal.Glue

variable (m : (ℓ : Loc nD τ sig) → Buf (Elt Ideal) ℓ) (ρ : Dev nD → PrngReg) (c : Dev nD)

theorem kernel_value : W15 m ρ c (Proc.devRef .tc main_v0) = Cert.Net.result (argsOf m c) :=
  (s8_res m ρ c).trans (by rw [b14_scores m ρ c]; rfl)

end Cert.KernelIdeal.Chain

end
-- ==== Proof.RefDense.lean ====
/-
  The two input projections of the reference, row by row: each is a linear layer followed by the rectifier,
  `max (∑ₖ x r k · W k q + b q) 0`. The reference computes the product, broadcasts the bias row over all rows
  (first to one row, then to every row), adds, and takes the maximum with a broadcast zero. Read at an index
  `(r, q)`, the product is the sum over the contracted axis of `x (r, k) · W (k, q)`, the two broadcasts read the
  bias at `q`, and the broadcast zero reads the zero literal: that is `dense` at `(r, q)`.
-/
import proofs.«129102_j79517024519044_2_alg».proof.Proof.Gen.ReferenceIdeal.Read
import proofs.«129102_j79517024519044_2_alg».proof.Proof.Spec
import Idealize.ShloMosaic.Lib.ValueIdx
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The user projection: `main_v4 = max (user_feat · W_user + b_user) 0`, entry by entry. -/
theorem main_v4_eq (x0 : (⟨S100000x64, .f32⟩ : BufTy).Contents (Elt Ideal))
    (x2 : (⟨S64x128, .f32⟩ : BufTy).Contents (Elt Ideal)) (x3 : (⟨S128, .f32⟩ : BufTy).Contents (Elt Ideal)) :
    val_main_v4 (F := Ideal) x0 x2 x3 = fun i =>
      Cert.Spec.dense (Ideal.ofBits .f32 0x00000000#32) (fun (r : Fin 100000) (k : Fin 64) => x0 (ix2 r k))
        (fun (k : Fin 64) (q : Fin 128) => x2 (ix2 k q)) (fun (q : Fin 128) => x3 (ix1 q)) (i 0) (i 1) := by
  funext i
  obtain ⟨r, q, rfl⟩ : ∃ (r : Fin 100000) (q : Fin 128), i = ix2 r q := ⟨i 0, i 1, eq_ix2 i⟩
  -- the contracted operands' indices, and the bias index after the two broadcasts
  have hl : ∀ k : Fin 64, lidx_main_v0 (ix2 r q) k = ix2 r k := fun k =>
    funext fun a => Fin.ext (by match a with | ⟨0, _⟩ => rfl | ⟨1, _⟩ => rfl)
  have hr : ∀ k : Fin 64, ridx_main_v0 (ix2 r q) k = ix2 k q := fun k =>
    funext fun a => Fin.ext (by match a with | ⟨0, _⟩ => rfl | ⟨1, _⟩ => rfl)
  have hb : idx_main_v1 (idx_main_v2 (ix2 r q)) = ix1 q :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [hl, hr, hb, Ideal.maximumf_def, Ideal.addf_def, Ideal.ofBits_def]
  rfl

/-- The movie projection: `main_v9 = max (movie_feat · W_movie + b_movie) 0`, entry by entry. -/
theorem main_v9_eq (x1 : (⟨S20000x128, .f32⟩ : BufTy).Contents (Elt Ideal))
    (x4 : (⟨S128x128, .f32⟩ : BufTy).Contents (Elt Ideal)) (x5 : (⟨S128, .f32⟩ : BufTy).Contents (Elt Ideal)) :
    val_main_v9 (F := Ideal) x1 x4 x5 = fun i =>
      Cert.Spec.dense (Ideal.ofBits .f32 0x00000000#32) (fun (r : Fin 20000) (k : Fin 128) => x1 (ix2 r k))
        (fun (k : Fin 128) (q : Fin 128) => x4 (ix2 k q)) (fun (q : Fin 128) => x5 (ix1 q)) (i 0) (i 1) := by
  funext i
  obtain ⟨r, q, rfl⟩ : ∃ (r : Fin 20000) (q : Fin 128), i = ix2 r q := ⟨i 0, i 1, eq_ix2 i⟩
  have hl : ∀ k : Fin 128, lidx_main_v5 (ix2 r q) k = ix2 r k := fun k =>
    funext fun a => Fin.ext (by match a with | ⟨0, _⟩ => rfl | ⟨1, _⟩ => rfl)
  have hr : ∀ k : Fin 128, ridx_main_v5 (ix2 r q) k = ix2 k q := fun k =>
    funext fun a => Fin.ext (by match a with | ⟨0, _⟩ => rfl | ⟨1, _⟩ => rfl)
  have hb : idx_main_v6 (idx_main_v7 (ix2 r q)) = ix1 q :=
    funext fun a => Fin.ext (by match a with | ⟨0, _⟩ => rfl)
  rw [val_main_v9_apply, val_main_v8_apply, val_main_v5_apply, val_main_v7_apply, val_main_v6_apply,
    val_main_call1_v0_apply, val_main_call1_cst_apply]
  simp only [hl, hr, hb, Ideal.maximumf_def, Ideal.addf_def, Ideal.ofBits_def]
  rfl

end Cert.ReferenceIdeal.RefLayers

end
-- ==== Proof.RefSage1.lean ====
/-
  Graph layer 1 of the reference (movie rows from their user neighbours), row by row. The reference clips the scatter-added neighbour count at one,
  broadcasts it to a column and then across the 128 lanes, divides the scatter-added neighbour sum by it entry by
  entry, multiplies by the left weight, adds the bias row (broadcast to one row, then to every row), adds the product
  of the destination rows with the right weight, and takes the maximum with a broadcast zero. Read at an index
  `(r, q)`: the two broadcasts of the count read the clipped count of row `r` whatever the lane, the quotient is
  `sum (r, k) / max (count r) 1`, each product is the sum over the contracted axis, and the bias is read at `q`.
  That is `sageDiv` at `(r, q)`. The neighbour sum and the neighbour count stay the scatter-adds they are.
-/
import proofs.«129102_j79517024519044_2_alg».proof.Proof.Gen.ReferenceIdeal.Read
import proofs.«129102_j79517024519044_2_alg».proof.Proof.Spec
import Idealize.ShloMosaic.Lib.ValueIdx
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The count broadcast across the lanes reads, at `(r, k)`, the count of row `r` clipped at one. -/
theorem main_v27_at (x30 : (⟨S1000000, .i32⟩ : BufTy).Contents (Elt Ideal)) (r : Fin 20000) (k : Fin 128) :
    val_main_v27 (F := Ideal) x30 (ix2 r k) =
      max (val_main_v23 (F := Ideal) x30 (ix1 r)) (Ideal.ofBits .f32 0x3F800000#32) := by
  have hc : idx_main_v26 (idx_main_v27 (ix2 r k)) = ix1 r :=
    funext fun a => Fin.ext (by match a with | ⟨0, _⟩ => rfl)
  rw [val_main_v27_apply, val_main_v26_apply, val_main_v25_apply, val_main_v24_apply,
    val_main_cst_3_apply, hc]
  simp only [Ideal.maximumf_def, Ideal.ofBits_def]

/-- The mean at `(r, k)`: the neighbour sum divided by the clipped count of the row. -/
theorem main_v28_at (x0 : (⟨S100000x64, .f32⟩ : BufTy).Contents (Elt Ideal)) (x2 : (⟨S64x128, .f32⟩ : BufTy).Contents (Elt Ideal)) (x3 : (⟨S128, .f32⟩ : BufTy).Contents (Elt Ideal)) (x29 x30 : (⟨S1000000, .i32⟩ : BufTy).Contents (Elt Ideal)) (r : Fin 20000) (k : Fin 128) :
    val_main_v28 (F := Ideal) x0 x2 x3 x29 x30 (ix2 r k) =
      Ideal.div (val_main_v19 (F := Ideal) x0 x2 x3 x29 x30 (ix2 r k))
        (max (val_main_v23 (F := Ideal) x30 (ix1 r)) (Ideal.ofBits .f32 0x3F800000#32)) := by
  rw [val_main_v28_apply, main_v27_at]
  simp only [Ideal.hostDivf_def]

/-- Graph layer 1: `main_v35 = max (((sum / max count 1) · Wl + bl) + xd · Wr) 0`, entry by entry. -/
theorem main_v35_eq (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x29 x30 : (⟨S1000000, .i32⟩ : BufTy).Contents (Elt Ideal)) :
    val_main_v35 (F := Ideal) x0 x1 x2 x3 x4 x5 x6 x7 x8 x29 x30 = fun i =>
      Cert.Spec.sageDiv (Ideal.ofBits .f32 0x00000000#32) (Ideal.ofBits .f32 0x3F800000#32)
        (fun (r : Fin 20000) (k : Fin 128) => (val_main_v19 (F := Ideal) x0 x2 x3 x29 x30) (ix2 r k))
        (fun (r : Fin 20000) => (val_main_v23 (F := Ideal) x30) (ix1 r))
        (fun (r : Fin 20000) (k : Fin 128) => (val_main_v9 (F := Ideal) x1 x4 x5) (ix2 r k))
        (fun (k : Fin 128) (q : Fin 128) => x6 (ix2 k q)) (fun (q : Fin 128) => x7 (ix1 q))
        (fun (k : Fin 128) (q : Fin 128) => x8 (ix2 k q)) (i 0) (i 1) := by
  funext i
  obtain ⟨r, q, rfl⟩ : ∃ (r : Fin 20000) (q : Fin 128), i = ix2 r q := ⟨i 0, i 1, eq_ix2 i⟩
  -- the contracted operands' indices of the two products, and the bias index after its two broadcasts
  have hl : ∀ k : Fin 128, lidx_main_v29 (ix2 r q) k = ix2 r k := fun k =>
    funext fun a => Fin.ext (by match a with | ⟨0, _⟩ => rfl | ⟨1, _⟩ => rfl)
  have hr : ∀ k : Fin 128, ridx_main_v29 (ix2 r q) k = ix2 k q := fun k =>
    funext fun a => Fin.ext (by match a with | ⟨0, _⟩ => rfl | ⟨1, _⟩ => rfl)
  have hl' : ∀ k : Fin 128, lidx_main_v33 (ix2 r q) k = ix2 r k := fun k =>
    funext fun a => Fin.ext (by match a with | ⟨0, _⟩ => rfl | ⟨1, _⟩ => rfl)
  have hr' : ∀ k : Fin 128, ridx_main_v33 (ix2 r q) k = ix2 k q := fun k =>
    funext fun a => Fin.ext (by match a with | ⟨0, _⟩ => rfl | ⟨1, _⟩ => rfl)
  have hb : idx_main_v30 (idx_main_v31 (ix2 r q)) = ix1 q :=
    funext fun a => Fin.ext (by match a with | ⟨0, _⟩ => rfl)
  rw [val_main_v35_apply, val_main_v34_apply, val_main_v32_apply, val_main_v29_apply, val_main_v31_apply,
    val_main_v30_apply, val_main_v33_apply, val_main_call2_v0_apply, val_main_call2_cst_apply]
  simp only [hl, hr, hl', hr', hb, main_v28_at, Ideal.maximumf_def, Ideal.addf_def, Ideal.ofBits_def]
  generalize val_main_v19 (F := Ideal) x0 x2 x3 x29 x30 = a
  generalize val_main_v23 (F := Ideal) x30 = c
  generalize val_main_v9 (F := Ideal) x1 x4 x5 = xd
  rfl

end Cert.ReferenceIdeal.RefLayers

end
-- ==== Proof.RefSage2.lean ====
/-
  Graph layer 2 of the reference (user rows from their movie neighbours), row by row. The reference clips the scatter-added neighbour count at one,
  broadcasts it to a column and then across the 128 lanes, divides the scatter-added neighbour sum by it entry by
  entry, multiplies by the left weight, adds the bias row (broadcast to one row, then to every row), adds the product
  of the destination rows with the right weight, and takes the maximum with a broadcast zero. Read at an index
  `(r, q)`: the two broadcasts of the count read the clipped count of row `r` whatever the lane, the quotient is
  `sum (r, k) / max (count r) 1`, each product is the sum over the contracted axis, and the bias is read at `q`.
  That is `sageDiv` at `(r, q)`. The neighbour sum and the neighbour count stay the scatter-adds they are.
-/
import proofs.«129102_j79517024519044_2_alg».proof.Proof.Gen.ReferenceIdeal.Read
import proofs.«129102_j79517024519044_2_alg».proof.Proof.Spec
import Idealize.ShloMosaic.Lib.ValueIdx
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The count broadcast across the lanes reads, at `(r, k)`, the count of row `r` clipped at one. -/
theorem main_v53_at (x29 : (⟨S1000000, .i32⟩ : BufTy).Contents (Elt Ideal)) (r : Fin 100000) (k : Fin 128) :
    val_main_v53 (F := Ideal) x29 (ix2 r k) =
      max (val_main_v49 (F := Ideal) x29 (ix1 r)) (Ideal.ofBits .f32 0x3F800000#32) := by
  have hc : idx_main_v52 (idx_main_v53 (ix2 r k)) = ix1 r :=
    funext fun a => Fin.ext (by match a with | ⟨0, _⟩ => rfl)
  rw [val_main_v53_apply, val_main_v52_apply, val_main_v51_apply, val_main_v50_apply,
    val_main_cst_9_apply, hc]
  simp only [Ideal.maximumf_def, Ideal.ofBits_def]

/-- The mean at `(r, k)`: the neighbour sum divided by the clipped count of the row. -/
theorem main_v54_at (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x29 x30 : (⟨S1000000, .i32⟩ : BufTy).Contents (Elt Ideal)) (r : Fin 100000) (k : Fin 128) :
    val_main_v54 (F := Ideal) x0 x1 x2 x3 x4 x5 x6 x7 x8 x29 x30 (ix2 r k) =
      Ideal.div (val_main_v45 (F := Ideal) x0 x1 x2 x3 x4 x5 x6 x7 x8 x29 x30 (ix2 r k))
        (max (val_main_v49 (F := Ideal) x29 (ix1 r)) (Ideal.ofBits .f32 0x3F800000#32)) := by
  rw [val_main_v54_apply, main_v53_at]
  simp only [Ideal.hostDivf_def]

/-- Graph layer 2: `main_v61 = max (((sum / max count 1) · Wl + bl) + xd · Wr) 0`, entry by entry. -/
theorem main_v61_eq (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x29 x30 : (⟨S1000000, .i32⟩ : BufTy).Contents (Elt Ideal)) :
    val_main_v61 (F := Ideal) x0 x1 x2 x3 x4 x5 x6 x7 x8 x9 x10 x11 x29 x30 = fun i =>
      Cert.Spec.sageDiv (Ideal.ofBits .f32 0x00000000#32) (Ideal.ofBits .f32 0x3F800000#32)
        (fun (r : Fin 100000) (k : Fin 128) => (val_main_v45 (F := Ideal) x0 x1 x2 x3 x4 x5 x6 x7 x8 x29 x30) (ix2 r k))
        (fun (r : Fin 100000) => (val_main_v49 (F := Ideal) x29) (ix1 r))
        (fun (r : Fin 100000) (k : Fin 128) => (val_main_v4 (F := Ideal) x0 x2 x3) (ix2 r k))
        (fun (k : Fin 128) (q : Fin 128) => x9 (ix2 k q)) (fun (q : Fin 128) => x10 (ix1 q))
        (fun (k : Fin 128) (q : Fin 128) => x11 (ix2 k q)) (i 0) (i 1) := by
  funext i
  obtain ⟨r, q, rfl⟩ : ∃ (r : Fin 100000) (q : Fin 128), i = ix2 r q := ⟨i 0, i 1, eq_ix2 i⟩
  -- the contracted operands' indices of the two products, and the bias index after its two broadcasts
  have hl : ∀ k : Fin 128, lidx_main_v55 (ix2 r q) k = ix2 r k := fun k =>
    funext fun a => Fin.ext (by match a with | ⟨0, _⟩ => rfl | ⟨1, _⟩ => rfl)
  have hr : ∀ k : Fin 128, ridx_main_v55 (ix2 r q) k = ix2 k q := fun k =>
    funext fun a => Fin.ext (by match a with | ⟨0, _⟩ => rfl | ⟨1, _⟩ => rfl)
  have hl' : ∀ k : Fin 128, lidx_main_v59 (ix2 r q) k = ix2 r k := fun k =>
    funext fun a => Fin.ext (by match a with | ⟨0, _⟩ => rfl | ⟨1, _⟩ => rfl)
  have hr' : ∀ k : Fin 128, ridx_main_v59 (ix2 r q) k = ix2 k q := fun k =>
    funext fun a => Fin.ext (by match a with | ⟨0, _⟩ => rfl | ⟨1, _⟩ => rfl)
  have hb : idx_main_v56 (idx_main_v57 (ix2 r q)) = ix1 q :=
    funext fun a => Fin.ext (by match a with | ⟨0, _⟩ => rfl)
  rw [val_main_v61_apply, val_main_v60_apply, val_main_v58_apply, val_main_v55_apply, val_main_v57_apply,
    val_main_v56_apply, val_main_v59_apply, val_main_call3_v0_apply, val_main_call3_cst_apply]
  simp only [hl, hr, hl', hr', hb, main_v54_at, Ideal.maximumf_def, Ideal.addf_def, Ideal.ofBits_def]
  generalize val_main_v45 (F := Ideal) x0 x1 x2 x3 x4 x5 x6 x7 x8 x29 x30 = a
  generalize val_main_v49 (F := Ideal) x29 = c
  generalize val_main_v4 (F := Ideal) x0 x2 x3 = xd
  rfl

end Cert.ReferenceIdeal.RefLayers

end
-- ==== Proof.RefSage3.lean ====
/-
  Graph layer 3 of the reference (movie rows from their user neighbours, second round), row by row. The reference clips the scatter-added neighbour count at one,
  broadcasts it to a column and then across the 128 lanes, divides the scatter-added neighbour sum by it entry by
  entry, multiplies by the left weight, adds the bias row (broadcast to one row, then to every row), adds the product
  of the destination rows with the right weight, and takes the maximum with a broadcast zero. Read at an index
  `(r, q)`: the two broadcasts of the count read the clipped count of row `r` whatever the lane, the quotient is
  `sum (r, k) / max (count r) 1`, each product is the sum over the contracted axis, and the bias is read at `q`.
  That is `sageDiv` at `(r, q)`. The neighbour sum and the neighbour count stay the scatter-adds they are.
-/
import proofs.«129102_j79517024519044_2_alg».proof.Proof.Gen.ReferenceIdeal.Read
import proofs.«129102_j79517024519044_2_alg».proof.Proof.Spec
import Idealize.ShloMosaic.Lib.ValueIdx
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The count broadcast across the lanes reads, at `(r, k)`, the count of row `r` clipped at one. -/
theorem main_v79_at (x30 : (⟨S1000000, .i32⟩ : BufTy).Contents (Elt Ideal)) (r : Fin 20000) (k : Fin 128) :
    val_main_v79 (F := Ideal) x30 (ix2 r k) =
      max (val_main_v75 (F := Ideal) x30 (ix1 r)) (Ideal.ofBits .f32 0x3F800000#32) := by
  have hc : idx_main_v78 (idx_main_v79 (ix2 r k)) = ix1 r :=
    funext fun a => Fin.ext (by match a with | ⟨0, _⟩ => rfl)
  rw [val_main_v79_apply, val_main_v78_apply, val_main_v77_apply, val_main_v76_apply,
    val_main_cst_15_apply, hc]
  simp only [Ideal.maximumf_def, Ideal.ofBits_def]

/-- The mean at `(r, k)`: the neighbour sum divided by the clipped count of the row. -/
theorem main_v80_at (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x29 x30 : (⟨S1000000, .i32⟩ : BufTy).Contents (Elt Ideal)) (r : Fin 20000) (k : Fin 128) :
    val_main_v80 (F := Ideal) x0 x1 x2 x3 x4 x5 x6 x7 x8 x9 x10 x11 x29 x30 (ix2 r k) =
      Ideal.div (val_main_v71 (F := Ideal) x0 x1 x2 x3 x4 x5 x6 x7 x8 x9 x10 x11 x29 x30 (ix2 r k))
        (max (val_main_v75 (F := Ideal) x30 (ix1 r)) (Ideal.ofBits .f32 0x3F800000#32)) := by
  rw [val_main_v80_apply, main_v79_at]
  simp only [Ideal.hostDivf_def]

/-- Graph layer 3: `main_v87 = max (((sum / max count 1) · Wl + bl) + xd · Wr) 0`, entry by entry. -/
theorem main_v87_eq (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S128x128, .f32⟩ : BufTy).Contents (Elt Ideal)) (x29 x30 : (⟨S1000000, .i32⟩ : BufTy).Contents (Elt Ideal)) :
    val_main_v87 (F := Ideal) x0 x1 x2 x3 x4 x5 x6 x7 x8 x9 x10 x11 x12 x13 x14 x29 x30 = fun i =>
      Cert.Spec.sageDiv (Ideal.ofBits .f32 0x00000000#32) (Ideal.ofBits .f32 0x3F800000#32)
        (fun (r : Fin 20000) (k : Fin 128) => (val_main_v71 (F := Ideal) x0 x1 x2 x3 x4 x5 x6 x7 x8 x9 x10 x11 x29 x30) (ix2 r k))
        (fun (r : Fin 20000) => (val_main_v75 (F := Ideal) x30) (ix1 r))
        (fun (r : Fin 20000) (k : Fin 128) => (val_main_v35 (F := Ideal) x0 x1 x2 x3 x4 x5 x6 x7 x8 x29 x30) (ix2 r k))
        (fun (k : Fin 128) (q : Fin 128) => x12 (ix2 k q)) (fun (q : Fin 128) => x13 (ix1 q))
        (fun (k : Fin 128) (q : Fin 128) => x14 (ix2 k q)) (i 0) (i 1) := by
  funext i
  obtain ⟨r, q, rfl⟩ : ∃ (r : Fin 20000) (q : Fin 128), i = ix2 r q := ⟨i 0, i 1, eq_ix2 i⟩
  -- the contracted operands' indices of the two products, and the bias index after its two broadcasts
  have hl : ∀ k : Fin 128, lidx_main_v81 (ix2 r q) k = ix2 r k := fun k =>
    funext fun a => Fin.ext (by match a with | ⟨0, _⟩ => rfl | ⟨1, _⟩ => rfl)
  have hr : ∀ k : Fin 128, ridx_main_v81 (ix2 r q) k = ix2 k q := fun k =>
    funext fun a => Fin.ext (by match a with | ⟨0, _⟩ => rfl | ⟨1, _⟩ => rfl)
  have hl' : ∀ k : Fin 128, lidx_main_v85 (ix2 r q) k = ix2 r k := fun k =>
    funext fun a => Fin.ext (by match a with | ⟨0, _⟩ => rfl | ⟨1, _⟩ => rfl)
  have hr' : ∀ k : Fin 128, ridx_main_v85 (ix2 r q) k = ix2 k q := fun k =>
    funext fun a => Fin.ext (by match a with | ⟨0, _⟩ => rfl | ⟨1, _⟩ => rfl)
  have hb : idx_main_v82 (idx_main_v83 (ix2 r q)) = ix1 q :=
    funext fun a => Fin.ext (by match a with | ⟨0, _⟩ => rfl)
  rw [val_main_v87_apply, val_main_v86_apply, val_main_v84_apply, val_main_v81_apply, val_main_v83_apply,
    val_main_v82_apply, val_main_v85_apply, val_main_call4_v0_apply, val_main_call4_cst_apply]
  simp only [hl, hr, hl', hr', hb, main_v80_at, Ideal.maximumf_def, Ideal.addf_def, Ideal.ofBits_def]
  generalize val_main_v71 (F := Ideal) x0 x1 x2 x3 x4 x5 x6 x7 x8 x9 x10 x11 x29 x30 = a
  generalize val_main_v75 (F := Ideal) x30 = c
  generalize val_main_v35 (F := Ideal) x0 x1 x2 x3 x4 x5 x6 x7 x8 x29 x30 = xd
  rfl

end Cert.ReferenceIdeal.RefLayers

end
-- ==== Proof.RefSage4.lean ====
/-
  Graph layer 4 of the reference (user rows from their movie neighbours, second round), row by row. The reference clips the scatter-added neighbour count at one,
  broadcasts it to a column and then across the 128 lanes, divides the scatter-added neighbour sum by it entry by
  entry, multiplies by the left weight, adds the bias row (broadcast to one row, then to every row), adds the product
  of the destination rows with the right weight, and takes the maximum with a broadcast zero. Read at an index
  `(r, q)`: the two broadcasts of the count read the clipped count of row `r` whatever the lane, the quotient is
  `sum (r, k) / max (count r) 1`, each product is the sum over the contracted axis, and the bias is read at `q`.
  That is `sageDiv` at `(r, q)`. The neighbour sum and the neighbour count stay the scatter-adds they are.
-/
import proofs.«129102_j79517024519044_2_alg».proof.Proof.Gen.ReferenceIdeal.Read
import proofs.«129102_j79517024519044_2_alg».proof.Proof.Spec
import Idealize.ShloMosaic.Lib.ValueIdx
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The count broadcast across the lanes reads, at `(r, k)`, the count of row `r` clipped at one. -/
theorem main_v105_at (x29 : (⟨S1000000, .i32⟩ : BufTy).Contents (Elt Ideal)) (r : Fin 100000) (k : Fin 128) :
    val_main_v105 (F := Ideal) x29 (ix2 r k) =
      max (val_main_v101 (F := Ideal) x29 (ix1 r)) (Ideal.ofBits .f32 0x3F800000#32) := by
  have hc : idx_main_v104 (idx_main_v105 (ix2 r k)) = ix1 r :=
    funext fun a => Fin.ext (by match a with | ⟨0, _⟩ => rfl)
  rw [val_main_v105_apply, val_main_v104_apply, val_main_v103_apply, val_main_v102_apply,
    val_main_cst_21_apply, hc]
  simp only [Ideal.maximumf_def, Ideal.ofBits_def]

/-- The mean at `(r, k)`: the neighbour sum divided by the clipped count of the row. -/
theorem main_v106_at (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S128x128, .f32⟩ : BufTy).Contents (Elt Ideal)) (x29 x30 : (⟨S1000000, .i32⟩ : BufTy).Contents (Elt Ideal)) (r : Fin 100000) (k : Fin 128) :
    val_main_v106 (F := Ideal) x0 x1 x2 x3 x4 x5 x6 x7 x8 x9 x10 x11 x12 x13 x14 x29 x30 (ix2 r k) =
      Ideal.div (val_main_v97 (F := Ideal) x0 x1 x2 x3 x4 x5 x6 x7 x8 x9 x10 x11 x12 x13 x14 x29 x30 (ix2 r k))
        (max (val_main_v101 (F := Ideal) x29 (ix1 r)) (Ideal.ofBits .f32 0x3F800000#32)) := by
  rw [val_main_v106_apply, main_v105_at]
  simp only [Ideal.hostDivf_def]

/-- Graph layer 4: `main_v113 = max (((sum / max count 1) · Wl + bl) + xd · Wr) 0`, entry by entry. -/
theorem main_v113_eq (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 : (⟨S128x128, .f32⟩ : BufTy).Contents (Elt Ideal)) (x29 x30 : (⟨S1000000, .i32⟩ : BufTy).Contents (Elt Ideal)) :
    val_main_v113 (F := Ideal) x0 x1 x2 x3 x4 x5 x6 x7 x8 x9 x10 x11 x12 x13 x14 x15 x16 x17 x29 x30 = fun i =>
      Cert.Spec.sageDiv (Ideal.ofBits .f32 0x00000000#32) (Ideal.ofBits .f32 0x3F800000#32)
        (fun (r : Fin 100000) (k : Fin 128) => (val_main_v97 (F := Ideal) x0 x1 x2 x3 x4 x5 x6 x7 x8 x9 x10 x11 x12 x13 x14 x29 x30) (ix2 r k))
        (fun (r : Fin 100000) => (val_main_v101 (F := Ideal) x29) (ix1 r))
        (fun (r : Fin 100000) (k : Fin 128) => (val_main_v61 (F := Ideal) x0 x1 x2 x3 x4 x5 x6 x7 x8 x9 x10 x11 x29 x30) (ix2 r k))
        (fun (k : Fin 128) (q : Fin 128) => x15 (ix2 k q)) (fun (q : Fin 128) => x16 (ix1 q))
        (fun (k : Fin 128) (q : Fin 128) => x17 (ix2 k q)) (i 0) (i 1) := by
  funext i
  obtain ⟨r, q, rfl⟩ : ∃ (r : Fin 100000) (q : Fin 128), i = ix2 r q := ⟨i 0, i 1, eq_ix2 i⟩
  -- the contracted operands' indices of the two products, and the bias index after its two broadcasts
  have hl : ∀ k : Fin 128, lidx_main_v107 (ix2 r q) k = ix2 r k := fun k =>
    funext fun a => Fin.ext (by match a with | ⟨0, _⟩ => rfl | ⟨1, _⟩ => rfl)
  have hr : ∀ k : Fin 128, ridx_main_v107 (ix2 r q) k = ix2 k q := fun k =>
    funext fun a => Fin.ext (by match a with | ⟨0, _⟩ => rfl | ⟨1, _⟩ => rfl)
  have hl' : ∀ k : Fin 128, lidx_main_v111 (ix2 r q) k = ix2 r k := fun k =>
    funext fun a => Fin.ext (by match a with | ⟨0, _⟩ => rfl | ⟨1, _⟩ => rfl)
  have hr' : ∀ k : Fin 128, ridx_main_v111 (ix2 r q) k = ix2 k q := fun k =>
    funext fun a => Fin.ext (by match a with | ⟨0, _⟩ => rfl | ⟨1, _⟩ => rfl)
  have hb : idx_main_v108 (idx_main_v109 (ix2 r q)) = ix1 q :=
    funext fun a => Fin.ext (by match a with | ⟨0, _⟩ => rfl)
  rw [val_main_v113_apply, val_main_v112_apply, val_main_v110_apply, val_main_v107_apply, val_main_v109_apply,
    val_main_v108_apply, val_main_v111_apply, val_main_call5_v0_apply, val_main_call5_cst_apply]
  simp only [hl, hr, hl', hr', hb, main_v106_at, Ideal.maximumf_def, Ideal.addf_def, Ideal.ofBits_def]
  generalize val_main_v97 (F := Ideal) x0 x1 x2 x3 x4 x5 x6 x7 x8 x9 x10 x11 x12 x13 x14 x29 x30 = a
  generalize val_main_v101 (F := Ideal) x29 = c
  generalize val_main_v61 (F := Ideal) x0 x1 x2 x3 x4 x5 x6 x7 x8 x9 x10 x11 x29 x30 = xd
  rfl

end Cert.ReferenceIdeal.RefLayers

end
-- ==== Proof.RefSage5.lean ====
/-
  Graph layer 5 of the reference (user rows from their user neighbours), row by row. The reference clips the scatter-added neighbour count at one,
  broadcasts it to a column and then across the 128 lanes, divides the scatter-added neighbour sum by it entry by
  entry, multiplies by the left weight, adds the bias row (broadcast to one row, then to every row), adds the product
  of the destination rows with the right weight, and takes the maximum with a broadcast zero. Read at an index
  `(r, q)`: the two broadcasts of the count read the clipped count of row `r` whatever the lane, the quotient is
  `sum (r, k) / max (count r) 1`, each product is the sum over the contracted axis, and the bias is read at `q`.
  That is `sageDiv` at `(r, q)`. The neighbour sum and the neighbour count stay the scatter-adds they are.
-/
import proofs.«129102_j79517024519044_2_alg».proof.Proof.Gen.ReferenceIdeal.Read
import proofs.«129102_j79517024519044_2_alg».proof.Proof.Spec
import Idealize.ShloMosaic.Lib.ValueIdx
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The count broadcast across the lanes reads, at `(r, k)`, the count of row `r` clipped at one. -/
theorem main_v131_at (x32 : (⟨S500000, .i32⟩ : BufTy).Contents (Elt Ideal)) (r : Fin 100000) (k : Fin 128) :
    val_main_v131 (F := Ideal) x32 (ix2 r k) =
      max (val_main_v127 (F := Ideal) x32 (ix1 r)) (Ideal.ofBits .f32 0x3F800000#32) := by
  have hc : idx_main_v130 (idx_main_v131 (ix2 r k)) = ix1 r :=
    funext fun a => Fin.ext (by match a with | ⟨0, _⟩ => rfl)
  rw [val_main_v131_apply, val_main_v130_apply, val_main_v129_apply, val_main_v128_apply,
    val_main_cst_27_apply, hc]
  simp only [Ideal.maximumf_def, Ideal.ofBits_def]

/-- The mean at `(r, k)`: the neighbour sum divided by the clipped count of the row. -/
theorem main_v132_at (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 : (⟨S128x128, .f32⟩ : BufTy).Contents (Elt Ideal)) (x29 x30 : (⟨S1000000, .i32⟩ : BufTy).Contents (Elt Ideal)) (x31 x32 : (⟨S500000, .i32⟩ : BufTy).Contents (Elt Ideal)) (r : Fin 100000) (k : Fin 128) :
    val_main_v132 (F := Ideal) x0 x1 x2 x3 x4 x5 x6 x7 x8 x9 x10 x11 x12 x13 x14 x15 x16 x17 x29 x30 x31 x32 (ix2 r k) =
      Ideal.div (val_main_v123 (F := Ideal) x0 x1 x2 x3 x4 x5 x6 x7 x8 x9 x10 x11 x12 x13 x14 x15 x16 x17 x29 x30 x31 x32 (ix2 r k))
        (max (val_main_v127 (F := Ideal) x32 (ix1 r)) (Ideal.ofBits .f32 0x3F800000#32)) := by
  rw [val_main_v132_apply, main_v131_at]
  simp only [Ideal.hostDivf_def]

/-- Graph layer 5: `main_v139 = max (((sum / max count 1) · Wl + bl) + xd · Wr) 0`, entry by entry. -/
theorem main_v139_eq (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) (x20 : (⟨S128x128, .f32⟩ : BufTy).Contents (Elt Ideal)) (x29 x30 : (⟨S1000000, .i32⟩ : BufTy).Contents (Elt Ideal)) (x31 x32 : (⟨S500000, .i32⟩ : BufTy).Contents (Elt Ideal)) :
    val_main_v139 (F := Ideal) x0 x1 x2 x3 x4 x5 x6 x7 x8 x9 x10 x11 x12 x13 x14 x15 x16 x17 x18 x19 x20 x29 x30 x31 x32 = fun i =>
      Cert.Spec.sageDiv (Ideal.ofBits .f32 0x00000000#32) (Ideal.ofBits .f32 0x3F800000#32)
        (fun (r : Fin 100000) (k : Fin 128) => (val_main_v123 (F := Ideal) x0 x1 x2 x3 x4 x5 x6 x7 x8 x9 x10 x11 x12 x13 x14 x15 x16 x17 x29 x30 x31 x32) (ix2 r k))
        (fun (r : Fin 100000) => (val_main_v127 (F := Ideal) x32) (ix1 r))
        (fun (r : Fin 100000) (k : Fin 128) => (val_main_v113 (F := Ideal) x0 x1 x2 x3 x4 x5 x6 x7 x8 x9 x10 x11 x12 x13 x14 x15 x16 x17 x29 x30) (ix2 r k))
        (fun (k : Fin 128) (q : Fin 128) => x18 (ix2 k q)) (fun (q : Fin 128) => x19 (ix1 q))
        (fun (k : Fin 128) (q : Fin 128) => x20 (ix2 k q)) (i 0) (i 1) := by
  funext i
  obtain ⟨r, q, rfl⟩ : ∃ (r : Fin 100000) (q : Fin 128), i = ix2 r q := ⟨i 0, i 1, eq_ix2 i⟩
  -- the contracted operands' indices of the two products, and the bias index after its two broadcasts
  have hl : ∀ k : Fin 128, lidx_main_v133 (ix2 r q) k = ix2 r k := fun k =>
    funext fun a => Fin.ext (by match a with | ⟨0, _⟩ => rfl | ⟨1, _⟩ => rfl)
  have hr : ∀ k : Fin 128, ridx_main_v133 (ix2 r q) k = ix2 k q := fun k =>
    funext fun a => Fin.ext (by match a with | ⟨0, _⟩ => rfl | ⟨1, _⟩ => rfl)
  have hl' : ∀ k : Fin 128, lidx_main_v137 (ix2 r q) k = ix2 r k := fun k =>
    funext fun a => Fin.ext (by match a with | ⟨0, _⟩ => rfl | ⟨1, _⟩ => rfl)
  have hr' : ∀ k : Fin 128, ridx_main_v137 (ix2 r q) k = ix2 k q := fun k =>
    funext fun a => Fin.ext (by match a with | ⟨0, _⟩ => rfl | ⟨1, _⟩ => rfl)
  have hb : idx_main_v134 (idx_main_v135 (ix2 r q)) = ix1 q :=
    funext fun a => Fin.ext (by match a with | ⟨0, _⟩ => rfl)
  rw [val_main_v139_apply, val_main_v138_apply, val_main_v136_apply, val_main_v133_apply, val_main_v135_apply,
    val_main_v134_apply, val_main_v137_apply, val_main_call6_v0_apply, val_main_call6_cst_apply]
  simp only [hl, hr, hl', hr', hb, main_v132_at, Ideal.maximumf_def, Ideal.addf_def, Ideal.ofBits_def]
  generalize val_main_v123 (F := Ideal) x0 x1 x2 x3 x4 x5 x6 x7 x8 x9 x10 x11 x12 x13 x14 x15 x16 x17 x29 x30 x31 x32 = a
  generalize val_main_v127 (F := Ideal) x32 = c
  generalize val_main_v113 (F := Ideal) x0 x1 x2 x3 x4 x5 x6 x7 x8 x9 x10 x11 x12 x13 x14 x15 x16 x17 x29 x30 = xd
  rfl

end Cert.ReferenceIdeal.RefLayers

end
-- ==== Proof.RefScorer.lean ====
/-
  The edge scorer of the reference, edge by edge. The two endpoint embeddings of an edge (two gathers, kept as they
  are) are joined along the lanes into a row of 256; the reference multiplies by the 256-row weight, adds a bias row,
  normalises lane by lane `(h - μ) · (σ² + ε)^(-1/2) · γ + β` (each of the five lane vectors broadcast to one row and
  then to every row), rectifies, multiplies by the one-column weight, adds the one-entry bias, and forms
  `1 / (1 + e^(-x))`, reshapes the column to a vector, multiplies by four and adds one.
  Read at an edge `r`: a joined row reads its first 128 lanes from the first embedding and its last 128 from the
  second; every broadcast lane vector is read at the lane; the reshape `[n, 1] → [n]` reads row `r`, column `0`.
  That is `predictCat` at `r`.
-/
import proofs.«129102_j79517024519044_2_alg».proof.Proof.Gen.ReferenceIdeal.Read
import proofs.«129102_j79517024519044_2_alg».proof.Proof.Spec
import Idealize.ShloMosaic.Lib.ValueIdx
import Idealize.ShloMosaic.Lib.Pipeline.Value
import Idealize.ShloMosaic.PureOps.Ideal

noncomputable section

namespace Cert.ReferenceIdeal.RefLayers

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The joined row reads its first 128 lanes from the first endpoint's embedding. -/
theorem main_v154_left (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) (x20 : (⟨S128x128, .f32⟩ : BufTy).Contents (Elt Ideal)) (x29 x30 : (⟨S1000000, .i32⟩ : BufTy).Contents (Elt Ideal)) (x31 x32 : (⟨S500000, .i32⟩ : BufTy).Contents (Elt Ideal)) (r : Fin 1000000) (k : Fin 128) :
    val_main_v154 (F := Ideal) x0 x1 x2 x3 x4 x5 x6 x7 x8 x9 x10 x11 x12 x13 x14 x15 x16 x17 x18 x19 x20 x29 x30 x31 x32 (ix2 r (Fin.castAdd 128 k)) =
      val_main_v146 (F := Ideal) x0 x1 x2 x3 x4 x5 x6 x7 x8 x9 x10 x11 x12 x13 x14 x15 x16 x17 x18 x19 x20 x29 x30 x31 x32 (ix2 r k) := by
  unfold val_main_v154
  generalize val_main_v146 (F := Ideal) x0 x1 x2 x3 x4 x5 x6 x7 x8 x9 x10 x11 x12 x13 x14 x15 x16 x17 x18 x19 x20 x29 x30 x31 x32 = g₁
  generalize val_main_v153 (F := Ideal) x0 x1 x2 x3 x4 x5 x6 x7 x8 x9 x10 x11 x12 x13 x14 x29 x30 = g₂
  exact concatenate_pair_apply_left (1 : Fin S1000000x256.rank) g₁ g₂
    concatenates_S1000000x128_S1000000x128_S1000000x256_d1 (ix2 r (Fin.castAdd 128 k)) rfl (ix2 r k)
    (fun b => by match b with | ⟨0, _⟩ => rfl | ⟨1, _⟩ => rfl)

/-- The joined row reads its last 128 lanes from the second endpoint's embedding. -/
theorem main_v154_right (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) (x20 : (⟨S128x128, .f32⟩ : BufTy).Contents (Elt Ideal)) (x29 x30 : (⟨S1000000, .i32⟩ : BufTy).Contents (Elt Ideal)) (x31 x32 : (⟨S500000, .i32⟩ : BufTy).Contents (Elt Ideal)) (r : Fin 1000000) (k : Fin 128) :
    val_main_v154 (F := Ideal) x0 x1 x2 x3 x4 x5 x6 x7 x8 x9 x10 x11 x12 x13 x14 x15 x16 x17 x18 x19 x20 x29 x30 x31 x32 (ix2 r (Fin.natAdd 128 k)) =
      val_main_v153 (F := Ideal) x0 x1 x2 x3 x4 x5 x6 x7 x8 x9 x10 x11 x12 x13 x14 x29 x30 (ix2 r k) := by
  unfold val_main_v154
  generalize val_main_v146 (F := Ideal) x0 x1 x2 x3 x4 x5 x6 x7 x8 x9 x10 x11 x12 x13 x14 x15 x16 x17 x18 x19 x20 x29 x30 x31 x32 = g₁
  generalize val_main_v153 (F := Ideal) x0 x1 x2 x3 x4 x5 x6 x7 x8 x9 x10 x11 x12 x13 x14 x29 x30 = g₂
  exact concatenate_pair_apply_right (1 : Fin S1000000x256.rank) g₁ g₂
    concatenates_S1000000x128_S1000000x128_S1000000x256_d1 (ix2 r (Fin.natAdd 128 k)) rfl rfl (ix2 r k)
    (fun b => by
      match b with
      | ⟨0, _⟩ => intro _; rfl
      | ⟨1, _⟩ => intro h; exact absurd rfl h)
    (by show k.val + 128 = 128 + k.val; omega)

/-- The scorer's rectified hidden row at edge `r`, lane `q`: the normalised affine image of the joined row. -/
theorem main_v174_at (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S256x128, .f32⟩ : BufTy).Contents (Elt Ideal)) (x22 x23 x24 x25 x26 : (⟨S128, .f32⟩ : BufTy).Contents (Elt Ideal)) (x29 x30 : (⟨S1000000, .i32⟩ : BufTy).Contents (Elt Ideal)) (x31 x32 : (⟨S500000, .i32⟩ : BufTy).Contents (Elt Ideal)) (r : Fin 1000000) (q : Fin 128) :
    val_main_v174 (F := Ideal) x0 x1 x2 x3 x4 x5 x6 x7 x8 x9 x10 x11 x12 x13 x14 x15 x16 x17 x18 x19 x20 x21 x22 x23 x24 x25 x26 x29 x30 x31 x32 (ix2 r q) =
      Cert.Spec.normRelu (Ideal.ofBits .f32 0x00000000#32) (Ideal.ofBits .f32 0x3727C5AC#32)
        (fun (q : Fin 128) => x23 (ix1 q)) (fun (q : Fin 128) => x24 (ix1 q)) (fun (q : Fin 128) => x25 (ix1 q))
        (fun (q : Fin 128) => x26 (ix1 q))
        (fun (q : Fin 128) => (∑ k : Fin 256, (val_main_v154 (F := Ideal) x0 x1 x2 x3 x4 x5 x6 x7 x8 x9 x10 x11 x12 x13 x14 x15 x16 x17 x18 x19 x20 x29 x30 x31 x32) (ix2 r k) * x21 (ix2 k q)) + x22 (ix1 q)) q := by
  -- the contracted operands' indices, and each lane vector's index after its two broadcasts
  have hl : ∀ k : Fin 256, lidx_main_v155 (ix2 r q) k = ix2 r k := fun k => funext fun a => Fin.ext (by match a with | ⟨0, _⟩ => rfl | ⟨1, _⟩ => rfl)
  have hr : ∀ k : Fin 256, ridx_main_v155 (ix2 r q) k = ix2 k q := fun k => funext fun a => Fin.ext (by match a with | ⟨0, _⟩ => rfl | ⟨1, _⟩ => rfl)
  have hb1 : idx_main_v156 (idx_main_v157 (ix2 r q)) = ix1 q := funext fun a => Fin.ext (by match a with | ⟨0, _⟩ => rfl)
  have hmu : idx_main_v159 (idx_main_v160 (ix2 r q)) = ix1 q := funext fun a => Fin.ext (by match a with | ⟨0, _⟩ => rfl)
  have hsd : idx_main_v165 (idx_main_v166 (ix2 r q)) = ix1 q := funext fun a => Fin.ext (by match a with | ⟨0, _⟩ => rfl)
  have hga : idx_main_v168 (idx_main_v169 (ix2 r q)) = ix1 q := funext fun a => Fin.ext (by match a with | ⟨0, _⟩ => rfl)
  have hbe : idx_main_v171 (idx_main_v172 (ix2 r q)) = ix1 q := funext fun a => Fin.ext (by match a with | ⟨0, _⟩ => rfl)
  rw [val_main_v174_apply, val_main_v173_apply, val_main_v170_apply, val_main_v167_apply, val_main_v161_apply,
    val_main_v158_apply, val_main_v155_apply, val_main_v157_apply, val_main_v156_apply, val_main_v160_apply,
    val_main_v159_apply, val_main_v166_apply, val_main_v165_apply, val_main_v164_apply, val_main_v163_apply,
    val_main_v162_apply, val_main_cst_32_apply, val_main_v169_apply, val_main_v168_apply, val_main_v172_apply,
    val_main_v171_apply, val_main_call7_v0_apply, val_main_call7_cst_apply]
  simp only [hl, hr, hb1, hmu, hsd, hga, hbe, Ideal.maximumf_def, Ideal.addf_def, Ideal.subf_def, Ideal.mulf_def,
    Ideal.hostUnary_rsqrt_def, Ideal.ofBits_def]
  generalize val_main_v154 (F := Ideal) x0 x1 x2 x3 x4 x5 x6 x7 x8 x9 x10 x11 x12 x13 x14 x15 x16 x17 x18 x19 x20 x29 x30 x31 x32 = cat
  rfl

/-- The scorer: `main_v189 = 4 · (1 / (1 + e^(-(h · w₂ + b₂)))) + 1` with `h` the rectified hidden row, edge by edge. -/
theorem main_v189_eq (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S256x128, .f32⟩ : BufTy).Contents (Elt Ideal)) (x22 x23 x24 x25 x26 : (⟨S128, .f32⟩ : BufTy).Contents (Elt Ideal)) (x27 : (⟨S128x1, .f32⟩ : BufTy).Contents (Elt Ideal)) (x28 : (⟨S1, .f32⟩ : BufTy).Contents (Elt Ideal)) (x29 x30 : (⟨S1000000, .i32⟩ : BufTy).Contents (Elt Ideal)) (x31 x32 : (⟨S500000, .i32⟩ : BufTy).Contents (Elt Ideal)) :
    val_main_v189 (F := Ideal) x0 x1 x2 x3 x4 x5 x6 x7 x8 x9 x10 x11 x12 x13 x14 x15 x16 x17 x18 x19 x20 x21 x22 x23 x24 x25 x26 x27 x28 x29 x30 x31 x32 = fun i =>
      Cert.Spec.predictCat (Ideal.ofBits .f32 0x00000000#32) (Ideal.ofBits .f32 0x3F800000#32) (Ideal.ofBits .f32 0x40800000#32) (Ideal.ofBits .f32 0x3727C5AC#32)
        (fun (r : Fin 1000000) (k : Fin 256) => (val_main_v154 (F := Ideal) x0 x1 x2 x3 x4 x5 x6 x7 x8 x9 x10 x11 x12 x13 x14 x15 x16 x17 x18 x19 x20 x29 x30 x31 x32) (ix2 r k))
        (fun (k : Fin 256) (q : Fin 128) => x21 (ix2 k q))
        (fun (q : Fin 128) => x22 (ix1 q)) (fun (q : Fin 128) => x23 (ix1 q)) (fun (q : Fin 128) => x24 (ix1 q))
        (fun (q : Fin 128) => x25 (ix1 q)) (fun (q : Fin 128) => x26 (ix1 q))
        (fun (q : Fin 128) => x27 (ix2 q (0 : Fin 1))) (x28 (ix1 (0 : Fin 1))) (i 0) := by
  funext i
  obtain ⟨r, rfl⟩ : ∃ r : Fin 1000000, i = ix1 r := ⟨i 0, eq_ix1 i⟩
  -- the reshape reads row `r`, column `0`; then the contracted operands' indices and the one-entry bias
  have hre : idx_main_v185 (ix1 r) = ix2 r (0 : Fin 1) :=
    funext fun a => Fin.ext (by match a with | ⟨0, _⟩ => exact Nat.div_one _ | ⟨1, _⟩ => rfl)
  have hl : ∀ k : Fin 128, lidx_main_v175 (ix2 r (0 : Fin 1)) k = ix2 r k := fun k => funext fun a => Fin.ext (by match a with | ⟨0, _⟩ => rfl | ⟨1, _⟩ => rfl)
  have hr : ∀ k : Fin 128, ridx_main_v175 (ix2 r (0 : Fin 1)) k = ix2 k (0 : Fin 1) := fun k => funext fun a => Fin.ext (by match a with | ⟨0, _⟩ => rfl | ⟨1, _⟩ => rfl)
  have hb2 : idx_main_v176 (idx_main_v177 (ix2 r (0 : Fin 1))) = ix1 (0 : Fin 1) := funext fun a => Fin.ext (by match a with | ⟨0, _⟩ => rfl)
  rw [val_main_v189_apply, val_main_v187_apply, val_main_v185_apply, hre, val_main_v184_apply, val_main_v183_apply,
    val_main_cst_34_apply, val_main_v182_apply, val_main_v181_apply, val_main_cst_33_apply, val_main_v180_apply,
    val_main_v179_apply, val_main_v178_apply, val_main_v175_apply, val_main_v177_apply, val_main_v176_apply,
    val_main_v186_apply, val_main_cst_35_apply, val_main_v188_apply, val_main_cst_36_apply]
  simp only [hl, hr, hb2, main_v174_at, Ideal.addf_def, Ideal.mulf_def, Ideal.hostDivf_def, Ideal.hostUnary_exp_def,
    Ideal.hostNegf_def, Ideal.negf_def, Ideal.ofBits_def]
  generalize val_main_v154 (F := Ideal) x0 x1 x2 x3 x4 x5 x6 x7 x8 x9 x10 x11 x12 x13 x14 x15 x16 x17 x18 x19 x20 x29 x30 x31 x32 = cat
  rfl

end Cert.ReferenceIdeal.RefLayers

end
-- ==== Proof.Lits.lean ====
/-
  The one float literal of the network whose VALUE matters: the f32 word `0x3F800000` is the number one (sign 0,
  biased exponent 127, zero mantissa). The clip of a neighbour count compares with it and the reciprocal of the
  clipped count has it as numerator, so that the product with that reciprocal is the quotient by the clipped count.
  Every other literal (zero, four, the normalisation's epsilon) occurs as the same word on both sides and is never
  evaluated.
-/
import Idealize.ShloMosaic.PureOps.Ideal
import Idealize.ShloMosaic.PureOps.Ideal.Laws

noncomputable section

namespace Cert.Lits

open Idealize.ShloMosaic

theorem one_f32 : Ideal.ofBits .f32 0x3F800000#32 = (1 : EReal) := by
  simp [Ideal.ofBits, Ideal.ieee]
  rw [← EReal.coe_mul]
  norm_num

end Cert.Lits

end
-- ==== Proof.NetLaws.lean ====
/-
  Four small laws joining two spellings of the same stage of the network.

  * A graph layer: the mean of a node's incoming rows written as the product of their sum with the reciprocal of the
    clipped count equals the quotient of the sum by the clipped count, because the clip's floor is the number one and a
    clipped count is therefore not zero (`layerM_eq`, `layerU_eq`).
  * The neighbour counts are a vector laid out as one column: the column's entry of row `r` is the vector's entry `r`
    (`cntM_apply`, `cntU_apply`, `cntUU_apply`).
  * The scorer's first weight matrix has 256 = 128 + 128 rows; its upper half is rows `0 … 127` and its lower half rows
    `128 … 255` (`topHalf_apply`, `botHalf_apply`).
  * The scorer: the product of the concatenated endpoint rows with the 256-row matrix is the sum of the products of each
    endpoint's row with its half of the matrix, a finite sum over `Fin (128 + 128)` split at 128; and the logistic
    function is its defining quotient (`predictCat_eq_predictSplit`).
-/
import proofs.«129102_j79517024519044_2_alg».proof.Proof.Spec
import proofs.«129102_j79517024519044_2_alg».proof.Proof.KGlue
import proofs.«129102_j79517024519044_2_alg».proof.Proof.Net
import proofs.«129102_j79517024519044_2_alg».proof.Proof.Lits
import Idealize.ShloMosaic.Lib.Pipeline.Value
import Idealize.ShloMosaic.Lib.ValueIdx

noncomputable section

namespace Cert.Net.Laws

open Idealize.ShloMosaic Idealize.ShloMosaic.ValueIdx Cert.KernelIdeal Cert.KernelIdeal.Facts₀ Cert.KernelIdeal.Glue
open scoped BigOperators

/-! ## A graph layer: product with the reciprocal, or quotient -/

/-- The layer over the movies' rows, with the mean as a quotient by the clipped count. -/
theorem layerM_eq (agg : S20000x128.Idx → EReal) (cnt : S20000x1.Idx → EReal) (xd : S20000x128.Idx → EReal)
    (wl : S128x128.Idx → EReal) (bl : S128.Idx → EReal) (wr : S128x128.Idx → EReal) :
    Cert.Net.layerM agg cnt xd wl bl wr = fun i => Cert.Spec.sageDiv Cert.Net.z Cert.Net.one (fun r k => agg (ix2 r k))
      (fun r => cnt (ix2 r 0)) (fun r k => xd (ix2 r k)) (fun k q => wl (ix2 k q)) (fun q => bl (ix1 q))
      (fun k q => wr (ix2 k q)) (i 0) (i 1) := by
  funext i
  unfold Cert.Net.layerM
  have h1 : Cert.Net.one = 1 := Cert.Lits.one_f32
  rw [h1, Cert.Spec.sageMul_eq_sageDiv]

/-- The layer over the users' rows, with the mean as a quotient by the clipped count. -/
theorem layerU_eq (agg : S100000x128.Idx → EReal) (cnt : S100000x1.Idx → EReal) (xd : S100000x128.Idx → EReal)
    (wl : S128x128.Idx → EReal) (bl : S128.Idx → EReal) (wr : S128x128.Idx → EReal) :
    Cert.Net.layerU agg cnt xd wl bl wr = fun i => Cert.Spec.sageDiv Cert.Net.z Cert.Net.one (fun r k => agg (ix2 r k))
      (fun r => cnt (ix2 r 0)) (fun r k => xd (ix2 r k)) (fun k q => wl (ix2 k q)) (fun q => bl (ix1 q))
      (fun k q => wr (ix2 k q)) (i 0) (i 1) := by
  funext i
  unfold Cert.Net.layerU
  have h1 : Cert.Net.one = 1 := Cert.Lits.one_f32
  rw [h1, Cert.Spec.sageMul_eq_sageDiv]

/-! ## The neighbour counts, read at a row -/

/-- A vector of 20000 entries laid out as one column reads, in row `r`, its entry `r`. -/
theorem column20000_apply {α : Type} (v : S20000.Idx → α) (r : Fin 20000) :
    broadcastInDim S20000x1 ![0] bcast_S20000_S20000x1_0 v (ix2 r 0) = v (ix1 r) :=
  broadcastInDim_apply _ bcast_S20000_S20000x1_0 v (ix2 r 0) (ix1 r) (fun a => match a with
    | ⟨0, _⟩ => by show r.val = if (20000 : Nat) = 1 then 0 else r.val; rw [if_neg (by decide)])

/-- A vector of 100000 entries laid out as one column reads, in row `r`, its entry `r`. -/
theorem column100000_apply {α : Type} (v : S100000.Idx → α) (r : Fin 100000) :
    broadcastInDim S100000x1 ![0] bcast_S100000_S100000x1_0 v (ix2 r 0) = v (ix1 r) :=
  broadcastInDim_apply _ bcast_S100000_S100000x1_0 v (ix2 r 0) (ix1 r) (fun a => match a with
    | ⟨0, _⟩ => by show r.val = if (100000 : Nat) = 1 then 0 else r.val; rw [if_neg (by decide)])

/-- The number of rated edges ending at movie `r`: entry `r` of the segment sum of ones over the edges' ends. -/
theorem cntM_apply (dst : Arr Ideal S1000000 .i32) (r : Fin 20000) :
    cntM (F := Ideal) dst (ix2 r 0)
      = (Host.scatterAdd scatter_S20000_S1000000x1_S1000000_n_0_0_1
          (broadcastInDim S20000 ![] bcast_S_S20000 (constant (F := Ideal) S_ .f32 0x00000000#32)) (colE dst)
          (broadcastInDim S1000000 ![] bcast_S_S1000000 (constant (F := Ideal) S_ .f32 0x3F800000#32))) (ix1 r) := by
  unfold cntM
  exact column20000_apply _ r

/-- The number of rated edges starting at user `r`. -/
theorem cntU_apply (src : Arr Ideal S1000000 .i32) (r : Fin 100000) :
    cntU (F := Ideal) src (ix2 r 0)
      = (Host.scatterAdd scatter_S100000_S1000000x1_S1000000_n_0_0_1
          (broadcastInDim S100000 ![] bcast_S_S100000 (constant (F := Ideal) S_ .f32 0x00000000#32)) (colE src)
          (broadcastInDim S1000000 ![] bcast_S_S1000000 (constant (F := Ideal) S_ .f32 0x3F800000#32))) (ix1 r) := by
  unfold cntU
  exact column100000_apply _ r

/-- The number of follow edges ending at user `r`. -/
theorem cntUU_apply (udst : Arr Ideal S500000 .i32) (r : Fin 100000) :
    cntUU (F := Ideal) udst (ix2 r 0)
      = (Host.scatterAdd scatter_S100000_S500000x1_S500000_n_0_0_1
          (broadcastInDim S100000 ![] bcast_S_S100000 (constant (F := Ideal) S_ .f32 0x00000000#32)) (colU udst)
          (broadcastInDim S500000 ![] bcast_S_S500000 (constant (F := Ideal) S_ .f32 0x3F800000#32))) (ix1 r) := by
  unfold cntUU
  exact column100000_apply _ r

/-! ## The two halves of the scorer's first weight matrix -/

/-- Row `k` of the upper half is row `k` of the 256-row matrix. -/
theorem topHalf_apply (w : Arr Ideal S256x128 .f32) (k q : Fin 128) :
    topHalf (F := Ideal) w (ix2 k q) = w (ix2 (Fin.castAdd 128 k) q) := by
  unfold topHalf
  exact extractStridedSlice_apply _ w slices_S256x128_S128x128_0_0 (ix2 k q) (ix2 (Fin.castAdd 128 k) q) (fun a => match a with
    | ⟨0, _⟩ => by show k.val = 0 + k.val; omega
    | ⟨1, _⟩ => by show q.val = 0 + q.val; omega)

/-- Row `k` of the lower half is row `128 + k` of the 256-row matrix. -/
theorem botHalf_apply (w : Arr Ideal S256x128 .f32) (k q : Fin 128) :
    botHalf (F := Ideal) w (ix2 k q) = w (ix2 (Fin.natAdd 128 k) q) := by
  unfold botHalf
  exact extractStridedSlice_apply _ w slices_S256x128_S128x128_128_0 (ix2 k q) (ix2 (Fin.natAdd 128 k) q) (fun a => match a with
    | ⟨0, _⟩ => by show 128 + k.val = 128 + k.val; rfl
    | ⟨1, _⟩ => by show q.val = 0 + q.val; omega)

/-! ## The scorer: one product with the concatenation, or two products with the halves -/

/-- The scorer applied to the concatenated endpoint rows and the whole first weight matrix is the scorer applied to the
    two endpoint rows and the two halves of the matrix: the sum over the 256 concatenated positions splits at 128, and
    the logistic function is `1 / (1 + e^(-x))`. -/
theorem predictCat_eq_predictSplit {ρ γ : Type} [Fintype γ] (z four eps : EReal) (cat : ρ → Fin (128 + 128) → EReal)
    (w : Fin (128 + 128) → γ → EReal) (b1 gamma beta mean var w2 : γ → EReal) (b2 : EReal) (r : ρ) :
    Cert.Spec.predictCat z 1 four eps cat w b1 gamma beta mean var w2 b2 r
      = Cert.Spec.predictSplit z 1 four eps (fun r k => cat r (Fin.castAdd 128 k)) (fun r k => cat r (Fin.natAdd 128 k))
          (fun k q => w (Fin.castAdd 128 k) q) (fun k q => w (Fin.natAdd 128 k) q) b1 gamma beta mean var w2 b2 r := by
  unfold Cert.Spec.predictCat Cert.Spec.predictSplit
  rw [Cert.Spec.score_eq_scoreExp]
  have h : ∀ q : γ, (∑ k, cat r k * w k q)
      = ∑ k : Fin 128, cat r (Fin.castAdd 128 k) * w (Fin.castAdd 128 k) q
        + ∑ k : Fin 128, cat r (Fin.natAdd 128 k) * w (Fin.natAdd 128 k) q :=
    fun q => Cert.Spec.sum_concat (fun k => cat r k * w k q)
  simp only [h]

end Cert.Net.Laws

end
-- ==== Proof.RefNet.lean ====
/-
  The reference's stages are the network.

  Stage by stage, the reference computes what the network's definition says. Its two input projections are the two
  `dense` maps. Each of its five graph layers takes a neighbour sum, a neighbour count and the destination rows, and is
  the mean-aggregating layer in its quotient form; the network writes the same layer with the reciprocal of the clipped
  count, and the two agree because the clip's floor is the number one. The neighbour sum of a layer is a gather of the
  previous rows along one end of the edges followed by a scatter-add along the other end into a zero matrix: the very
  operations, on the very operands, that the network's row movement names, so the two are equal as they stand and the
  gather and the scatter-add are never opened. The neighbour count is the scatter-add of ones, which the network lays
  out as one column and reads back at column `0`. The scorer of the reference multiplies the joined endpoint rows by
  the 256-row weight; the network multiplies each endpoint's rows by its half of the weight: a sum over 128 + 128
  positions split at 128, the joined row reading its halves from the two gathers.
-/
import proofs.«129102_j79517024519044_2_alg».proof.Proof.RefDense
import proofs.«129102_j79517024519044_2_alg».proof.Proof.RefSage1
import proofs.«129102_j79517024519044_2_alg».proof.Proof.RefSage2
import proofs.«129102_j79517024519044_2_alg».proof.Proof.RefSage3
import proofs.«129102_j79517024519044_2_alg».proof.Proof.RefSage4
import proofs.«129102_j79517024519044_2_alg».proof.Proof.RefSage5
import proofs.«129102_j79517024519044_2_alg».proof.Proof.RefScorer
import proofs.«129102_j79517024519044_2_alg».proof.Proof.Net
import proofs.«129102_j79517024519044_2_alg».proof.Proof.Lits
import proofs.«129102_j79517024519044_2_alg».proof.Proof.NetLaws

noncomputable section

namespace Cert.ReferenceIdeal.RefNet

open Cert.ReferenceIdeal Cert.ReferenceIdeal.Gen Cert.ReferenceIdeal.Read Cert.ReferenceIdeal.RefLayers
open Idealize.ShloMosaic Idealize.ShloMosaic.TcCoe Idealize.SL.Sem Idealize.ShloMosaic.StableHlo
open Idealize.ShloMosaic.ValueIdx
open scoped BigOperators

/-! ## The reference's row movement is the network's

Each neighbour sum is the scatter-add, into a zero matrix and along one end of the edges, of the rows gathered along
the other end; each side spells the same operations on the same operands, so the equations hold as they stand. -/

theorem sum19 (x0 : (⟨S100000x64, .f32⟩ : BufTy).Contents (Elt Ideal)) (x2 : (⟨S64x128, .f32⟩ : BufTy).Contents (Elt Ideal)) (x3 : (⟨S128, .f32⟩ : BufTy).Contents (Elt Ideal)) (x29 x30 : (⟨S1000000, .i32⟩ : BufTy).Contents (Elt Ideal)) :
    val_main_v19 (F := Ideal) x0 x2 x3 x29 x30 =
      Cert.KernelIdeal.Glue.sumToM (val_main_v4 (F := Ideal) x0 x2 x3) x29 x30 := rfl

theorem sum45 (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x29 x30 : (⟨S1000000, .i32⟩ : BufTy).Contents (Elt Ideal)) :
    val_main_v45 (F := Ideal) x0 x1 x2 x3 x4 x5 x6 x7 x8 x29 x30 =
      Cert.KernelIdeal.Glue.sumToU (val_main_v35 (F := Ideal) x0 x1 x2 x3 x4 x5 x6 x7 x8 x29 x30) x29 x30 := rfl

theorem sum71 (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 : (⟨S128x128, .f32⟩ : BufTy).Contents (Elt Ideal)) (x29 x30 : (⟨S1000000, .i32⟩ : BufTy).Contents (Elt Ideal)) :
    val_main_v71 (F := Ideal) x0 x1 x2 x3 x4 x5 x6 x7 x8 x9 x10 x11 x29 x30 =
      Cert.KernelIdeal.Glue.sumToM (val_main_v61 (F := Ideal) x0 x1 x2 x3 x4 x5 x6 x7 x8 x9 x10 x11 x29 x30) x29 x30 := rfl

theorem sum97 (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S128x128, .f32⟩ : BufTy).Contents (Elt Ideal)) (x29 x30 : (⟨S1000000, .i32⟩ : BufTy).Contents (Elt Ideal)) :
    val_main_v97 (F := Ideal) x0 x1 x2 x3 x4 x5 x6 x7 x8 x9 x10 x11 x12 x13 x14 x29 x30 =
      Cert.KernelIdeal.Glue.sumToU (val_main_v87 (F := Ideal) x0 x1 x2 x3 x4 x5 x6 x7 x8 x9 x10 x11 x12 x13 x14 x29 x30) x29 x30 := rfl

theorem sum123 (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 : (⟨S128x128, .f32⟩ : BufTy).Contents (Elt Ideal)) (x29 x30 : (⟨S1000000, .i32⟩ : BufTy).Contents (Elt Ideal)) (x31 x32 : (⟨S500000, .i32⟩ : BufTy).Contents (Elt Ideal)) :
    val_main_v123 (F := Ideal) x0 x1 x2 x3 x4 x5 x6 x7 x8 x9 x10 x11 x12 x13 x14 x15 x16 x17 x29 x30 x31 x32 =
      Cert.KernelIdeal.Glue.sumUU (val_main_v113 (F := Ideal) x0 x1 x2 x3 x4 x5 x6 x7 x8 x9 x10 x11 x12 x13 x14 x15 x16 x17 x29 x30) x31 x32 := rfl

/-- The two endpoint embeddings of every rated edge are the network's two row gathers. -/
theorem rows146 (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 x18 : (⟨S128x128, .f32⟩ : BufTy).Contents (Elt Ideal)) (x19 : (⟨S128, .f32⟩ : BufTy).Contents (Elt Ideal)) (x20 : (⟨S128x128, .f32⟩ : BufTy).Contents (Elt Ideal)) (x29 x30 : (⟨S1000000, .i32⟩ : BufTy).Contents (Elt Ideal)) (x31 x32 : (⟨S500000, .i32⟩ : BufTy).Contents (Elt Ideal)) :
    val_main_v146 (F := Ideal) x0 x1 x2 x3 x4 x5 x6 x7 x8 x9 x10 x11 x12 x13 x14 x15 x16 x17 x18 x19 x20 x29 x30 x31 x32 =
      Cert.KernelIdeal.Glue.rowsU (val_main_v139 (F := Ideal) x0 x1 x2 x3 x4 x5 x6 x7 x8 x9 x10 x11 x12 x13 x14 x15 x16 x17 x18 x19 x20 x29 x30 x31 x32) x29 := rfl

theorem rows153 (x0 : (⟨S100000x64, .f32⟩ : BufTy).Contents (Elt Ideal)) (x1 : (⟨S20000x128, .f32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S128x128, .f32⟩ : BufTy).Contents (Elt Ideal)) (x29 x30 : (⟨S1000000, .i32⟩ : BufTy).Contents (Elt Ideal)) :
    val_main_v153 (F := Ideal) x0 x1 x2 x3 x4 x5 x6 x7 x8 x9 x10 x11 x12 x13 x14 x29 x30 =
      Cert.KernelIdeal.Glue.rowsM (val_main_v87 (F := Ideal) x0 x1 x2 x3 x4 x5 x6 x7 x8 x9 x10 x11 x12 x13 x14 x29 x30) x30 := rfl

/-! ## The neighbour counts: the column read at column `0` is the scatter-added vector -/

theorem cnt23_at (x30 : (⟨S1000000, .i32⟩ : BufTy).Contents (Elt Ideal)) (r : Fin 20000) :
    Cert.KernelIdeal.Glue.cntM (F := Ideal) x30 (ix2 r 0) = val_main_v23 (F := Ideal) x30 (ix1 r) := by
  rw [Cert.Net.Laws.cntM_apply]
  rfl

theorem cnt49_at (x29 : (⟨S1000000, .i32⟩ : BufTy).Contents (Elt Ideal)) (r : Fin 100000) :
    Cert.KernelIdeal.Glue.cntU (F := Ideal) x29 (ix2 r 0) = val_main_v49 (F := Ideal) x29 (ix1 r) := by
  rw [Cert.Net.Laws.cntU_apply]
  rfl

theorem cnt75_at (x30 : (⟨S1000000, .i32⟩ : BufTy).Contents (Elt Ideal)) (r : Fin 20000) :
    Cert.KernelIdeal.Glue.cntM (F := Ideal) x30 (ix2 r 0) = val_main_v75 (F := Ideal) x30 (ix1 r) := by
  rw [Cert.Net.Laws.cntM_apply]
  rfl

theorem cnt101_at (x29 : (⟨S1000000, .i32⟩ : BufTy).Contents (Elt Ideal)) (r : Fin 100000) :
    Cert.KernelIdeal.Glue.cntU (F := Ideal) x29 (ix2 r 0) = val_main_v101 (F := Ideal) x29 (ix1 r) := by
  rw [Cert.Net.Laws.cntU_apply]
  rfl

theorem cnt127_at (x32 : (⟨S500000, .i32⟩ : BufTy).Contents (Elt Ideal)) (r : Fin 100000) :
    Cert.KernelIdeal.Glue.cntUU (F := Ideal) x32 (ix2 r 0) = val_main_v127 (F := Ideal) x32 (ix1 r) := by
  rw [Cert.Net.Laws.cntUU_apply]
  rfl

/-! ## The stages of the reference, as the network's definitions -/

variable (A : Cert.Net.Args)

/-- The users' first rows. -/
theorem r_ux0 : val_main_v4 (F := Ideal) A.userFeat A.wUser A.bUser = Cert.Net.ux0 A := by
  rw [main_v4_eq]
  rfl

/-- The movies' first rows. -/
theorem r_mx0 : val_main_v9 (F := Ideal) A.movieFeat A.wMovie A.bMovie = Cert.Net.mx0 A := by
  rw [main_v9_eq]
  rfl

/-- The movies' rows after the first graph layer. -/
theorem r_mx1 : val_main_v35 (F := Ideal) A.userFeat A.movieFeat A.wUser A.bUser A.wMovie A.bMovie A.l1Wl A.l1bl A.l1Wr A.src A.dst = Cert.Net.mx1 A := by
  unfold Cert.Net.mx1
  rw [Cert.Net.Laws.layerM_eq, main_v35_eq, sum19, r_ux0 A, r_mx0 A]
  simp only [cnt23_at]

/-- The users' rows after the second graph layer. -/
theorem r_ux1 : val_main_v61 (F := Ideal) A.userFeat A.movieFeat A.wUser A.bUser A.wMovie A.bMovie A.l1Wl A.l1bl A.l1Wr A.l2Wl A.l2bl A.l2Wr A.src A.dst = Cert.Net.ux1 A := by
  unfold Cert.Net.ux1
  rw [Cert.Net.Laws.layerU_eq, main_v61_eq, sum45, r_mx1 A, r_ux0 A]
  simp only [cnt49_at]

/-- The movies' rows after the third graph layer. -/
theorem r_mx2 : val_main_v87 (F := Ideal) A.userFeat A.movieFeat A.wUser A.bUser A.wMovie A.bMovie A.l1Wl A.l1bl A.l1Wr A.l2Wl A.l2bl A.l2Wr A.l3Wl A.l3bl A.l3Wr A.src A.dst = Cert.Net.mx2 A := by
  unfold Cert.Net.mx2
  rw [Cert.Net.Laws.layerM_eq, main_v87_eq, sum71, r_ux1 A, r_mx1 A]
  simp only [cnt75_at]

/-- The users' rows after the fourth graph layer. -/
theorem r_ux2 : val_main_v113 (F := Ideal) A.userFeat A.movieFeat A.wUser A.bUser A.wMovie A.bMovie A.l1Wl A.l1bl A.l1Wr A.l2Wl A.l2bl A.l2Wr A.l3Wl A.l3bl A.l3Wr A.l4Wl A.l4bl A.l4Wr A.src A.dst = Cert.Net.ux2 A := by
  unfold Cert.Net.ux2
  rw [Cert.Net.Laws.layerU_eq, main_v113_eq, sum97, r_mx2 A, r_ux1 A]
  simp only [cnt101_at]

/-- The users' rows after the follow-edge layer. -/
theorem r_ux3 : val_main_v139 (F := Ideal) A.userFeat A.movieFeat A.wUser A.bUser A.wMovie A.bMovie A.l1Wl A.l1bl A.l1Wr A.l2Wl A.l2bl A.l2Wr A.l3Wl A.l3bl A.l3Wr A.l4Wl A.l4bl A.l4Wr A.l5Wl A.l5bl A.l5Wr A.src A.dst A.usrc A.udst = Cert.Net.ux3 A := by
  unfold Cert.Net.ux3
  rw [Cert.Net.Laws.layerU_eq, main_v139_eq, sum123, r_ux2 A]
  simp only [cnt127_at]

/-- The scores: the reference's vector reads, at edge `i`, the network's score column at row `i`, column `0`. -/
theorem r_scores (i : S1000000.Idx) :
    val_main_v189 (F := Ideal) A.userFeat A.movieFeat A.wUser A.bUser A.wMovie A.bMovie A.l1Wl A.l1bl A.l1Wr A.l2Wl A.l2bl A.l2Wr A.l3Wl A.l3bl A.l3Wr A.l4Wl A.l4bl A.l4Wr A.l5Wl A.l5bl A.l5Wr A.p1W A.p1b A.gamma A.beta A.mean A.var A.p2W A.p2b A.src A.dst A.usrc A.udst i = Cert.Net.scores A (ix2 (i 0) 0) := by
  rw [main_v189_eq]
  dsimp only [Cert.Net.scores, Cert.Net.z, Cert.Net.one, Cert.Net.four, Cert.Net.eps]
  rw [Cert.Lits.one_f32]
  refine (Cert.Net.Laws.predictCat_eq_predictSplit _ _ _ _ _ _ _ _ _ _ _ _ _).trans ?_
  simp only [main_v154_left, main_v154_right, rows146, rows153, r_ux3 A, r_mx2 A, Cert.Net.Laws.topHalf_apply,
    Cert.Net.Laws.botHalf_apply]

end Cert.ReferenceIdeal.RefNet

end
-- ==== Proof.NetResult.lean ====
/-
  The network's result vector read at an edge: laying the one-column score matrix out along its rows puts the score
  of edge `e` (row `e`, the only column) at position `e` — both have row-major position `e`.
-/
import proofs.«129102_j79517024519044_2_alg».proof.Proof.Net
import Idealize.ShloMosaic.Lib.Pipeline.Value

noncomputable section

namespace Cert.Net

open Idealize.ShloMosaic Idealize.ShloMosaic.ValueIdx Cert.KernelIdeal Cert.KernelIdeal.Facts₀

theorem result_apply (A : Args) (i : S1000000.Idx) : result A i = scores A (ix2 (i 0) 0) := by
  unfold result
  refine shapeCast_apply _ _ i (ix2 (i 0) 0) ?_
  rw [Shape.rowMajor_val_two, Shape.rowMajor_val_one]
  show ((i 0 : Fin 1000000)).val * 1 + (0 : Fin 1).val = (i 0).val
  simp

end Cert.Net

end
-- ==== Proof.RefValue.lean ====
/-
  The reference's result array is the network's result vector: entry `e` of the reference's last stage is the score
  of edge `e`, which is what the network's result holds at `e`.
-/
import proofs.«129102_j79517024519044_2_alg».proof.Proof.RefNet
import proofs.«129102_j79517024519044_2_alg».proof.Proof.NetResult

noncomputable section

namespace Cert.ReferenceIdeal.RefNet

open Idealize.ShloMosaic Cert.ReferenceIdeal Cert.ReferenceIdeal.Read

theorem r_result (A : Cert.Net.Args) :
    val_main_v189 (F := Ideal) A.userFeat A.movieFeat A.wUser A.bUser A.wMovie A.bMovie A.l1Wl A.l1bl A.l1Wr
      A.l2Wl A.l2bl A.l2Wr A.l3Wl A.l3bl A.l3Wr A.l4Wl A.l4bl A.l4Wr A.l5Wl A.l5bl A.l5Wr A.p1W A.p1b A.gamma A.beta
      A.mean A.var A.p2W A.p2b A.src A.dst A.usrc A.udst = Cert.Net.result A := by
  funext i
  rw [Cert.Net.result_apply]
  exact r_scores A i

end Cert.ReferenceIdeal.RefNet

end
-- ==== Proof.lean ====
/-
  The certificate: a graph network on TPU kernels computes, on the extended reals, what its plain reference computes.

  The network embeds users and movies by a linear layer with the rectifier, passes rows along the rated edges by four
  mean-aggregating graph layers (users to movies, movies to users, twice) and along the follow edges by a fifth, and
  scores every rated edge from its two endpoint rows. The kernel program runs each dense stage as a tiled kernel over
  blocks of 5000 rows and leaves the row movement (gathers, segment sums) to host operations; the reference is host
  operations throughout.

  Both programs' results are shown to be ONE function of the argument arrays, `Cert.Net.result`: the kernel program's
  by reading its run boundary by boundary (each launch's output array is its dense stage of the arrays its windows
  staged; each host stretch's results are the row movement of its operands), the reference's stage by stage. Where
  the two spell a stage differently they agree on every extended real, infinite ones included, so the precondition
  is never opened: the mean of a node's neighbour rows is a product with the reciprocal of the clipped neighbour
  count on one side and a quotient by it on the other, equal because the clipped count is at least one and hence not
  zero; the scorer's first affine map is two products with the halves of its weight matrix on one side and one
  product with the concatenated embedding on the other, a finite sum split in two; the logistic function is one
  operation on one side and its defining expression `1 / (1 + e^(-x))` on the other.

  The three frames are the generated ones (the reference's is its generated run with the result dropped); the
  idealization ledger is empty, so `preserves` asks nothing.
-/
import proofs.«129102_j79517024519044_2_alg».proof.Defs
import proofs.«129102_j79517024519044_2_alg».proof.Proof.Gen.Kernel
import proofs.«129102_j79517024519044_2_alg».proof.Proof.Gen.Kernel.Skeleton
import proofs.«129102_j79517024519044_2_alg».proof.Proof.Gen.Kernel.Launch
import proofs.«129102_j79517024519044_2_alg».proof.Proof.Gen.Kernel.Points
import proofs.«129102_j79517024519044_2_alg».proof.Proof.Gen.Kernel.Frame
import proofs.«129102_j79517024519044_2_alg».proof.Proof.Gen.KernelIdeal
import proofs.«129102_j79517024519044_2_alg».proof.Proof.Gen.KernelIdeal.Skeleton
import proofs.«129102_j79517024519044_2_alg».proof.Proof.Gen.KernelIdeal.Launch
import proofs.«129102_j79517024519044_2_alg».proof.Proof.Gen.KernelIdeal.Points
import proofs.«129102_j79517024519044_2_alg».proof.Proof.Gen.KernelIdeal.Frame
import proofs.«129102_j79517024519044_2_alg».proof.Proof.Gen.ReferenceIdeal
import proofs.«129102_j79517024519044_2_alg».proof.Proof.Gen.ReferenceIdeal.Run
import proofs.«129102_j79517024519044_2_alg».proof.Proof.Gen.ReferenceIdeal.Read
import proofs.«129102_j79517024519044_2_alg».proof.Proof.Gen.Pre_finite_inputs
import Idealize.ShloMosaic.Adequacy
import Idealize.ShloMosaic.Init

import proofs.«129102_j79517024519044_2_alg».proof.Proof.KRun
import proofs.«129102_j79517024519044_2_alg».proof.Proof.KValue
import proofs.«129102_j79517024519044_2_alg».proof.Proof.RefValue

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both runs end with the result array at the network's value of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Net.result (Cert.KernelIdeal.Chain.argsOf m c), ?_, ?_⟩
  · exact (θ_run Cert.KernelIdeal.defs _ _).mono
      (fun r h c => ⟨(h c).1.trans (Cert.KernelIdeal.Chain.kernel_value m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22,
      h23, h24, h25, h26, h27, h28, h29, h30, h31, h32⟩ := hagree c
    rw [Cert.ReferenceIdeal.Read.val_main_v189_eq m' c, h0, h1, h2, h3, h4, h5, h6, h7, h8, h9, h10, h11, h12, h13,
      h14, h15, h16, h17, h18, h19, h20, h21, h22, h23, h24, h25, h26, h27, h28, h29, h30, h31, h32]
    exact Cert.ReferenceIdeal.RefNet.r_result (Cert.KernelIdeal.Chain.argsOf m c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
